-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x128 .f32) (main_arg10 : FVec F S128 .f32) (main_arg11 : FVec F S128 .f32) (main_arg12 : FVec F S128 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256x128 .f32) (main_arg10 : FVec F S128 .f32) (main_arg11 : FVec F S128 .f32) (main_arg12 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x128 .f32) (main_arg1 : FVec F S128x256 .f32) (main_arg2 : FVec F S256 .f32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : FVec F S256x128 .f32) (main_arg10 : FVec F S128 .f32) (main_arg11 : FVec F S128 .f32) (main_arg12 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S1024x128 : Shape := ⟨2, ![1024, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1024x1 : Shape := ⟨2, ![1024, 1]⟩
abbrev S1x128 : Shape := ⟨2, ![1, 128]⟩
abbrev S1x256 : Shape := ⟨2, ![1, 256]⟩
abbrev S1024x256 : Shape := ⟨2, ![1024, 256]⟩

abbrev nBuf : Space → Nat
  | .hbm => 18
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x256, .bf16⟩
  | .hbm, ⟨14, _⟩ => ⟨S256x256, .bf16⟩
  | .hbm, ⟨15, _⟩ => ⟨S256x256, .bf16⟩
  | .hbm, ⟨16, _⟩ => ⟨S256x128, .bf16⟩
  | .hbm, ⟨17, _⟩ => ⟨S128, .f32⟩
  | .local _ .vmem, ⟨0, _⟩ => ⟨S1024x128, .f32⟩
  | .local _ .vmem, ⟨1, _⟩ => ⟨S128x256, .bf16⟩
  | .local _ .vmem, ⟨2, _⟩ => ⟨S256, .f32⟩
  | .local _ .vmem, ⟨3, _⟩ => ⟨S256x256, .bf16⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256x256, .bf16⟩
  | .local _ .vmem, ⟨8, _⟩ => ⟨S256, .f32⟩
  | .local _ .vmem, ⟨9, _⟩ => ⟨S256x128, .bf16⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  iota_S1024x1_d0_w32 : S1024x1.Iotas .tc 32 [0]
  natLt_1_32 : 1 < 32
  reduces_S1024x128_S128 : S1024x128.Reduces [0] S128
  shapeCasts_S128_S1x128 : S128.ShapeCasts S1x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1024x1_S1024x256 : S1024x1.Broadcasts S1024x256
  broadcasts_S1x256_S1024x256 : S1x256.Broadcasts S1024x256
  inb_S256_S256_0 : ∀ a, (![0] : Fin 1 → Nat) a + S256.size a ≤ S256.size a
  h_S256 : 0 < S256.numel
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1024x256_S256 : S1024x256.Reduces [0] S256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  broadcasts_S1x128_S1024x128 : S1x128.Broadcasts S1024x128
  dot_S1x128_S128x256_S1x256_1_0_0_1_n_n_wf : DotDims.WF S1x128 S128x256 S1x256 [1] [0] [0] [1] [] []
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1x256_S256x256_S1x256_1_0_0_1_n_n_wf : DotDims.WF S1x256 S256x256 S1x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)

variable [Facts₀]

def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S128.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1024x128 : Shape := ⟨2, ![1024, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1024 : Shape := ⟨1, ![1024]⟩
abbrev S1024x1023 : Shape := ⟨2, ![1024, 1023]⟩
abbrev S1047552 : Shape := ⟨1, ![1047552]⟩
abbrev S1023 : Shape := ⟨1, ![1023]⟩
abbrev S_ : Shape := ⟨0, ![]⟩
abbrev S1x1023 : Shape := ⟨2, ![1, 1023]⟩
abbrev S1047552x1 : Shape := ⟨2, ![1047552, 1]⟩
abbrev S1047552x128 : Shape := ⟨2, ![1047552, 128]⟩
abbrev S1024x256 : Shape := ⟨2, ![1024, 256]⟩
abbrev S1x256 : Shape := ⟨2, ![1, 256]⟩
abbrev S1047552x256 : Shape := ⟨2, ![1047552, 256]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S1024x128, .f32⟩
  | 1 => ⟨S128x256, .f32⟩
  | 2 => ⟨S256, .f32⟩
  | 3 => ⟨S256x256, .f32⟩
  | 4 => ⟨S256, .f32⟩
  | 5 => ⟨S256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128, .f32⟩
  | 12 => ⟨S128, .f32⟩
  | 13 => ⟨S1024, .i32⟩
  | 14 => ⟨S1024x1023, .i32⟩
  | 15 => ⟨S1047552, .i32⟩
  | 16 => ⟨S1023, .i32⟩
  | 17 => ⟨S_, .i32⟩
  | 18 => ⟨S1023, .i32⟩
  | 19 => ⟨S1023, .i32⟩
  | 20 => ⟨S1x1023, .i32⟩
  | 21 => ⟨S1024x1023, .i32⟩
  | 22 => ⟨S1047552, .i32⟩
  | 23 => ⟨S_, .i32⟩
  | 24 => ⟨S1047552, .i32⟩
  | 25 => ⟨S1047552, .i1⟩
  | 26 => ⟨S_, .i32⟩
  | 27 => ⟨S1047552, .i32⟩
  | 28 => ⟨S1047552, .i32⟩
  | 29 => ⟨S1047552, .i32⟩
  | 30 => ⟨S1047552x1, .i32⟩
  | 31 => ⟨S1047552x128, .f32⟩
  | 32 => ⟨S_, .f32⟩
  | 33 => ⟨S1024x128, .f32⟩
  | 34 => ⟨S1047552x1, .i32⟩
  | 35 => ⟨S1024x128, .f32⟩
  | 36 => ⟨S1024x128, .f32⟩
  | 37 => ⟨S1024x256, .f32⟩
  | 38 => ⟨S1x256, .f32⟩
  | 39 => ⟨S1024x256, .f32⟩
  | 40 => ⟨S1024x256, .f32⟩
  | 41 => ⟨S_, .f32⟩
  | 42 => ⟨S1024x256, .f32⟩
  | 43 => ⟨S1024x256, .f32⟩
  | 44 => ⟨S1024x256, .f32⟩
  | 45 => ⟨S1x256, .f32⟩
  | 46 => ⟨S1024x256, .f32⟩
  | 47 => ⟨S1024x256, .f32⟩
  | 48 => ⟨S_, .f32⟩
  | 49 => ⟨S1024x256, .f32⟩
  | 50 => ⟨S1024x256, .f32⟩
  | 51 => ⟨S_, .f32⟩
  | 52 => ⟨S256, .f32⟩
  | 53 => ⟨S_, .f32⟩
  | 54 => ⟨S256, .f32⟩
  | 55 => ⟨S256, .f32⟩
  | 56 => ⟨S_, .i32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S1024x256, .f32⟩
  | 64 => ⟨S1024x256, .f32⟩
  | 65 => ⟨S1024x256, .f32⟩
  | 66 => ⟨S_, .f32⟩
  | 67 => ⟨S_, .f32⟩
  | 68 => ⟨S_, .f32⟩
  | 69 => ⟨S_, .f32⟩
  | 70 => ⟨S256, .f32⟩
  | 71 => ⟨S256, .f32⟩
  | 72 => ⟨S256, .f32⟩
  | 73 => ⟨S_, .f32⟩
  | 74 => ⟨S_, .i1⟩
  | 75 => ⟨S_, .f32⟩
  | 76 => ⟨S_, .f32⟩
  | 77 => ⟨S256, .f32⟩
  | 78 => ⟨S256, .f32⟩
  | 79 => ⟨S1x256, .f32⟩
  | 80 => ⟨S1024x256, .f32⟩
  | 81 => ⟨S1024x256, .f32⟩
  | 82 => ⟨S_, .f32⟩
  | 83 => ⟨S256, .f32⟩
  | 84 => ⟨S256, .f32⟩
  | 85 => ⟨S256, .f32⟩
  | 86 => ⟨S1x256, .f32⟩
  | 87 => ⟨S1024x256, .f32⟩
  | 88 => ⟨S1024x256, .f32⟩
  | 89 => ⟨S1x256, .f32⟩
  | 90 => ⟨S1024x256, .f32⟩
  | 91 => ⟨S1024x256, .f32⟩
  | 92 => ⟨S1x256, .f32⟩
  | 93 => ⟨S1024x256, .f32⟩
  | 94 => ⟨S1024x256, .f32⟩
  | 95 => ⟨S_, .i32⟩
  | 96 => ⟨S1047552, .i32⟩
  | 97 => ⟨S1047552, .i1⟩
  | 98 => ⟨S_, .i32⟩
  | 99 => ⟨S1047552, .i32⟩
  | 100 => ⟨S1047552, .i32⟩
  | 101 => ⟨S1047552, .i32⟩
  | 102 => ⟨S1047552x1, .i32⟩
  | 103 => ⟨S1047552x256, .f32⟩
  | 104 => ⟨S_, .f32⟩
  | 105 => ⟨S1024x256, .f32⟩
  | 106 => ⟨S1047552x1, .i32⟩
  | 107 => ⟨S1024x256, .f32⟩
  | 108 => ⟨S1024x256, .f32⟩
  | 109 => ⟨S1024x256, .f32⟩
  | 110 => ⟨S1x256, .f32⟩
  | 111 => ⟨S1024x256, .f32⟩
  | 112 => ⟨S1024x256, .f32⟩
  | 113 => ⟨S_, .f32⟩
  | 114 => ⟨S1024x256, .f32⟩
  | 115 => ⟨S1024x256, .f32⟩
  | 116 => ⟨S1024x128, .f32⟩
  | 117 => ⟨S1x128, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S_, .f32⟩
  | 124 => ⟨S128, .f32⟩
  | 125 => ⟨S_, .f32⟩
  | 126 => ⟨S128, .f32⟩
  | 127 => ⟨S128, .f32⟩
  | _ => ⟨S1024x128, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S1024x128, .f32⟩
  | 8 => ⟨S1024x128, .f32⟩
  | 9 => ⟨S1024x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S1024x128, .f32⟩
  | 25 => ⟨S1024x128, .f32⟩
  | 26 => ⟨S_, .f32⟩
  | 27 => ⟨S128, .f32⟩
  | 28 => ⟨S128, .f32⟩
  | 29 => ⟨S128, .f32⟩
  | 30 => ⟨S1x128, .f32⟩
  | 31 => ⟨S1024x128, .f32⟩
  | 32 => ⟨S1024x128, .f32⟩
  | 33 => ⟨S1x128, .f32⟩
  | 34 => ⟨S1024x128, .f32⟩
  | 35 => ⟨S1024x128, .f32⟩
  | 36 => ⟨S1x128, .f32⟩
  | 37 => ⟨S1024x128, .f32⟩
  | 38 => ⟨S1024x128, .f32⟩
  | 39 => ⟨S_, .f32⟩
  | 40 => ⟨S128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_cst_3 : Ref sig .tc := ⟨.hbm, 73, rfl⟩
abbrev main_call2_v12 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_5 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_6 : Ref sig .tc := ⟨.hbm, 95, rfl⟩
abbrev main_v49 : Ref sig .tc := ⟨.hbm, 96, rfl⟩
abbrev main_v50 : Ref sig .tc := ⟨.hbm, 97, rfl⟩
abbrev main_c_7 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_8 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_call3_cst : Ref sig .tc := ⟨.hbm, 113, rfl⟩
abbrev main_call3_v0 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call4_cst : Ref sig .tc := ⟨.hbm, 120, rfl⟩
abbrev main_call4_v0 : Ref sig .tc := ⟨.hbm, 121, rfl⟩
abbrev main_v69 : Ref sig .tc := ⟨.hbm, 122, rfl⟩
abbrev main_cst_9 : Ref sig .tc := ⟨.hbm, 123, rfl⟩
abbrev main_v70 : Ref sig .tc := ⟨.hbm, 124, rfl⟩
abbrev main_cst_10 : Ref sig .tc := ⟨.hbm, 125, rfl⟩
abbrev main_v71 : Ref sig .tc := ⟨.hbm, 126, rfl⟩
abbrev main_v72 : Ref sig .tc := ⟨.hbm, 127, rfl⟩
abbrev main_c_11 : Ref sig .tc := ⟨.hbm, 128, rfl⟩
abbrev main_call5_cst : Ref sig .tc := ⟨.hbm, 129, rfl⟩
abbrev main_call5_v0 : Ref sig .tc := ⟨.hbm, 130, rfl⟩
abbrev main_call5_v1 : Ref sig .tc := ⟨.hbm, 131, rfl⟩
abbrev main_call5_cst_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_cst_1 : Ref sig .tc := ⟨.hbm, 139, rfl⟩
abbrev main_call5_v8 : Ref sig .tc := ⟨.hbm, 140, rfl⟩
abbrev main_call5_cst_2 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_cst_3 : Ref sig .tc := ⟨.hbm, 145, rfl⟩
abbrev main_call5_v12 : Ref sig .tc := ⟨.hbm, 146, rfl⟩
abbrev main_call5_cst_4 : Ref sig .tc := ⟨.hbm, 147, rfl⟩
abbrev main_call5_call0_v0 : Ref sig .tc := ⟨.hbm, 148, rfl⟩
abbrev main_call5_call0_v1 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_12 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_13 : Ref sig .tc := ⟨.hbm, 167, rfl⟩
abbrev main_v89 : Ref sig .tc := ⟨.hbm, 168, rfl⟩

abbrev nD : Nat := 1
abbrev τ : Topo := Topo.v7x

variable {F : FTy → Type} [FloatOps F]

class Facts₀ : Prop where
  bcast_S1024_S1024x1023_0 : S1024.BroadcastsInDim S1024x1023 (![0] : Fin 1 → Fin S1024x1023.rank)
  shapeCasts_S1024x1023_S1047552 : S1024x1023.ShapeCasts S1047552
  bcast_S_S1023 : S_.BroadcastsInDim S1023 (![] : Fin 0 → Fin S1023.rank)
  shapeCasts_S1023_S1x1023 : S1023.ShapeCasts S1x1023
  bcast_S1x1023_S1024x1023_0_1 : S1x1023.BroadcastsInDim S1024x1023 (![0, 1] : Fin 2 → Fin S1024x1023.rank)
  bcast_S_S1047552 : S_.BroadcastsInDim S1047552 (![] : Fin 0 → Fin S1047552.rank)
  bcast_S1047552_S1047552x1_0 : S1047552.BroadcastsInDim S1047552x1 (![0] : Fin 1 → Fin S1047552x1.rank)
  bcast_S_S1024x128 : S_.BroadcastsInDim S1024x128 (![] : Fin 0 → Fin S1024x128.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  reducesTo_S1024x256_S256_d0 : S1024x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S128_d0 : S1024x128.ReducesTo [0] S128
  bcast_S_S128 : S_.BroadcastsInDim S128 (![] : Fin 0 → Fin S128.rank)
  bcast_S_S1x128 : S_.BroadcastsInDim S1x128 (![] : Fin 0 → Fin S1x128.rank)
  gather_S1024x128_S1047552x1_S1047552x128_1_0_n_n_0_1_1128_wf : GatherDims.WF S1024x128 S1047552x1 S1047552x128 [1] [0] [] [0] [] 1 ![1, 128]
  scatter_S1024x128_S1047552x1_S1047552x128_1_0_0_1_wf : ScatterDims.WF S1024x128 S1047552x1 S1047552x128 [1] [0] [0] 1
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  gather_S1024x256_S1047552x1_S1047552x256_1_0_n_n_0_1_1256_wf : GatherDims.WF S1024x256 S1047552x1 S1047552x256 [1] [0] [] [0] [] 1 ![1, 256]
  scatter_S1024x256_S1047552x1_S1047552x256_1_0_0_1_wf : ScatterDims.WF S1024x256 S1047552x1 S1047552x256 [1] [0] [0] 1
  dot_S1024x256_S256x128_S1024x128_1_0_0_1_n_n_wf : DotDims.WF S1024x256 S256x128 S1024x128 [1] [0] [0] [1] [] []

variable [Facts₀]

def gather_S1024x128_S1047552x1_S1047552x128_1_0_n_n_0_1_1128 : GatherDims S1024x128 S1047552x1 S1047552x128 where
  offsetDims := [1]
  collapsedSliceDims := [0]
  operandBatchingDims := []
  startIndicesBatchingDims := []
  startIndexMap := [0]
  indexVectorDim := 1
  sliceSizes := ![1, 128]
  wf := gather_S1024x128_S1047552x1_S1047552x128_1_0_n_n_0_1_1128_wf
def scatter_S1024x128_S1047552x1_S1047552x128_1_0_0_1 : ScatterDims S1024x128 S1047552x1 S1047552x128 where
  updateWindowDims := [1]
  insertedWindowDims := [0]
  scatterDimsToOperandDims := [0]
  indexVectorDim := 1
  wf := scatter_S1024x128_S1047552x1_S1047552x128_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S1024x256_S1047552x1_S1047552x256_1_0_n_n_0_1_1256 : GatherDims S1024x256 S1047552x1 S1047552x256 where
  offsetDims := [1]
  collapsedSliceDims := [0]
  operandBatchingDims := []
  startIndicesBatchingDims := []
  startIndexMap := [0]
  indexVectorDim := 1
  sliceSizes := ![1, 256]
  wf := gather_S1024x256_S1047552x1_S1047552x256_1_0_n_n_0_1_1256_wf
def scatter_S1024x256_S1047552x1_S1047552x256_1_0_0_1 : ScatterDims S1024x256 S1047552x1 S1047552x256 where
  updateWindowDims := [1]
  insertedWindowDims := [0]
  scatterDimsToOperandDims := [0]
  indexVectorDim := 1
  wf := scatter_S1024x256_S1047552x1_S1047552x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.Spec.lean ====
/-
  The two-layer graph encoder as functions of finitely indexed families of extended reals, in the two arrangements
  that are to be compared.  Rows are indexed by Fin N (the nodes), columns by Fin A, Fin B, … (the features).

  One layer takes node features h, aggregates over the graph, applies a two-layer perceptron with a rectifier
  after each linear map, and normalises every column to mean zero and unit variance over the nodes:

      out = (R - mean R) * rs (var R + eps) * gamma + beta,     R = relu (lin (relu (L h)) Wb bb).

  Every node but node 0 receives an edge from every node, and node 0 receives none, so the aggregate is

      rAgg h i k = h i k + (0 if i = 0, else the column sum of h over all nodes),

  and the first linear map is either applied to the aggregate (`lin (rAgg h) Wa ba`), or distributed over it:
  `kLin h Wa ba` is the product of h with Wa plus, off row 0, the product of the row of column sums with Wa.
  The variance is either the mean of the squared deviations from the mean (`rVar`) or the mean of the squares less the
  square of the mean (`kVar`).  The division by the number of rows `dv`, the reciprocal square root `rs` and the
  constant `eps` are parameters.  The result is the column sum of the second layer's output.
-/
import Idealize.ShloMosaic.PureOps.Ideal

noncomputable section

open scoped BigOperators

namespace Cert.Enc

variable {N A B C : ℕ}

/-- The sum of a column over all rows. -/
def colSum (h : Fin N → Fin A → EReal) (k : Fin A) : EReal := ∑ a : Fin N, h a k

/-- Zero on row 0 and one on every other row. -/
def rowMask (i : Fin N) : EReal := if i.val = 0 then 0 else 1

/-- A linear map with a bias: the product of h with W plus b on every row. -/
def lin (h : Fin N → Fin A → EReal) (W : Fin A → Fin B → EReal) (b : Fin B → EReal) (i : Fin N) (j : Fin B) : EReal :=
  (∑ k : Fin A, h i k * W k j) + b j

/-- The first linear map, distributed over the aggregate: the product of h with W, plus off row 0 the product of the
    row of column sums with W, plus the bias. -/
def kLin (h : Fin N → Fin A → EReal) (W : Fin A → Fin B → EReal) (b : Fin B → EReal) (i : Fin N) (j : Fin B) : EReal :=
  ((∑ k : Fin A, h i k * W k j) + rowMask i * (∑ k : Fin A, colSum h k * W k j)) + b j

/-- The aggregate over the graph: a row plus, off row 0, the sum of all rows. -/
def rAgg (h : Fin N → Fin A → EReal) (i : Fin N) (k : Fin A) : EReal :=
  h i k + (if i.val = 0 then 0 else colSum h k)

/-- The rectifier, entry by entry. -/
def relu (h : Fin N → Fin A → EReal) (i : Fin N) (k : Fin A) : EReal := max (h i k) 0

/-- The mean of a column. -/
def mean (dv : EReal → EReal) (h : Fin N → Fin A → EReal) (j : Fin A) : EReal := dv (colSum h j)

/-- The variance of a column as the mean of the squares less the square of the mean. -/
def kVar (dv : EReal → EReal) (h : Fin N → Fin A → EReal) (j : Fin A) : EReal :=
  dv (∑ i : Fin N, h i j * h i j) - mean dv h j * mean dv h j

/-- The variance of a column as the mean of the squared deviations from the mean. -/
def rVar (dv : EReal → EReal) (h : Fin N → Fin A → EReal) (j : Fin A) : EReal :=
  dv (∑ i : Fin N, (h i j - mean dv h j) * (h i j - mean dv h j))

/-- The normalisation of every column with a given variance, then the scale gamma and the shift beta. -/
def bnWith (var : Fin A → EReal) (dv rs : EReal → EReal) (eps : EReal) (h : Fin N → Fin A → EReal)
    (g be : Fin A → EReal) (i : Fin N) (j : Fin A) : EReal :=
  ((h i j - mean dv h j) * rs (var j + eps)) * g j + be j

/-- The sum of every column over the rows. -/
def readout (h : Fin N → Fin A → EReal) (j : Fin A) : EReal := ∑ i : Fin N, h i j

/-- What is normalised in a layer whose first linear map is distributed. -/
def kPre (h : Fin N → Fin A → EReal) (Wa : Fin A → Fin B → EReal) (ba : Fin B → EReal) (Wb : Fin B → Fin C → EReal)
    (bb : Fin C → EReal) : Fin N → Fin C → EReal :=
  relu (lin (relu (kLin h Wa ba)) Wb bb)

/-- What is normalised in a layer whose first linear map is applied to the aggregate. -/
def rPre (h : Fin N → Fin A → EReal) (Wa : Fin A → Fin B → EReal) (ba : Fin B → EReal) (Wb : Fin B → Fin C → EReal)
    (bb : Fin C → EReal) : Fin N → Fin C → EReal :=
  relu (lin (relu (lin (rAgg h) Wa ba)) Wb bb)

/-- One layer, first arrangement. -/
def kLayer (dv rs : EReal → EReal) (eps : EReal) (h : Fin N → Fin A → EReal) (Wa : Fin A → Fin B → EReal)
    (ba : Fin B → EReal) (Wb : Fin B → Fin C → EReal) (bb g be : Fin C → EReal) : Fin N → Fin C → EReal :=
  bnWith (kVar dv (kPre h Wa ba Wb bb)) dv rs eps (kPre h Wa ba Wb bb) g be

/-- One layer, second arrangement. -/
def rLayer (dv rs : EReal → EReal) (eps : EReal) (h : Fin N → Fin A → EReal) (Wa : Fin A → Fin B → EReal)
    (ba : Fin B → EReal) (Wb : Fin B → Fin C → EReal) (bb g be : Fin C → EReal) : Fin N → Fin C → EReal :=
  bnWith (rVar dv (rPre h Wa ba Wb bb)) dv rs eps (rPre h Wa ba Wb bb) g be

variable {D E : ℕ}

/-- The encoder, first arrangement. -/
def kOut (dv rs : EReal → EReal) (eps : EReal) (x : Fin N → Fin A → EReal)
    (W1a : Fin A → Fin B → EReal) (b1a : Fin B → EReal) (W1b : Fin B → Fin C → EReal) (b1b g1 be1 : Fin C → EReal)
    (W2a : Fin C → Fin D → EReal) (b2a : Fin D → EReal) (W2b : Fin D → Fin E → EReal) (b2b g2 be2 : Fin E → EReal) :
    Fin E → EReal :=
  readout (kLayer dv rs eps (kLayer dv rs eps x W1a b1a W1b b1b g1 be1) W2a b2a W2b b2b g2 be2)

/-- The encoder, second arrangement. -/
def rOut (dv rs : EReal → EReal) (eps : EReal) (x : Fin N → Fin A → EReal)
    (W1a : Fin A → Fin B → EReal) (b1a : Fin B → EReal) (W1b : Fin B → Fin C → EReal) (b1b g1 be1 : Fin C → EReal)
    (W2a : Fin C → Fin D → EReal) (b2a : Fin D → EReal) (W2b : Fin D → Fin E → EReal) (b2b g2 be2 : Fin E → EReal) :
    Fin E → EReal :=
  readout (rLayer dv rs eps (rLayer dv rs eps x W1a b1a W1b b1b g1 be1) W2a b2a W2b b2b g2 be2)

end Cert.Enc

end
-- ==== Proof.SpecMath.lean ====
/-
  The two arrangements of the encoder agree on finite inputs.

  On families of REAL numbers every piece of the encoder is again a family of real numbers, so both arrangements can be
  computed in the field of reals, where
    * the first linear map distributes over the aggregate: the sum over k of (h i k + T k) * W k j is the sum of
      h i k * W k j plus the sum of T k * W k j (T the row of column sums), and on row 0 the aggregate adds nothing;
    * the mean of the squares less the square of the mean is the mean of the squared deviations from the mean;
    * a variance is non-negative and the added constant is positive, so the reciprocal square root is taken of a
      positive real and is a real.
  An extended real that is neither infinity is the image of a real, which carries the result to finite inputs.
-/
import proofs.«114618_j47768626266491_2_alg».proof.Proof.Spec

noncomputable section

open scoped BigOperators

namespace Cert.Enc

variable {N A B C D E : ℕ}

/-- A family of reals as a family of extended reals. -/
def up1 (f : Fin A → ℝ) : Fin A → EReal := fun j => ((f j : ℝ) : EReal)

/-- A two-index family of reals as a family of extended reals. -/
def up2 (f : Fin N → Fin A → ℝ) : Fin N → Fin A → EReal := fun i k => ((f i k : ℝ) : EReal)

/-- The image of a finite sum of reals is the sum of the images. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The pieces over the reals -/

def linR (h : Fin N → Fin A → ℝ) (W : Fin A → Fin B → ℝ) (b : Fin B → ℝ) (i : Fin N) (j : Fin B) : ℝ :=
  (∑ k : Fin A, h i k * W k j) + b j

def aggR (h : Fin N → Fin A → ℝ) (i : Fin N) (k : Fin A) : ℝ :=
  h i k + (if i.val = 0 then 0 else ∑ a : Fin N, h a k)

def reluR (h : Fin N → Fin A → ℝ) (i : Fin N) (k : Fin A) : ℝ := max (h i k) 0

def meanR (h : Fin N → Fin A → ℝ) (j : Fin A) : ℝ := (∑ i : Fin N, h i j) / (N : ℝ)

def varR (h : Fin N → Fin A → ℝ) (j : Fin A) : ℝ :=
  (∑ i : Fin N, (h i j - meanR h j) * (h i j - meanR h j)) / (N : ℝ)

def bnR (s : Fin A → ℝ) (h : Fin N → Fin A → ℝ) (g be : Fin A → ℝ) (i : Fin N) (j : Fin A) : ℝ :=
  ((h i j - meanR h j) * s j) * g j + be j

/-! ## Each piece maps real families to real families -/

theorem lin_up (h : Fin N → Fin A → ℝ) (W : Fin A → Fin B → ℝ) (b : Fin B → ℝ) :
    lin (up2 h) (up2 W) (up1 b) = up2 (linR h W b) := by
  funext i j
  simp only [lin, up2, up1, linR, EReal.coe_add, coe_sum, EReal.coe_mul]

theorem rAgg_up (h : Fin N → Fin A → ℝ) : rAgg (up2 h) = up2 (aggR h) := by
  funext i k
  by_cases hi : i.val = 0
  · simp only [rAgg, aggR, up2, if_pos hi, EReal.coe_add, EReal.coe_zero]
  · simp only [rAgg, aggR, up2, colSum, if_neg hi, EReal.coe_add, coe_sum]

/-- The distributed linear map is the linear map of the aggregate. -/
theorem kLin_up (h : Fin N → Fin A → ℝ) (W : Fin A → Fin B → ℝ) (b : Fin B → ℝ) :
    kLin (up2 h) (up2 W) (up1 b) = up2 (linR (aggR h) W b) := by
  funext i j
  have hr : linR (aggR h) W b i j
      = ((∑ k : Fin A, h i k * W k j)
          + (if i.val = 0 then 0 else 1) * (∑ k : Fin A, (∑ a : Fin N, h a k) * W k j)) + b j := by
    unfold linR aggR
    by_cases hi : i.val = 0
    · simp only [if_pos hi, add_zero, zero_mul]
    · simp only [if_neg hi, one_mul, add_mul, Finset.sum_add_distrib]
  show kLin (up2 h) (up2 W) (up1 b) i j = ((linR (aggR h) W b i j : ℝ) : EReal)
  rw [hr]
  by_cases hi : i.val = 0
  · simp only [kLin, rowMask, colSum, up2, up1, if_pos hi, EReal.coe_add, coe_sum, EReal.coe_mul, EReal.coe_zero]
  · simp only [kLin, rowMask, colSum, up2, up1, if_neg hi, EReal.coe_add, coe_sum, EReal.coe_mul, EReal.coe_one]

theorem relu_up (h : Fin N → Fin A → ℝ) : relu (up2 h) = up2 (reluR h) := by
  funext i k
  show max ((h i k : ℝ) : EReal) 0 = ((max (h i k) 0 : ℝ) : EReal)
  rw [EReal.coe_strictMono.monotone.map_max, EReal.coe_zero]

section Stats

variable (dv : EReal → EReal) (hdv : ∀ r : ℝ, dv (r : EReal) = ((r / (N : ℝ) : ℝ) : EReal))

include hdv

theorem mean_up (h : Fin N → Fin A → ℝ) (j : Fin A) : mean dv (up2 h) j = ((meanR h j : ℝ) : EReal) := by
  simp only [mean, colSum, up2, meanR]
  rw [← coe_sum, hdv]

theorem rVar_up (h : Fin N → Fin A → ℝ) (j : Fin A) : rVar dv (up2 h) j = ((varR h j : ℝ) : EReal) := by
  unfold rVar
  rw [mean_up dv hdv]
  simp only [up2, ← EReal.coe_sub, ← EReal.coe_mul, ← coe_sum]
  rw [hdv]
  rfl

/-- The mean of the squares less the square of the mean is the mean of the squared deviations. -/
theorem kVar_up (hN : N ≠ 0) (h : Fin N → Fin A → ℝ) (j : Fin A) :
    kVar dv (up2 h) j = ((varR h j : ℝ) : EReal) := by
  unfold kVar
  rw [mean_up dv hdv]
  simp only [up2, ← EReal.coe_mul, ← coe_sum]
  rw [hdv, ← EReal.coe_sub]
  congr 1
  have hN' : (N : ℝ) ≠ 0 := Nat.cast_ne_zero.mpr hN
  unfold varR
  have hs : ∀ i : Fin N, (h i j - meanR h j) * (h i j - meanR h j)
      = h i j * h i j - 2 * meanR h j * h i j + meanR h j * meanR h j := fun i => by ring
  simp only [hs]
  rw [Finset.sum_add_distrib, Finset.sum_sub_distrib, ← Finset.mul_sum, Finset.sum_const, Finset.card_univ,
    Fintype.card_fin, nsmul_eq_mul]
  have hm : (∑ i : Fin N, h i j) = meanR h j * (N : ℝ) := by
    unfold meanR
    field_simp
  rw [hm]
  field_simp
  ring

end Stats

theorem varR_nonneg (h : Fin N → Fin A → ℝ) (j : Fin A) : 0 ≤ varR h j :=
  div_nonneg (Finset.sum_nonneg fun i _ => mul_self_nonneg _) (Nat.cast_nonneg N)

theorem readout_up (h : Fin N → Fin A → ℝ) : readout (up2 h) = up1 (fun j => ∑ i : Fin N, h i j) := by
  funext j
  simp only [readout, up2, up1, coe_sum]

section Layers

variable (dv rs : EReal → EReal) (eps : EReal)
  (hdv : ∀ r : ℝ, dv (r : EReal) = ((r / (N : ℝ) : ℝ) : EReal))
  (hrs : ∀ r : ℝ, 0 < r → rs (r : EReal) = (((Real.sqrt r)⁻¹ : ℝ) : EReal))
  (e : ℝ) (he : 0 < e) (heps : eps = (e : EReal))

include hdv hrs he heps

/-- The normalisation of a real family, its variance a real family with positive variance plus eps. -/
theorem bn_up (var : Fin A → EReal) (v : Fin A → ℝ) (h : Fin N → Fin A → ℝ) (g be : Fin A → ℝ)
    (hvar : ∀ j, var j = ((v j : ℝ) : EReal)) (hpos : ∀ j, 0 < v j + e) :
    bnWith var dv rs eps (up2 h) (up1 g) (up1 be)
      = up2 (bnR (fun j => (Real.sqrt (v j + e))⁻¹) h g be) := by
  funext i j
  simp only [bnWith]
  rw [mean_up dv hdv, hvar j, heps, ← EReal.coe_add, hrs _ (hpos j)]
  simp only [up2, up1, bnR, EReal.coe_add, EReal.coe_mul, EReal.coe_sub]

/-- One layer: both arrangements are the image of one real family. -/
theorem layer_up (hN : N ≠ 0) (h : Fin N → Fin A → ℝ) (Wa : Fin A → Fin B → ℝ) (ba : Fin B → ℝ)
    (Wb : Fin B → Fin C → ℝ) (bb g be : Fin C → ℝ) :
    ∃ f : Fin N → Fin C → ℝ,
      kLayer dv rs eps (up2 h) (up2 Wa) (up1 ba) (up2 Wb) (up1 bb) (up1 g) (up1 be) = up2 f
      ∧ rLayer dv rs eps (up2 h) (up2 Wa) (up1 ba) (up2 Wb) (up1 bb) (up1 g) (up1 be) = up2 f := by
  have hk : kPre (up2 h) (up2 Wa) (up1 ba) (up2 Wb) (up1 bb)
      = up2 (reluR (linR (reluR (linR (aggR h) Wa ba)) Wb bb)) := by
    unfold kPre
    rw [kLin_up, relu_up, lin_up, relu_up]
  have hr : rPre (up2 h) (up2 Wa) (up1 ba) (up2 Wb) (up1 bb)
      = up2 (reluR (linR (reluR (linR (aggR h) Wa ba)) Wb bb)) := by
    unfold rPre
    rw [rAgg_up, lin_up, relu_up, lin_up, relu_up]
  have hpos : ∀ j, 0 < varR (reluR (linR (reluR (linR (aggR h) Wa ba)) Wb bb)) j + e :=
    fun j => add_pos_of_nonneg_of_pos (varR_nonneg _ j) he
  refine ⟨bnR (fun j => (Real.sqrt (varR (reluR (linR (reluR (linR (aggR h) Wa ba)) Wb bb)) j + e))⁻¹)
    (reluR (linR (reluR (linR (aggR h) Wa ba)) Wb bb)) g be, ?_, ?_⟩
  · unfold kLayer
    rw [hk]
    exact bn_up dv rs eps hdv hrs e he heps _ _ _ g be (fun j => kVar_up dv hdv hN _ j) hpos
  · unfold rLayer
    rw [hr]
    exact bn_up dv rs eps hdv hrs e he heps _ _ _ g be (fun j => rVar_up dv hdv _ j) hpos

/-- The two arrangements of the encoder agree on real inputs. -/
theorem kOut_eq_rOut_up (hN : N ≠ 0) (x : Fin N → Fin A → ℝ)
    (W1a : Fin A → Fin B → ℝ) (b1a : Fin B → ℝ) (W1b : Fin B → Fin C → ℝ) (b1b g1 be1 : Fin C → ℝ)
    (W2a : Fin C → Fin D → ℝ) (b2a : Fin D → ℝ) (W2b : Fin D → Fin E → ℝ) (b2b g2 be2 : Fin E → ℝ) :
    kOut dv rs eps (up2 x) (up2 W1a) (up1 b1a) (up2 W1b) (up1 b1b) (up1 g1) (up1 be1)
        (up2 W2a) (up1 b2a) (up2 W2b) (up1 b2b) (up1 g2) (up1 be2)
      = rOut dv rs eps (up2 x) (up2 W1a) (up1 b1a) (up2 W1b) (up1 b1b) (up1 g1) (up1 be1)
        (up2 W2a) (up1 b2a) (up2 W2b) (up1 b2b) (up1 g2) (up1 be2) := by
  obtain ⟨f1, hk1, hr1⟩ := layer_up dv rs eps hdv hrs e he heps hN x W1a b1a W1b b1b g1 be1
  obtain ⟨f2, hk2, hr2⟩ := layer_up dv rs eps hdv hrs e he heps hN f1 W2a b2a W2b b2b g2 be2
  unfold kOut rOut
  rw [hk1, hr1, hk2, hr2]

end Layers

/-! ## Finite extended reals are reals -/

theorem eq_up2_of_finite (a : Fin N → Fin A → EReal) (h : ∀ i k, a i k ≠ ⊤ ∧ a i k ≠ ⊥) :
    a = up2 (fun i k => (a i k).toReal) := by
  funext i k
  exact (EReal.coe_toReal (h i k).1 (h i k).2).symm

theorem eq_up1_of_finite (a : Fin A → EReal) (h : ∀ k, a k ≠ ⊤ ∧ a k ≠ ⊥) :
    a = up1 (fun k => (a k).toReal) := by
  funext k
  exact (EReal.coe_toReal (h k).1 (h k).2).symm

/-- The two arrangements of the encoder agree whenever every input entry is finite. -/
theorem kOut_eq_rOut (dv rs : EReal → EReal) (eps : EReal)
    (hdv : ∀ r : ℝ, dv (r : EReal) = ((r / (N : ℝ) : ℝ) : EReal))
    (hrs : ∀ r : ℝ, 0 < r → rs (r : EReal) = (((Real.sqrt r)⁻¹ : ℝ) : EReal))
    (heps : ∃ e : ℝ, 0 < e ∧ eps = (e : EReal)) (hN : N ≠ 0)
    (x : Fin N → Fin A → EReal)
    (W1a : Fin A → Fin B → EReal) (b1a : Fin B → EReal) (W1b : Fin B → Fin C → EReal) (b1b g1 be1 : Fin C → EReal)
    (W2a : Fin C → Fin D → EReal) (b2a : Fin D → EReal) (W2b : Fin D → Fin E → EReal) (b2b g2 be2 : Fin E → EReal)
    (fx : ∀ i k, x i k ≠ ⊤ ∧ x i k ≠ ⊥) (fW1a : ∀ i k, W1a i k ≠ ⊤ ∧ W1a i k ≠ ⊥) (fb1a : ∀ k, b1a k ≠ ⊤ ∧ b1a k ≠ ⊥)
    (fW1b : ∀ i k, W1b i k ≠ ⊤ ∧ W1b i k ≠ ⊥) (fb1b : ∀ k, b1b k ≠ ⊤ ∧ b1b k ≠ ⊥) (fg1 : ∀ k, g1 k ≠ ⊤ ∧ g1 k ≠ ⊥)
    (fbe1 : ∀ k, be1 k ≠ ⊤ ∧ be1 k ≠ ⊥) (fW2a : ∀ i k, W2a i k ≠ ⊤ ∧ W2a i k ≠ ⊥) (fb2a : ∀ k, b2a k ≠ ⊤ ∧ b2a k ≠ ⊥)
    (fW2b : ∀ i k, W2b i k ≠ ⊤ ∧ W2b i k ≠ ⊥) (fb2b : ∀ k, b2b k ≠ ⊤ ∧ b2b k ≠ ⊥) (fg2 : ∀ k, g2 k ≠ ⊤ ∧ g2 k ≠ ⊥)
    (fbe2 : ∀ k, be2 k ≠ ⊤ ∧ be2 k ≠ ⊥) :
    kOut dv rs eps x W1a b1a W1b b1b g1 be1 W2a b2a W2b b2b g2 be2
      = rOut dv rs eps x W1a b1a W1b b1b g1 be1 W2a b2a W2b b2b g2 be2 := by
  obtain ⟨e, he, heps'⟩ := heps
  rw [eq_up2_of_finite x fx, eq_up2_of_finite W1a fW1a, eq_up1_of_finite b1a fb1a, eq_up2_of_finite W1b fW1b,
    eq_up1_of_finite b1b fb1b, eq_up1_of_finite g1 fg1, eq_up1_of_finite be1 fbe1, eq_up2_of_finite W2a fW2a,
    eq_up1_of_finite b2a fb2a, eq_up2_of_finite W2b fW2b, eq_up1_of_finite b2b fb2b, eq_up1_of_finite g2 fg2,
    eq_up1_of_finite be2 fbe2]
  exact kOut_eq_rOut_up dv rs eps hdv hrs e he heps' hN _ _ _ _ _ _ _ _ _ _ _ _ _

end Cert.Enc

end
-- ==== Proof.Consts.lean ====
/-
  The three scalar ingredients of the batch normalisation, at the ideal (extended real) values, and how each acts
  on a real number:

  * dv   — division by the float literal 1024.0 (the number of rows), which on a real r is r / 1024;
  * rs   — the reciprocal square root, which on a positive real r is the real (√r)⁻¹;
  * eps  — the float literal nearest to 1e-5 that is added to a variance: some positive real.
-/
import Idealize.ShloMosaic.PureOps.Ideal

noncomputable section

namespace Cert.Enc.Consts

open Idealize.ShloMosaic

/-- Division by the literal 1024.0. -/
def dv (x : EReal) : EReal := Ideal.div x (Ideal.ofBits .f32 0x44800000#32)

/-- The reciprocal square root. -/
def rs (x : EReal) : EReal := Ideal.rsqrt x

/-- The literal added to a variance before the reciprocal square root. -/
def eps : EReal := Ideal.ofBits .f32 0x3727C5AC#32

/-- The word 0x44800000 (exponent 137, fraction zero) is the real number 1024. -/
theorem ofBits_1024 : Ideal.ofBits .f32 0x44800000#32 = ((1024 : ℝ) : EReal) := by
  simp [Ideal.ofBits, Ideal.ieee]
  rw [← EReal.coe_mul]
  norm_num

/-- The word 0x00000000 is the real number 0. -/
theorem ofBits_zero : Ideal.ofBits .f32 0x00000000#32 = (0 : EReal) := by
  simp [Ideal.ofBits, Ideal.ieee]

/-- Dividing a real by the literal 1024.0 is dividing it by 1024. -/
theorem dv_coe (r : ℝ) : dv (r : EReal) = ((r / 1024 : ℝ) : EReal) := by
  unfold dv
  rw [ofBits_1024, Ideal.div_coe (by norm_num : (1024 : ℝ) ≠ 0), ← EReal.coe_mul]
  congr 1
  ring

/-- The literal eps is a positive real. -/
theorem eps_coe : ∃ e : ℝ, 0 < e ∧ eps = (e : EReal) := by
  refine ⟨(10995116 : ℝ) * (2 : ℝ) ^ (-40 : ℤ), by positivity, ?_⟩
  unfold eps
  simp [Ideal.ofBits, Ideal.ieee]

/-- On a positive real the reciprocal square root is a real. -/
theorem rs_coe_pos {r : ℝ} (h : 0 < r) : rs (r : EReal) = (((Real.sqrt r)⁻¹ : ℝ) : EReal) := by
  unfold rs
  show (if r < 0 then (⊥ : EReal) else if r = 0 then ⊤ else (((Real.sqrt r)⁻¹ : ℝ) : EReal)) = _
  rw [if_neg (not_lt.mpr h.le), if_neg h.ne']

end Cert.Enc.Consts

end
-- ==== Proof.PreFinite.lean ====
/-
  Every entry of every input is a real number: the precondition says, array by array, that the absolute value of each
  entry is less than plus infinity, and an extended real whose absolute value max x (-x) is below plus infinity is
  neither plus nor minus infinity.
-/
import proofs.«114618_j47768626266491_2_alg».proof.Pre_finite_inputs
import Idealize.ShloMosaic.Lib.IdealHost
import Idealize.ShloMosaic.Lib.ValueIdx
import Idealize.ShloMosaic.PureOps.Ideal
import Idealize.ShloMosaic.Lib.ReduceAll

noncomputable section

namespace Cert.Enc.PreFinite

open Idealize.ShloMosaic Idealize.ShloMosaic.ValueIdx

/-- The empty shape has one index. -/
instance : Subsingleton (⟨0, ![]⟩ : Shape).Idx := ⟨fun a b => funext fun d => d.elim0⟩

/-- An extended real whose absolute value is below plus infinity is finite. -/
theorem finite_of_abs_lt_top (x : EReal) (h : max x (-x) < ⊤) : x ≠ ⊤ ∧ x ≠ ⊥ := by
  constructor
  · rintro rfl
    simp at h
  · rintro rfl
    simp at h

/-- The word 0x7F800000 (exponent all ones, fraction zero, sign clear) is plus infinity. -/
theorem ofBits_inf : Ideal.ofBits .f32 0x7F800000#32 = (⊤ : EReal) := by
  simp [Ideal.ofBits, Ideal.ieee]

/-- One conjunct of the precondition: if "all entries have absolute value below plus infinity" holds of an array, each
    of its entries is finite. -/
theorem finite_of_all {s : Shape} {axes : List (Fin s.rank)} (a : FVec Ideal s .f32)
    (hb : (⟨0, ![]⟩ : Shape).BroadcastsInDim s ![]) (hr : s.ReducesTo axes ⟨0, ![]⟩)
    (hu : 0 < (⟨0, ![]⟩ : Shape).numel) (j : (⟨0, ![]⟩ : Shape).Idx)
    (e : Host.reduce IntOp.andi
          (cmpf .olt (Host.absf a) (broadcastInDim s ![] hb (constant (F := Ideal) ⟨0, ![]⟩ .f32 0x7F800000#32)))
          (constantI ⟨0, ![]⟩ 1 1#1) hr hu j = 1#1)
    (i : s.Idx) : a i ≠ ⊤ ∧ a i ≠ ⊥ := by
  have h1 := Host.reduce_andi_all _ _ hr hu j e i
  have h2 : Ideal.cmp .olt (max (a i) (-(a i)))
      (broadcastInDim s ![] hb (constant (F := Ideal) ⟨0, ![]⟩ .f32 0x7F800000#32) i) = 1#1 := h1
  rw [broadcastInDim_scalar_apply hb _ i] at h2
  have h3 : Ideal.cmp .olt (max (a i) (-(a i))) (Ideal.ofBits .f32 0x7F800000#32) = 1#1 := h2
  rw [ofBits_inf] at h3
  apply finite_of_abs_lt_top
  by_contra hc
  unfold Ideal.cmp at h3
  simp [hc] at h3

/-- The precondition gives the finiteness of every entry of each of the thirteen inputs. -/
theorem all_finite [Cert.Pre_finite_inputs.Facts]
    (a0 : FVec Ideal Cert.Pre_finite_inputs.S1024x128 .f32) (a1 : FVec Ideal Cert.Pre_finite_inputs.S128x256 .f32)
    (a2 : FVec Ideal Cert.Pre_finite_inputs.S256 .f32) (a3 : FVec Ideal Cert.Pre_finite_inputs.S256x256 .f32)
    (a4 a5 a6 : FVec Ideal Cert.Pre_finite_inputs.S256 .f32) (a7 : FVec Ideal Cert.Pre_finite_inputs.S256x256 .f32)
    (a8 : FVec Ideal Cert.Pre_finite_inputs.S256 .f32) (a9 : FVec Ideal Cert.Pre_finite_inputs.S256x128 .f32)
    (a10 a11 a12 : FVec Ideal Cert.Pre_finite_inputs.S128 .f32)
    (h : Cert.Pre_finite_inputs.fn (F := Ideal) a0 a1 a2 a3 a4 a5 a6 a7 a8 a9 a10 a11 a12 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) ∧ (∀ i, a7 i ≠ ⊤ ∧ a7 i ≠ ⊥) ∧ (∀ i, a8 i ≠ ⊤ ∧ a8 i ≠ ⊥)
      ∧ (∀ i, a9 i ≠ ⊤ ∧ a9 i ≠ ⊥) ∧ (∀ i, a10 i ≠ ⊤ ∧ a10 i ≠ ⊥) ∧ (∀ i, a11 i ≠ ⊤ ∧ a11 i ≠ ⊥)
      ∧ (∀ i, a12 i ≠ ⊤ ∧ a12 i ≠ ⊥) := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨finite_of_all a0 _ _ _ _ e0, finite_of_all a1 _ _ _ _ e1, finite_of_all a2 _ _ _ _ e2,
    finite_of_all a3 _ _ _ _ e3, finite_of_all a4 _ _ _ _ e4, finite_of_all a5 _ _ _ _ e5,
    finite_of_all a6 _ _ _ _ e6, finite_of_all a7 _ _ _ _ e7, finite_of_all a8 _ _ _ _ e8,
    finite_of_all a9 _ _ _ _ e9, finite_of_all a10 _ _ _ _ e10, finite_of_all a11 _ _ _ _ e11,
    finite_of_all a12 _ _ _ _ e12⟩

end Cert.Enc.PreFinite

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«114618_j47768626266491_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.RefOps.lean ====
/-
  The host operations of a dense layer, each read at an index at the ideal (extended real) values, generic in the
  extents.

  * hostDot_apply      — the host's product of an [M, K] array with a [K, N] array: entry (e, o) is the sum over r of
                         x (e, r) * y (r, o);
  * hostColSum_apply   — the host's reduction by addition over the first axis of an [a, b] array, started from the
                         scalar zero: at column c, the sum over the rows k of entry (k, c);
  * bcastRow_apply     — a length-b vector viewed as a [1, b] array;
  * bcastRows_apply    — a [1, b] array repeated down a rows;
  * bcastVec_apply     — the two composed: a length-b vector repeated down a rows reads the vector at the column;
  * scalar forms       — a scalar spread over any shape, a selection driven by one scalar bit, the comparison of two
                         scalars, the signed integer zero converted to a float, and the reciprocal square root.
-/
import Idealize.ShloMosaic.PureOps.Ideal.Laws
import Idealize.ShloMosaic.Lib.Pipeline.Value
import Idealize.ShloMosaic.Lib.ValueIdx
import Idealize.ShloMosaic.Lib.IdealHost
import Idealize.ShloMosaic.Lib.KernelVsHost
import proofs.«114618_j47768626266491_2_alg».proof.Proof.LibRowReduceProducts
import proofs.«114618_j47768626266491_2_alg».proof.Proof.Spec
import proofs.«114618_j47768626266491_2_alg».proof.Proof.Consts

noncomputable section

open scoped BigOperators

namespace Cert.Enc.RefOps

open Idealize.ShloMosaic Idealize.ShloMosaic.ValueIdx

/-! ## The product -/

/-- Entry (e, o) of the host's product of an [M, K] array with a [K, N] array: row e against column o. -/
theorem hostDot_apply {K M N : ℕ} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    Host.dotGeneral D prec x y (ix2 e o) = ∑ r : Fin K, x (ix2 e r) * y (ix2 r o) :=
  (congrFun (matmul_zero_eq_dotGeneral D prec x y) (ix2 e o)).symm.trans
    (Cert.LibRowReduceProducts.matmulNN D hlc hrc hln hrn hlb hrb prec x y e o)

/-! ## The sum down the columns -/

/-- The host's sum over the first axis of an [a, b] array from the scalar zero, at column c. -/
theorem hostColSum_apply {a b : ℕ} (x : FVec Ideal ⟨2, ![a, b]⟩ .f32)
    (h' : Shape.ReducesTo ⟨2, ![a, b]⟩ [0] ⟨1, ![b]⟩) (h : Shape.Reduces ⟨2, ![a, b]⟩ [0] ⟨1, ![b]⟩)
    (hu : 0 < (⟨0, ![]⟩ : Shape).numel) (c : Fin b) :
    Host.reduceAdd x (constant (F := Ideal) ⟨0, ![]⟩ .f32 0x00000000#32) h' hu (ix1 c) = ∑ k : Fin a, x (ix2 k c) := by
  refine (hostReduceAdd_apply x _ h' hu (ix1 c)).trans ?_
  refine (Ideal.hostReduceAdd_single h' h x _ (ix1 c)).trans ?_
  refine (congrArg (· + ∑ k : Fin ((⟨2, ![a, b]⟩ : Shape).size 0), x (h.lift (ix1 c) k)) Ideal.ofBits_zero_f32).trans ?_
  refine (zero_add _).trans ?_
  exact Finset.sum_congr rfl fun k _ => congrArg x (funext fun d => Fin.ext (by
    match d with
    | ⟨0, _⟩ => rfl
    | ⟨1, _⟩ => rfl))

/-! ## Broadcasts -/

/-- A length-b vector viewed as a one-row array reads the vector at the column. -/
theorem bcastRow_apply {α : Type} {b : ℕ} (h : (⟨1, ![b]⟩ : Shape).BroadcastsInDim ⟨2, ![1, b]⟩ ![1])
    (x : (⟨1, ![b]⟩ : Shape).Idx → α) (z : Fin 1) (c : Fin b) :
    broadcastInDim ⟨2, ![1, b]⟩ ![1] h x (ix2 z c) = x (ix1 c) := by
  refine broadcastInDim_apply ![1] h x (ix2 z c) (ix1 c) fun a => ?_
  match a with
  | ⟨0, _⟩ =>
    show c.val = if b = 1 then 0 else c.val
    split_ifs with hb
    · have := c.isLt; omega
    · rfl

/-- A one-row array repeated down a rows reads the row at the column. -/
theorem bcastRows_apply {α : Type} {a b : ℕ} (h : (⟨2, ![1, b]⟩ : Shape).BroadcastsInDim ⟨2, ![a, b]⟩ ![0, 1])
    (x : (⟨2, ![1, b]⟩ : Shape).Idx → α) (r : Fin a) (c : Fin b) :
    broadcastInDim ⟨2, ![a, b]⟩ ![0, 1] h x (ix2 r c) = x (ix2 (0 : Fin 1) c) := by
  refine broadcastInDim_apply ![0, 1] h x (ix2 r c) (ix2 (0 : Fin 1) c) fun d => ?_
  match d with
  | ⟨0, _⟩ => rfl
  | ⟨1, _⟩ =>
    show c.val = if b = 1 then 0 else c.val
    split_ifs with hb
    · have := c.isLt; omega
    · rfl

/-- A length-b vector repeated down a rows reads the vector at the column. -/
theorem bcastVec_apply {α : Type} {a b : ℕ} (h₁ : (⟨1, ![b]⟩ : Shape).BroadcastsInDim ⟨2, ![1, b]⟩ ![1])
    (h₂ : (⟨2, ![1, b]⟩ : Shape).BroadcastsInDim ⟨2, ![a, b]⟩ ![0, 1])
    (x : (⟨1, ![b]⟩ : Shape).Idx → α) (r : Fin a) (c : Fin b) :
    broadcastInDim ⟨2, ![a, b]⟩ ![0, 1] h₂ (broadcastInDim ⟨2, ![1, b]⟩ ![1] h₁ x) (ix2 r c) = x (ix1 c) :=
  (bcastRows_apply h₂ _ r c).trans (bcastRow_apply h₁ x 0 c)

/-! ## Scalars -/

/-- The zero word spread from a scalar over any shape is zero everywhere. -/
theorem bcastZero_apply {T : Shape} (h : (⟨0, ![]⟩ : Shape).BroadcastsInDim T ![]) (j : T.Idx) :
    broadcastInDim T ![] h (constant (F := Ideal) ⟨0, ![]⟩ .f32 0x00000000#32) j = (0 : EReal) :=
  (broadcastInDim_scalar_apply h _ j).trans Ideal.ofBits_zero_f32

/-- A constant spread from a scalar over any shape is the constant's value everywhere. -/
theorem bcastConst_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- The maximum with the zero array is the maximum with zero: the rectifier. -/
theorem relu_apply {T : Shape} (h : (⟨0, ![]⟩ : Shape).BroadcastsInDim T ![]) (x : FVec Ideal T .f32) (j : T.Idx) :
    maximumf x (broadcastInDim T ![] h (constant (F := Ideal) ⟨0, ![]⟩ .f32 0x00000000#32)) j = max (x j) 0 :=
  congrArg (max (x j)) (bcastZero_apply h j)

/-- A selection driven by one scalar bit spread over the shape: the bit chooses between the two arrays' entries. -/
theorem selectScalar_apply {T : Shape} {α : Type} (h : (⟨0, ![]⟩ : Shape).BroadcastsInDim T ![])
    (p : IVec ⟨0, ![]⟩ 1) (a b : T.Idx → α) (j : T.Idx) :
    select (broadcastInDim T ![] h p) a b j = Scalar.select (p ix0) (a j) (b j) :=
  congrArg (fun q => Scalar.select q (a j) (b j)) (broadcastInDim_scalar_apply h p j)

/-- "x is greater than y" on the extended reals, as a one-bit word, when it holds. -/
theorem cmp_ogt_of_lt {x y : EReal} (hxy : y < x) : Ideal.cmp .ogt x y = 1#1 := by
  unfold Ideal.cmp
  simp [hxy]

/-- The signed integer zero converted to a float is the real zero. -/
theorem sitofp_zero (j : (⟨0, ![]⟩ : Shape).Idx) :
    (sitofp .f32 (constantI ⟨0, ![]⟩ 32 0#32) : FVec Ideal ⟨0, ![]⟩ .f32) j = (0 : EReal) := by
  show (((0#32 : BitVec 32).toInt : ℝ) : EReal) = 0
  simp

/-- The host's reciprocal square root at an index is the reciprocal square root of the entry. -/
theorem hostRsqrt_apply {T : Shape} (x : FVec Ideal T .f32) (j : T.Idx) :
    Host.rsqrt x j = Ideal.rsqrt (x j) := rfl

/-! ## The stages of a dense layer, against their curried specifications

Each stage is a short chain of the operations above; it is read at an index as the corresponding function of
Spec over the curried operands (an [a, b] array x as the family i k ↦ x (i, k), a length-b vector as j ↦ v (j)). -/

section Stages

open Cert.Enc

variable {a b k : ℕ}

/-- A linear map with a bias: the product plus the bias vector repeated down the rows. -/
theorem linStage_apply (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (h₁ : (⟨1, ![b]⟩ : Shape).BroadcastsInDim ⟨2, ![1, b]⟩ ![1])
    (h₂ : (⟨2, ![1, b]⟩ : Shape).BroadcastsInDim ⟨2, ![a, b]⟩ ![0, 1])
    (x : FVec Ideal ⟨2, ![a, k]⟩ .f32) (W : FVec Ideal ⟨2, ![k, b]⟩ .f32) (bias : FVec Ideal ⟨1, ![b]⟩ .f32)
    (i : Fin a) (j : Fin b) :
    addf (Host.dotGeneral D none x W)
        (broadcastInDim ⟨2, ![a, b]⟩ ![0, 1] h₂ (broadcastInDim ⟨2, ![1, b]⟩ ![1] h₁ bias)) (ix2 i j)
      = lin (fun i r => x (ix2 i r)) (fun r j => W (ix2 r j)) (fun j => bias (ix1 j)) i j := by
  show Host.dotGeneral D none x W (ix2 i j)
      + broadcastInDim ⟨2, ![a, b]⟩ ![0, 1] h₂ (broadcastInDim ⟨2, ![1, b]⟩ ![1] h₁ bias) (ix2 i j)
    = (∑ r : Fin k, x (ix2 i r) * W (ix2 r j)) + bias (ix1 j)
  rw [hostDot_apply D hlc hrc hln hrn hlb hrb none x W i j, bcastVec_apply h₁ h₂ bias i j]

/-- The rectifier: the maximum with the zero array. -/
theorem reluStage_apply (h : (⟨0, ![]⟩ : Shape).BroadcastsInDim ⟨2, ![a, b]⟩ ![])
    (x : FVec Ideal ⟨2, ![a, b]⟩ .f32) (i : Fin a) (j : Fin b) :
    maximumf x (broadcastInDim ⟨2, ![a, b]⟩ ![] h (constant (F := Ideal) ⟨0, ![]⟩ .f32 0x00000000#32)) (ix2 i j)
      = relu (fun i r => x (ix2 i r)) i j :=
  relu_apply h x (ix2 i j)

/-- The mean of every column: the column sum divided by the literal 1024.0 spread over the columns. -/
theorem meanStage_apply (R : FVec Ideal ⟨2, ![a, b]⟩ .f32)
    (h' : Shape.ReducesTo ⟨2, ![a, b]⟩ [0] ⟨1, ![b]⟩) (h : Shape.Reduces ⟨2, ![a, b]⟩ [0] ⟨1, ![b]⟩)
    (hu : 0 < (⟨0, ![]⟩ : Shape).numel) (hb : (⟨0, ![]⟩ : Shape).BroadcastsInDim ⟨1, ![b]⟩ ![]) (j : Fin b) :
    Host.divf (Host.reduceAdd R (constant (F := Ideal) ⟨0, ![]⟩ .f32 0x00000000#32) h' hu)
        (broadcastInDim ⟨1, ![b]⟩ ![] hb (constant (F := Ideal) ⟨0, ![]⟩ .f32 0x44800000#32)) (ix1 j)
      = mean Consts.dv (fun i r => R (ix2 i r)) j := by
  show Ideal.div (Host.reduceAdd R (constant (F := Ideal) ⟨0, ![]⟩ .f32 0x00000000#32) h' hu (ix1 j))
      (broadcastInDim ⟨1, ![b]⟩ ![] hb (constant (F := Ideal) ⟨0, ![]⟩ .f32 0x44800000#32) (ix1 j))
    = Ideal.div (∑ i : Fin a, R (ix2 i j)) (Ideal.ofBits .f32 0x44800000#32)
  rw [hostColSum_apply R h' h hu j, bcastConst_apply _ hb (ix1 j)]

/-- The divisor of the variance: the literal 1024.0 less the converted integer zero is 1024. -/
theorem divisor_apply (j : (⟨0, ![]⟩ : Shape).Idx) :
    subf (constant (F := Ideal) ⟨0, ![]⟩ .f32 0x44800000#32)
        (sitofp .f32 (constantI ⟨0, ![]⟩ 32 0#32) : FVec Ideal ⟨0, ![]⟩ .f32) j
      = Ideal.ofBits .f32 0x44800000#32 := by
  show Ideal.ofBits .f32 0x44800000#32
      - (sitofp .f32 (constantI ⟨0, ![]⟩ 32 0#32) : FVec Ideal ⟨0, ![]⟩ .f32) j = _
  rw [sitofp_zero j, sub_zero]

/-- The divisor is positive. -/
theorem divisor_pos : (0 : EReal) < Ideal.ofBits .f32 0x44800000#32 := by
  rw [Consts.ofBits_1024]
  exact_mod_cast (by norm_num : (0 : ℝ) < 1024)

/-- The variance of every column as the reference computes it: the deviations from the mean (itself computed as a
    one-row array and repeated down the rows), squared, summed down the columns, divided by the divisor above, and
    passed through a selection on "the divisor is positive" whose other branch is never taken. -/
theorem varStage_apply (R : FVec Ideal ⟨2, ![a, b]⟩ .f32)
    (h' : Shape.ReducesTo ⟨2, ![a, b]⟩ [0] ⟨1, ![b]⟩) (h : Shape.Reduces ⟨2, ![a, b]⟩ [0] ⟨1, ![b]⟩)
    (hu : 0 < (⟨0, ![]⟩ : Shape).numel)
    (h₁ : (⟨1, ![b]⟩ : Shape).BroadcastsInDim ⟨2, ![1, b]⟩ ![1])
    (hs₁ : (⟨0, ![]⟩ : Shape).BroadcastsInDim ⟨2, ![1, b]⟩ ![])
    (h₂ : (⟨2, ![1, b]⟩ : Shape).BroadcastsInDim ⟨2, ![a, b]⟩ ![0, 1])
    (hb : (⟨0, ![]⟩ : Shape).BroadcastsInDim ⟨1, ![b]⟩ ![])
    (other : FVec Ideal ⟨1, ![b]⟩ .f32) (j : Fin b) :
    select
        (broadcastInDim ⟨1, ![b]⟩ ![] hb
          (cmpf .ogt
            (subf (constant (F := Ideal) ⟨0, ![]⟩ .f32 0x44800000#32)
              (sitofp .f32 (constantI ⟨0, ![]⟩ 32 0#32) : FVec Ideal ⟨0, ![]⟩ .f32))
            (constant (F := Ideal) ⟨0, ![]⟩ .f32 0x00000000#32)))
        (Host.divf
          (Host.reduceAdd
            (mulf
              (subf R (broadcastInDim ⟨2, ![a, b]⟩ ![0, 1] h₂
                (Host.divf
                  (broadcastInDim ⟨2, ![1, b]⟩ ![1] h₁
                    (Host.reduceAdd R (constant (F := Ideal) ⟨0, ![]⟩ .f32 0x00000000#32) h' hu))
                  (broadcastInDim ⟨2, ![1, b]⟩ ![] hs₁ (constant (F := Ideal) ⟨0, ![]⟩ .f32 0x44800000#32)))))
              (subf R (broadcastInDim ⟨2, ![a, b]⟩ ![0, 1] h₂
                (Host.divf
                  (broadcastInDim ⟨2, ![1, b]⟩ ![1] h₁
                    (Host.reduceAdd R (constant (F := Ideal) ⟨0, ![]⟩ .f32 0x00000000#32) h' hu))
                  (broadcastInDim ⟨2, ![1, b]⟩ ![] hs₁ (constant (F := Ideal) ⟨0, ![]⟩ .f32 0x44800000#32))))))
            (constant (F := Ideal) ⟨0, ![]⟩ .f32 0x00000000#32) h' hu)
          (broadcastInDim ⟨1, ![b]⟩ ![] hb
            (subf (constant (F := Ideal) ⟨0, ![]⟩ .f32 0x44800000#32)
              (sitofp .f32 (constantI ⟨0, ![]⟩ 32 0#32) : FVec Ideal ⟨0, ![]⟩ .f32))))
        other (ix1 j)
      = rVar Consts.dv (fun i r => R (ix2 i r)) j := by
  refine (selectScalar_apply hb _ _ _ (ix1 j)).trans ?_
  have hp : cmpf .ogt
      (subf (constant (F := Ideal) ⟨0, ![]⟩ .f32 0x44800000#32)
        (sitofp .f32 (constantI ⟨0, ![]⟩ 32 0#32) : FVec Ideal ⟨0, ![]⟩ .f32))
      (constant (F := Ideal) ⟨0, ![]⟩ .f32 0x00000000#32) ix0 = 1#1 := by
    show Ideal.cmp .ogt
      (subf (constant (F := Ideal) ⟨0, ![]⟩ .f32 0x44800000#32)
        (sitofp .f32 (constantI ⟨0, ![]⟩ 32 0#32) : FVec Ideal ⟨0, ![]⟩ .f32) ix0)
      (Ideal.ofBits .f32 0x00000000#32) = 1#1
    rw [divisor_apply ix0, Ideal.ofBits_zero_f32]
    exact cmp_ogt_of_lt divisor_pos
  rw [hp, select_one]
  -- the centred entries
  have hc : ∀ i : Fin a,
      subf R (broadcastInDim ⟨2, ![a, b]⟩ ![0, 1] h₂
        (Host.divf
          (broadcastInDim ⟨2, ![1, b]⟩ ![1] h₁
            (Host.reduceAdd R (constant (F := Ideal) ⟨0, ![]⟩ .f32 0x00000000#32) h' hu))
          (broadcastInDim ⟨2, ![1, b]⟩ ![] hs₁ (constant (F := Ideal) ⟨0, ![]⟩ .f32 0x44800000#32)))) (ix2 i j)
        = R (ix2 i j) - mean Consts.dv (fun i r => R (ix2 i r)) j := by
    intro i
    show R (ix2 i j) - broadcastInDim ⟨2, ![a, b]⟩ ![0, 1] h₂
        (Host.divf
          (broadcastInDim ⟨2, ![1, b]⟩ ![1] h₁
            (Host.reduceAdd R (constant (F := Ideal) ⟨0, ![]⟩ .f32 0x00000000#32) h' hu))
          (broadcastInDim ⟨2, ![1, b]⟩ ![] hs₁ (constant (F := Ideal) ⟨0, ![]⟩ .f32 0x44800000#32))) (ix2 i j) = _
    rw [bcastRows_apply h₂ _ i j]
    show R (ix2 i j) - Ideal.div
        (broadcastInDim ⟨2, ![1, b]⟩ ![1] h₁
            (Host.reduceAdd R (constant (F := Ideal) ⟨0, ![]⟩ .f32 0x00000000#32) h' hu) (ix2 (0 : Fin 1) j))
        (broadcastInDim ⟨2, ![1, b]⟩ ![] hs₁ (constant (F := Ideal) ⟨0, ![]⟩ .f32 0x44800000#32) (ix2 (0 : Fin 1) j))
      = R (ix2 i j) - Ideal.div (∑ i : Fin a, R (ix2 i j)) (Ideal.ofBits .f32 0x44800000#32)
    rw [bcastRow_apply h₁ _ 0 j, hostColSum_apply R h' h hu j, bcastConst_apply _ hs₁ _]
  show Ideal.div (Host.reduceAdd _ (constant (F := Ideal) ⟨0, ![]⟩ .f32 0x00000000#32) h' hu (ix1 j))
      (broadcastInDim ⟨1, ![b]⟩ ![] hb
        (subf (constant (F := Ideal) ⟨0, ![]⟩ .f32 0x44800000#32)
          (sitofp .f32 (constantI ⟨0, ![]⟩ 32 0#32) : FVec Ideal ⟨0, ![]⟩ .f32)) (ix1 j))
    = Ideal.div (∑ i : Fin a, (R (ix2 i j) - mean Consts.dv (fun i r => R (ix2 i r)) j)
        * (R (ix2 i j) - mean Consts.dv (fun i r => R (ix2 i r)) j)) (Ideal.ofBits .f32 0x44800000#32)
  rw [hostColSum_apply _ h' h hu j, broadcastInDim_scalar_apply hb _ (ix1 j), divisor_apply ix0]
  refine congrArg (fun s => Ideal.div s (Ideal.ofBits .f32 0x44800000#32)) (Finset.sum_congr rfl fun i _ => ?_)
  show _ * _ = _
  rw [hc i]

/-- The normalisation: the deviation from the mean times the reciprocal square root of the variance plus eps, times
    gamma, plus beta; the mean, the variance, gamma and beta are length-b vectors repeated down the rows. -/
theorem bnStage_apply (R : FVec Ideal ⟨2, ![a, b]⟩ .f32) (m v g be : FVec Ideal ⟨1, ![b]⟩ .f32)
    (var : Fin b → EReal)
    (hm : ∀ j : Fin b, m (ix1 j) = mean Consts.dv (fun i r => R (ix2 i r)) j)
    (hv : ∀ j : Fin b, v (ix1 j) = var j)
    (h₁ : (⟨1, ![b]⟩ : Shape).BroadcastsInDim ⟨2, ![1, b]⟩ ![1])
    (h₂ : (⟨2, ![1, b]⟩ : Shape).BroadcastsInDim ⟨2, ![a, b]⟩ ![0, 1])
    (hb : (⟨0, ![]⟩ : Shape).BroadcastsInDim ⟨1, ![b]⟩ ![]) (i : Fin a) (j : Fin b) :
    addf
      (mulf
        (mulf
          (subf R (broadcastInDim ⟨2, ![a, b]⟩ ![0, 1] h₂ (broadcastInDim ⟨2, ![1, b]⟩ ![1] h₁ m)))
          (broadcastInDim ⟨2, ![a, b]⟩ ![0, 1] h₂ (broadcastInDim ⟨2, ![1, b]⟩ ![1] h₁
            (Host.rsqrt (addf v
              (broadcastInDim ⟨1, ![b]⟩ ![] hb (constant (F := Ideal) ⟨0, ![]⟩ .f32 0x3727C5AC#32)))))))
        (broadcastInDim ⟨2, ![a, b]⟩ ![0, 1] h₂ (broadcastInDim ⟨2, ![1, b]⟩ ![1] h₁ g)))
      (broadcastInDim ⟨2, ![a, b]⟩ ![0, 1] h₂ (broadcastInDim ⟨2, ![1, b]⟩ ![1] h₁ be)) (ix2 i j)
      = bnWith var Consts.dv Consts.rs Consts.eps (fun i r => R (ix2 i r))
          (fun j => g (ix1 j)) (fun j => be (ix1 j)) i j := by
  show ((R (ix2 i j) - broadcastInDim ⟨2, ![a, b]⟩ ![0, 1] h₂ (broadcastInDim ⟨2, ![1, b]⟩ ![1] h₁ m) (ix2 i j))
        * broadcastInDim ⟨2, ![a, b]⟩ ![0, 1] h₂ (broadcastInDim ⟨2, ![1, b]⟩ ![1] h₁
            (Host.rsqrt (addf v
              (broadcastInDim ⟨1, ![b]⟩ ![] hb (constant (F := Ideal) ⟨0, ![]⟩ .f32 0x3727C5AC#32))))) (ix2 i j))
        * broadcastInDim ⟨2, ![a, b]⟩ ![0, 1] h₂ (broadcastInDim ⟨2, ![1, b]⟩ ![1] h₁ g) (ix2 i j)
      + broadcastInDim ⟨2, ![a, b]⟩ ![0, 1] h₂ (broadcastInDim ⟨2, ![1, b]⟩ ![1] h₁ be) (ix2 i j)
    = ((R (ix2 i j) - mean Consts.dv (fun i r => R (ix2 i r)) j) * Ideal.rsqrt (var j + Ideal.ofBits .f32 0x3727C5AC#32))
        * g (ix1 j) + be (ix1 j)
  rw [bcastVec_apply h₁ h₂ m i j, bcastVec_apply h₁ h₂ _ i j, bcastVec_apply h₁ h₂ g i j,
    bcastVec_apply h₁ h₂ be i j, hm j]
  show ((_ - _) * Ideal.rsqrt (v (ix1 j)
      + broadcastInDim ⟨1, ![b]⟩ ![] hb (constant (F := Ideal) ⟨0, ![]⟩ .f32 0x3727C5AC#32) (ix1 j))) * _ + _ = _
  rw [hv j, bcastConst_apply _ hb (ix1 j)]

/-- The readout: the sum of every column over the rows. -/
theorem readoutStage_apply (H : FVec Ideal ⟨2, ![a, b]⟩ .f32)
    (h' : Shape.ReducesTo ⟨2, ![a, b]⟩ [0] ⟨1, ![b]⟩) (h : Shape.Reduces ⟨2, ![a, b]⟩ [0] ⟨1, ![b]⟩)
    (hu : 0 < (⟨0, ![]⟩ : Shape).numel) (j : Fin b) :
    Host.reduceAdd H (constant (F := Ideal) ⟨0, ![]⟩ .f32 0x00000000#32) h' hu (ix1 j)
      = readout (fun i r => H (ix2 i r)) j :=
  hostColSum_apply H h' h hu j

end Stages

end Cert.Enc.RefOps

end
-- ==== Proof.RefTerm.lean ====
/-
  The reference program as pure terms of its thirteen argument arrays, in layers: each definition below is the
  composition, in printed order, of the operations the reference's text applies between two layer boundaries.
  Nothing is proved here; the run of the reference is shown equal to `out` elsewhere.

  Per layer: A = h + scatter-add over the edges of the gathered rows of h; Z = relu(A·Wa + ba)·Wb + bb;
  R = relu Z; mean and variance of R down the rows; H = (R - mean)·rsqrt(var + eps)·gamma + beta.
  The result is the column sums of the second layer's H.
-/
import proofs.«114618_j47768626266491_2_alg».proof.ReferenceIdeal

noncomputable section

namespace Cert.Enc.RefTerm

open Cert.ReferenceIdeal Idealize.ShloMosaic Idealize.SL.Sem

variable {F : FTy → Type} [FloatOps F] [Facts]
open Cert.ReferenceIdeal.Facts₀ Cert.ReferenceIdeal.Facts

/-! ## The edge tables -/

/-- Values %0 – %2: the table e ↦ (row of e) of the 1024 × 1023 grid of edges, flattened. -/
def rowFlat : IVec S1047552 32 :=
  shapeCast S1047552 (broadcastInDim S1024x1023 ![0] bcast_S1024_S1024x1023_0 (iotaInDim S1024 32 0))
    shapeCasts_S1024x1023_S1047552

/-- Values %3 – %8: the table e ↦ 1 + (column of e) of the same grid, flattened. -/
def dstFlat : IVec S1047552 32 :=
  shapeCast S1047552
    (broadcastInDim S1024x1023 ![0, 1] bcast_S1x1023_S1024x1023_0_1
      (shapeCast S1x1023
        (addi (broadcastInDim S1023 ![] bcast_S_S1023 (constantI S_ 32 1#32)) (iotaInDim S1023 32 0))
        shapeCasts_S1023_S1x1023))
    shapeCasts_S1024x1023_S1047552

/-- The gather's index column from a flat table of rows: a negative entry wrapped by 1024 (values %9 – %14). -/
def srcIdxOf (row : IVec S1047552 32) : IVec S1047552x1 32 :=
  broadcastInDim S1047552x1 ![0] bcast_S1047552_S1047552x1_0
    (select (cmpi .slt row (broadcastInDim S1047552 ![] bcast_S_S1047552 (constantI S_ 32 0#32)))
      (addi row (broadcastInDim S1047552 ![] bcast_S_S1047552 (constantI S_ 32 1024#32)))
      row)

/-- The scatter's index column from a flat table of destinations (value %17). -/
def dstIdxOf (dst : IVec S1047552 32) : IVec S1047552x1 32 :=
  broadcastInDim S1047552x1 ![0] bcast_S1047552_S1047552x1_0 dst

/-- The source row of every edge, as the gather's index operand (values %0 – %2, %9 – %14; the second
    layer's %49 – %54 are the same operations on the same table). -/
def srcIdx : IVec S1047552x1 32 := srcIdxOf rowFlat

/-- The destination row of every edge, as the scatter's index operand (values %3 – %8, %17; the second
    layer's %57 is the same operation). -/
def dstIdx : IVec S1047552x1 32 := dstIdxOf dstFlat

/-! ## Aggregation -/

/-- h + scatter-add, at the given destinations, of the rows of h gathered at the given sources (%15 – %19). -/
def aggWith128 (si di : IVec S1047552x1 32) (h : FVec F S1024x128 .f32) : FVec F S1024x128 .f32 :=
  addf h (Host.scatterAdd scatter_S1024x128_S1047552x1_S1047552x128_1_0_0_1
    (broadcastInDim S1024x128 ![] bcast_S_S1024x128 (constant S_ .f32 0x00000000#32)) di
    (Host.gather gather_S1024x128_S1047552x1_S1047552x128_1_0_n_n_0_1_1128 h si))

/-- The same at 256 columns (%55 – %59). -/
def aggWith256 (si di : IVec S1047552x1 32) (h : FVec F S1024x256 .f32) : FVec F S1024x256 .f32 :=
  addf h (Host.scatterAdd scatter_S1024x256_S1047552x1_S1047552x256_1_0_0_1
    (broadcastInDim S1024x256 ![] bcast_S_S1024x256 (constant S_ .f32 0x00000000#32)) di
    (Host.gather gather_S1024x256_S1047552x1_S1047552x256_1_0_n_n_0_1_1256 h si))

/-- The first layer's aggregation: values %15 – %19 over the edge tables. -/
def agg128 (h : FVec F S1024x128 .f32) : FVec F S1024x128 .f32 := aggWith128 srcIdx dstIdx h

/-- The second layer's aggregation: values %55 – %59 over the edge tables. -/
def agg256 (h : FVec F S1024x256 .f32) : FVec F S1024x256 .f32 := aggWith256 srcIdx dstIdx h

/-! ## Rows of a vector, and relu -/

/-- A vector of 256 as every row of a 1024 × 256 array (the two broadcasts the text applies to a bias, a mean,
    a scale: dims = [1] then dims = [0, 1]). -/
def rows256 (b : FVec F S256 .f32) : FVec F S1024x256 .f32 :=
  broadcastInDim S1024x256 ![0, 1] bcast_S1x256_S1024x256_0_1 (broadcastInDim S1x256 ![1] bcast_S256_S1x256_1 b)

/-- A vector of 128 as every row of a 1024 × 128 array. -/
def rows128 (b : FVec F S128 .f32) : FVec F S1024x128 .f32 :=
  broadcastInDim S1024x128 ![0, 1] bcast_S1x128_S1024x128_0_1 (broadcastInDim S1x128 ![1] bcast_S128_S1x128_1 b)

/-- The function relu at 1024 × 256: the maximum with the zero array. -/
def relu256 (x : FVec F S1024x256 .f32) : FVec F S1024x256 .f32 :=
  maximumf x (broadcastInDim S1024x256 ![] bcast_S_S1024x256 (constant S_ .f32 0x00000000#32))

/-- The function relu at 1024 × 128. -/
def relu128 (x : FVec F S1024x128 .f32) : FVec F S1024x128 .f32 :=
  maximumf x (broadcastInDim S1024x128 ![] bcast_S_S1024x128 (constant S_ .f32 0x00000000#32))

/-! ## The two-layer perceptrons -/

/-- Values %20 – %28 from the aggregated array: relu(A·Wa + ba)·Wb + bb. -/
def mlp1 (A : FVec F S1024x128 .f32) (Wa : FVec F S128x256 .f32) (ba : FVec F S256 .f32)
    (Wb : FVec F S256x256 .f32) (bb : FVec F S256 .f32) : FVec F S1024x256 .f32 :=
  addf (Host.dotGeneral dot_S1024x256_S256x256_S1024x256_1_0_0_1_n_n none
      (relu256 (addf (Host.dotGeneral dot_S1024x128_S128x256_S1024x256_1_0_0_1_n_n none A Wa) (rows256 ba))) Wb)
    (rows256 bb)

/-- Values %60 – %68 from the aggregated array: relu(A·Wa + ba)·Wb + bb at the second layer's widths. -/
def mlp2 (A : FVec F S1024x256 .f32) (Wa : FVec F S256x256 .f32) (ba : FVec F S256 .f32)
    (Wb : FVec F S256x128 .f32) (bb : FVec F S128 .f32) : FVec F S1024x128 .f32 :=
  addf (Host.dotGeneral dot_S1024x256_S256x128_S1024x128_1_0_0_1_n_n none
      (relu256 (addf (Host.dotGeneral dot_S1024x256_S256x256_S1024x256_1_0_0_1_n_n none A Wa) (rows256 ba))) Wb)
    (rows128 bb)

/-! ## Mean and variance down the rows -/

/-- Values %30 – %32: the column sums over 1024. -/
def mean256 (R : FVec F S1024x256 .f32) : FVec F S256 .f32 :=
  Host.divf (Host.reduceAdd R (constant S_ .f32 0x00000000#32) reducesTo_S1024x256_S256_d0 h_S_)
    (broadcastInDim S256 ![] bcast_S_S256 (constant S_ .f32 0x44800000#32))

/-- Values %70 – %72. -/
def mean128 (R : FVec F S1024x128 .f32) : FVec F S128 .f32 :=
  Host.divf (Host.reduceAdd R (constant S_ .f32 0x00000000#32) reducesTo_S1024x128_S128_d0 h_S_)
    (broadcastInDim S128 ![] bcast_S_S128 (constant S_ .f32 0x44800000#32))

/-- The variance function's divisor (its %7, %8): 1024 minus the integer 0 converted. -/
def varDen : FVec F S_ .f32 :=
  subf (constant S_ .f32 0x44800000#32) (sitofp .f32 (constantI S_ 32 0#32))

/-- The variance function's %0 – %4: its own mean, on every row. -/
def varMean256 (R : FVec F S1024x256 .f32) : FVec F S1024x256 .f32 :=
  broadcastInDim S1024x256 ![0, 1] bcast_S1x256_S1024x256_0_1
    (Host.divf
      (broadcastInDim S1x256 ![1] bcast_S256_S1x256_1
        (Host.reduceAdd R (constant S_ .f32 0x00000000#32) reducesTo_S1024x256_S256_d0 h_S_))
      (broadcastInDim S1x256 ![] bcast_S_S1x256 (constant S_ .f32 0x44800000#32)))

/-- The same at 128 columns. -/
def varMean128 (R : FVec F S1024x128 .f32) : FVec F S1024x128 .f32 :=
  broadcastInDim S1024x128 ![0, 1] bcast_S1x128_S1024x128_0_1
    (Host.divf
      (broadcastInDim S1x128 ![1] bcast_S128_S1x128_1
        (Host.reduceAdd R (constant S_ .f32 0x00000000#32) reducesTo_S1024x128_S128_d0 h_S_))
      (broadcastInDim S1x128 ![] bcast_S_S1x128 (constant S_ .f32 0x44800000#32)))

/-- The variance function's %5, %6: the squared deviations. -/
def varSq256 (R : FVec F S1024x256 .f32) : FVec F S1024x256 .f32 :=
  mulf (subf R (varMean256 R)) (subf R (varMean256 R))

/-- The same at 128 columns. -/
def varSq128 (R : FVec F S1024x128 .f32) : FVec F S1024x128 .f32 :=
  mulf (subf R (varMean128 R)) (subf R (varMean128 R))

/-- The whole variance function at 256 columns, called with the integer 0: the column sums of the squared
    deviations over the divisor where the divisor is positive, the quiet NaN pattern elsewhere. -/
def var256 (R : FVec F S1024x256 .f32) : FVec F S256 .f32 :=
  select (broadcastInDim S256 ![] bcast_S_S256 (cmpf .ogt (varDen (F := F)) (constant S_ .f32 0x00000000#32)))
    (Host.divf (Host.reduceAdd (varSq256 R) (constant S_ .f32 0x00000000#32) reducesTo_S1024x256_S256_d0 h_S_)
      (broadcastInDim S256 ![] bcast_S_S256 (varDen (F := F))))
    (broadcastInDim S256 ![] bcast_S_S256 (constant S_ .f32 0x7FC00000#32))

/-- The whole variance function at 128 columns. -/
def var128 (R : FVec F S1024x128 .f32) : FVec F S128 .f32 :=
  select (broadcastInDim S128 ![] bcast_S_S128 (cmpf .ogt (varDen (F := F)) (constant S_ .f32 0x00000000#32)))
    (Host.divf (Host.reduceAdd (varSq128 R) (constant S_ .f32 0x00000000#32) reducesTo_S1024x128_S128_d0 h_S_)
      (broadcastInDim S128 ![] bcast_S_S128 (varDen (F := F))))
    (broadcastInDim S128 ![] bcast_S_S128 (constant S_ .f32 0x7FC00000#32))

/-! ## Normalization -/

/-- Values %34 – %48 from R, a mean and a variance: (R - mean)·rsqrt(var + eps)·gamma + beta. -/
def bnApply256 (R : FVec F S1024x256 .f32) (mu va g b : FVec F S256 .f32) : FVec F S1024x256 .f32 :=
  addf
    (mulf
      (mulf (subf R (rows256 mu))
        (rows256 (Host.rsqrt (addf va (broadcastInDim S256 ![] bcast_S_S256 (constant S_ .f32 0x3727C5AC#32))))))
      (rows256 g))
    (rows256 b)

/-- Values %74 – %88 likewise. -/
def bnApply128 (R : FVec F S1024x128 .f32) (mu va g b : FVec F S128 .f32) : FVec F S1024x128 .f32 :=
  addf
    (mulf
      (mulf (subf R (rows128 mu))
        (rows128 (Host.rsqrt (addf va (broadcastInDim S128 ![] bcast_S_S128 (constant S_ .f32 0x3727C5AC#32))))))
      (rows128 g))
    (rows128 b)

/-- The first layer's normalization of R (values %30 – %48). -/
def bn256 (R : FVec F S1024x256 .f32) (g b : FVec F S256 .f32) : FVec F S1024x256 .f32 :=
  bnApply256 R (mean256 R) (var256 R) g b

/-- The second layer's normalization of R (values %70 – %88). -/
def bn128 (R : FVec F S1024x128 .f32) (g b : FVec F S128 .f32) : FVec F S1024x128 .f32 :=
  bnApply128 R (mean128 R) (var128 R) g b

/-! ## The layers and the result -/

/-- Value %29: the first layer's activations. -/
def R1 (a0 : FVec F S1024x128 .f32) (a1 : FVec F S128x256 .f32) (a2 : FVec F S256 .f32)
    (a3 : FVec F S256x256 .f32) (a4 : FVec F S256 .f32) : FVec F S1024x256 .f32 :=
  relu256 (mlp1 (agg128 a0) a1 a2 a3 a4)

/-- Value %48: the first layer's output. -/
def H1 (a0 : FVec F S1024x128 .f32) (a1 : FVec F S128x256 .f32) (a2 : FVec F S256 .f32)
    (a3 : FVec F S256x256 .f32) (a4 a5 a6 : FVec F S256 .f32) : FVec F S1024x256 .f32 :=
  bn256 (R1 a0 a1 a2 a3 a4) a5 a6

/-- Value %69: the second layer's activations, from the first layer's output. -/
def R2 (h : FVec F S1024x256 .f32) (a7 : FVec F S256x256 .f32) (a8 : FVec F S256 .f32)
    (a9 : FVec F S256x128 .f32) (a10 : FVec F S128 .f32) : FVec F S1024x128 .f32 :=
  relu128 (mlp2 (agg256 h) a7 a8 a9 a10)

/-- Value %88: the second layer's output, from the first layer's. -/
def H2 (h : FVec F S1024x256 .f32) (a7 : FVec F S256x256 .f32) (a8 : FVec F S256 .f32)
    (a9 : FVec F S256x128 .f32) (a10 a11 a12 : FVec F S128 .f32) : FVec F S1024x128 .f32 :=
  bn128 (R2 h a7 a8 a9 a10) a11 a12

/-- The whole reference (value %89): the column sums of the second layer's output. -/
def out (a0 : FVec F S1024x128 .f32) (a1 : FVec F S128x256 .f32) (a2 : FVec F S256 .f32)
    (a3 : FVec F S256x256 .f32) (a4 a5 a6 : FVec F S256 .f32) (a7 : FVec F S256x256 .f32)
    (a8 : FVec F S256 .f32) (a9 : FVec F S256x128 .f32) (a10 a11 a12 : FVec F S128 .f32) : FVec F S128 .f32 :=
  Host.reduceAdd (H2 (H1 a0 a1 a2 a3 a4 a5 a6) a7 a8 a9 a10 a11 a12) (constant S_ .f32 0x00000000#32)
    reducesTo_S1024x128_S128_d0 h_S_

end Cert.Enc.RefTerm

end
-- ==== Proof.RefRead.lean ====
/-
  The reference's dense layers read at an index, at the ideal (extended real) values: each layer of the reference's
  term equals the corresponding function of the specification over the curried arrays (an [a, b] array x as the
  family i k ↦ x (i, k), a vector v as j ↦ v (j)).

  The aggregation over the graph is taken as given: the layer statements take the aggregated array as an operand,
  and the statements about whole layers take the equation "the aggregate of h at (i, k) is rAgg h i k" as a
  hypothesis.  With both aggregation equations, the whole reference at column j is the specification's second
  arrangement rOut at j.
-/
import proofs.«114618_j47768626266491_2_alg».proof.Proof.RefOps
import proofs.«114618_j47768626266491_2_alg».proof.Proof.RefTerm

noncomputable section

open scoped BigOperators

namespace Cert.Enc.RefRead

open Idealize.ShloMosaic Idealize.ShloMosaic.ValueIdx
open Cert.ReferenceIdeal Cert.ReferenceIdeal.Facts₀ Cert.ReferenceIdeal.Facts
open Cert.Enc Cert.Enc.RefOps Cert.Enc.RefTerm

variable [Cert.ReferenceIdeal.Facts]

/-- An [a, b] array as a family of extended reals indexed by row and column. -/
abbrev m2 {a b : ℕ} (x : FVec Ideal ⟨2, ![a, b]⟩ .f32) : Fin a → Fin b → EReal := fun i k => x (ix2 i k)

/-- A length-b vector as a family of extended reals. -/
abbrev m1 {b : ℕ} (v : FVec Ideal ⟨1, ![b]⟩ .f32) : Fin b → EReal := fun j => v (ix1 j)

/-! ## The rectifier -/

theorem relu256_apply (x : FVec Ideal S1024x256 .f32) (i : Fin 1024) (j : Fin 256) :
    relu256 x (ix2 i j) = relu (m2 x) i j :=
  reluStage_apply bcast_S_S1024x256 x i j

theorem relu128_apply (x : FVec Ideal S1024x128 .f32) (i : Fin 1024) (j : Fin 128) :
    relu128 x (ix2 i j) = relu (m2 x) i j :=
  reluStage_apply bcast_S_S1024x128 x i j

/-! ## The two-layer perceptrons, from the aggregated array -/

/-- The first layer's perceptron: relu (A·Wa + ba)·Wb + bb. -/
theorem mlp1_apply (A : FVec Ideal S1024x128 .f32) (Wa : FVec Ideal S128x256 .f32) (ba : FVec Ideal S256 .f32)
    (Wb : FVec Ideal S256x256 .f32) (bb : FVec Ideal S256 .f32) (i : Fin 1024) (j : Fin 256) :
    mlp1 A Wa ba Wb bb (ix2 i j) = lin (relu (lin (m2 A) (m2 Wa) (m1 ba))) (m2 Wb) (m1 bb) i j := by
  refine (linStage_apply dot_S1024x256_S256x256_S1024x256_1_0_0_1_n_n rfl rfl rfl rfl rfl rfl
    bcast_S256_S1x256_1 bcast_S1x256_S1024x256_0_1
    (relu256 (addf (Host.dotGeneral dot_S1024x128_S128x256_S1024x256_1_0_0_1_n_n none A Wa) (rows256 ba)))
    Wb bb i j).trans ?_
  refine congrArg (fun h => lin h (m2 Wb) (m1 bb) i j) (funext fun i => funext fun r => ?_)
  refine (relu256_apply _ i r).trans ?_
  refine congrArg (fun h => relu h i r) (funext fun i => funext fun s => ?_)
  exact linStage_apply dot_S1024x128_S128x256_S1024x256_1_0_0_1_n_n rfl rfl rfl rfl rfl rfl
    bcast_S256_S1x256_1 bcast_S1x256_S1024x256_0_1 A Wa ba i s

/-- The second layer's perceptron. -/
theorem mlp2_apply (A : FVec Ideal S1024x256 .f32) (Wa : FVec Ideal S256x256 .f32) (ba : FVec Ideal S256 .f32)
    (Wb : FVec Ideal S256x128 .f32) (bb : FVec Ideal S128 .f32) (i : Fin 1024) (j : Fin 128) :
    mlp2 A Wa ba Wb bb (ix2 i j) = lin (relu (lin (m2 A) (m2 Wa) (m1 ba))) (m2 Wb) (m1 bb) i j := by
  refine (linStage_apply dot_S1024x256_S256x128_S1024x128_1_0_0_1_n_n rfl rfl rfl rfl rfl rfl
    bcast_S128_S1x128_1 bcast_S1x128_S1024x128_0_1
    (relu256 (addf (Host.dotGeneral dot_S1024x256_S256x256_S1024x256_1_0_0_1_n_n none A Wa) (rows256 ba)))
    Wb bb i j).trans ?_
  refine congrArg (fun h => lin h (m2 Wb) (m1 bb) i j) (funext fun i => funext fun r => ?_)
  refine (relu256_apply _ i r).trans ?_
  refine congrArg (fun h => relu h i r) (funext fun i => funext fun s => ?_)
  exact linStage_apply dot_S1024x256_S256x256_S1024x256_1_0_0_1_n_n rfl rfl rfl rfl rfl rfl
    bcast_S256_S1x256_1 bcast_S1x256_S1024x256_0_1 A Wa ba i s

/-! ## Mean and variance -/

theorem mean256_apply (R : FVec Ideal S1024x256 .f32) (j : Fin 256) :
    mean256 R (ix1 j) = mean Consts.dv (m2 R) j :=
  meanStage_apply R reducesTo_S1024x256_S256_d0 (by decide) h_S_ bcast_S_S256 j

theorem mean128_apply (R : FVec Ideal S1024x128 .f32) (j : Fin 128) :
    mean128 R (ix1 j) = mean Consts.dv (m2 R) j :=
  meanStage_apply R reducesTo_S1024x128_S128_d0 (by decide) h_S_ bcast_S_S128 j

/-- The variance function called with the integer zero is the mean of the squared deviations. -/
theorem var256_apply (R : FVec Ideal S1024x256 .f32) (j : Fin 256) :
    var256 R (ix1 j) = rVar Consts.dv (m2 R) j :=
  varStage_apply R reducesTo_S1024x256_S256_d0 (by decide) h_S_ bcast_S256_S1x256_1 bcast_S_S1x256
    bcast_S1x256_S1024x256_0_1 bcast_S_S256
    (broadcastInDim S256 ![] bcast_S_S256 (constant S_ .f32 0x7FC00000#32)) j

theorem var128_apply (R : FVec Ideal S1024x128 .f32) (j : Fin 128) :
    var128 R (ix1 j) = rVar Consts.dv (m2 R) j :=
  varStage_apply R reducesTo_S1024x128_S128_d0 (by decide) h_S_ bcast_S128_S1x128_1 bcast_S_S1x128
    bcast_S1x128_S1024x128_0_1 bcast_S_S128
    (broadcastInDim S128 ![] bcast_S_S128 (constant S_ .f32 0x7FC00000#32)) j

/-! ## Normalisation -/

theorem bn256_apply (R : FVec Ideal S1024x256 .f32) (g b : FVec Ideal S256 .f32) (i : Fin 1024) (j : Fin 256) :
    bn256 R g b (ix2 i j)
      = bnWith (rVar Consts.dv (m2 R)) Consts.dv Consts.rs Consts.eps (m2 R) (m1 g) (m1 b) i j :=
  bnStage_apply R (mean256 R) (var256 R) g b (rVar Consts.dv (m2 R)) (mean256_apply R) (var256_apply R)
    bcast_S256_S1x256_1 bcast_S1x256_S1024x256_0_1 bcast_S_S256 i j

theorem bn128_apply (R : FVec Ideal S1024x128 .f32) (g b : FVec Ideal S128 .f32) (i : Fin 1024) (j : Fin 128) :
    bn128 R g b (ix2 i j)
      = bnWith (rVar Consts.dv (m2 R)) Consts.dv Consts.rs Consts.eps (m2 R) (m1 g) (m1 b) i j :=
  bnStage_apply R (mean128 R) (var128 R) g b (rVar Consts.dv (m2 R)) (mean128_apply R) (var128_apply R)
    bcast_S128_S1x128_1 bcast_S1x128_S1024x128_0_1 bcast_S_S128 i j

/-! ## The layers -/

/-- The first layer's activations, given its aggregation. -/
theorem R1_apply (a0 : FVec Ideal S1024x128 .f32) (a1 : FVec Ideal S128x256 .f32) (a2 : FVec Ideal S256 .f32)
    (a3 : FVec Ideal S256x256 .f32) (a4 : FVec Ideal S256 .f32)
    (hagg : ∀ (i : Fin 1024) (k : Fin 128), agg128 a0 (ix2 i k) = rAgg (m2 a0) i k) (i : Fin 1024) (j : Fin 256) :
    R1 a0 a1 a2 a3 a4 (ix2 i j) = rPre (m2 a0) (m2 a1) (m1 a2) (m2 a3) (m1 a4) i j := by
  refine (relu256_apply _ i j).trans ?_
  refine congrArg (fun h => relu h i j) (funext fun i => funext fun r => ?_)
  refine (mlp1_apply (agg128 a0) a1 a2 a3 a4 i r).trans ?_
  exact congrArg (fun h => lin (relu (lin h (m2 a1) (m1 a2))) (m2 a3) (m1 a4) i r)
    (funext fun i => funext fun k => hagg i k)

/-- The first layer's output, given its aggregation. -/
theorem H1_apply (a0 : FVec Ideal S1024x128 .f32) (a1 : FVec Ideal S128x256 .f32) (a2 : FVec Ideal S256 .f32)
    (a3 : FVec Ideal S256x256 .f32) (a4 a5 a6 : FVec Ideal S256 .f32)
    (hagg : ∀ (i : Fin 1024) (k : Fin 128), agg128 a0 (ix2 i k) = rAgg (m2 a0) i k) (i : Fin 1024) (j : Fin 256) :
    H1 a0 a1 a2 a3 a4 a5 a6 (ix2 i j)
      = rLayer Consts.dv Consts.rs Consts.eps (m2 a0) (m2 a1) (m1 a2) (m2 a3) (m1 a4) (m1 a5) (m1 a6) i j := by
  refine (bn256_apply (R1 a0 a1 a2 a3 a4) a5 a6 i j).trans ?_
  exact congrArg (fun R => bnWith (rVar Consts.dv R) Consts.dv Consts.rs Consts.eps R (m1 a5) (m1 a6) i j)
    (funext fun i => funext fun r => R1_apply a0 a1 a2 a3 a4 hagg i r)

/-- The second layer's activations from the first layer's output, given its aggregation. -/
theorem R2_apply (h : FVec Ideal S1024x256 .f32) (a7 : FVec Ideal S256x256 .f32) (a8 : FVec Ideal S256 .f32)
    (a9 : FVec Ideal S256x128 .f32) (a10 : FVec Ideal S128 .f32)
    (hagg : ∀ (i : Fin 1024) (k : Fin 256), agg256 h (ix2 i k) = rAgg (m2 h) i k) (i : Fin 1024) (j : Fin 128) :
    R2 h a7 a8 a9 a10 (ix2 i j) = rPre (m2 h) (m2 a7) (m1 a8) (m2 a9) (m1 a10) i j := by
  refine (relu128_apply _ i j).trans ?_
  refine congrArg (fun h => relu h i j) (funext fun i => funext fun r => ?_)
  refine (mlp2_apply (agg256 h) a7 a8 a9 a10 i r).trans ?_
  exact congrArg (fun h => lin (relu (lin h (m2 a7) (m1 a8))) (m2 a9) (m1 a10) i r)
    (funext fun i => funext fun k => hagg i k)

/-- The second layer's output from the first layer's, given its aggregation. -/
theorem H2_apply (h : FVec Ideal S1024x256 .f32) (a7 : FVec Ideal S256x256 .f32) (a8 : FVec Ideal S256 .f32)
    (a9 : FVec Ideal S256x128 .f32) (a10 a11 a12 : FVec Ideal S128 .f32)
    (hagg : ∀ (i : Fin 1024) (k : Fin 256), agg256 h (ix2 i k) = rAgg (m2 h) i k) (i : Fin 1024) (j : Fin 128) :
    H2 h a7 a8 a9 a10 a11 a12 (ix2 i j)
      = rLayer Consts.dv Consts.rs Consts.eps (m2 h) (m2 a7) (m1 a8) (m2 a9) (m1 a10) (m1 a11) (m1 a12) i j := by
  refine (bn128_apply (R2 h a7 a8 a9 a10) a11 a12 i j).trans ?_
  exact congrArg (fun R => bnWith (rVar Consts.dv R) Consts.dv Consts.rs Consts.eps R (m1 a11) (m1 a12) i j)
    (funext fun i => funext fun r => R2_apply h a7 a8 a9 a10 hagg i r)

/-! ## The whole reference -/

/-- The reference at column j is the specification's second arrangement, given the two aggregation equations. -/
theorem out_apply (a0 : FVec Ideal S1024x128 .f32) (a1 : FVec Ideal S128x256 .f32) (a2 : FVec Ideal S256 .f32)
    (a3 : FVec Ideal S256x256 .f32) (a4 a5 a6 : FVec Ideal S256 .f32) (a7 : FVec Ideal S256x256 .f32)
    (a8 : FVec Ideal S256 .f32) (a9 : FVec Ideal S256x128 .f32) (a10 a11 a12 : FVec Ideal S128 .f32)
    (hagg1 : ∀ (i : Fin 1024) (k : Fin 128),
      agg128 a0 (ix2 i k) = rAgg (fun i k => a0 (ix2 i k)) i k)
    (hagg2 : ∀ (i : Fin 1024) (k : Fin 256),
      agg256 (H1 a0 a1 a2 a3 a4 a5 a6) (ix2 i k) = rAgg (fun i k => H1 a0 a1 a2 a3 a4 a5 a6 (ix2 i k)) i k)
    (j : Fin 128) :
    out a0 a1 a2 a3 a4 a5 a6 a7 a8 a9 a10 a11 a12 (ix1 j)
      = rOut Consts.dv Consts.rs Consts.eps (fun i k => a0 (ix2 i k)) (fun k j => a1 (ix2 k j))
          (fun j => a2 (ix1 j)) (fun k j => a3 (ix2 k j)) (fun j => a4 (ix1 j)) (fun j => a5 (ix1 j))
          (fun j => a6 (ix1 j)) (fun k j => a7 (ix2 k j)) (fun j => a8 (ix1 j)) (fun k j => a9 (ix2 k j))
          (fun j => a10 (ix1 j)) (fun j => a11 (ix1 j)) (fun j => a12 (ix1 j)) j := by
  refine (readoutStage_apply (H2 (H1 a0 a1 a2 a3 a4 a5 a6) a7 a8 a9 a10 a11 a12)
    reducesTo_S1024x128_S128_d0 (by decide) h_S_ j).trans ?_
  refine congrArg (fun H => readout H j) (funext fun i => funext fun r => ?_)
  refine (H2_apply (H1 a0 a1 a2 a3 a4 a5 a6) a7 a8 a9 a10 a11 a12 hagg2 i r).trans ?_
  exact congrArg
    (fun h => rLayer Consts.dv Consts.rs Consts.eps h (m2 a7) (m1 a8) (m2 a9) (m1 a10) (m1 a11) (m1 a12) i r)
    (funext fun i => funext fun k => H1_apply a0 a1 a2 a3 a4 a5 a6 hagg1 i k)

end Cert.Enc.RefRead

end
-- ==== Proof.AggregateIdx.lean ====
/-
  The edge aggregation, generically: a gather of whole rows of an [N, n] array at E start indices followed by an
  accumulating scatter of the gathered rows onto rows of an [N, n] array, both read at an index at the ideal (extended
  real) values.

  * resultIdx?_eq_some_iff — an update element lands on an operand index exactly when, axis by axis, signed start plus
                             window coordinate is that index's coordinate;
  * scatterAdd_apply       — the scatter at (r, c): the operand's element plus the sum, over the update rows whose
                             signed scatter index is r, of the update at column c;
  * gather_apply           — the gather at (a, c): the operand at the row named by a's start index (read signed,
                             clamped into range), column c;
  * scatter_gather_edges   — over the source-major list of the 1024 * 1023 edges (a, b + 1): scattering the gathered
                             source rows onto the destination rows of a zero array gives, at (r, c), zero when r = 0
                             and the whole column sum of the operand otherwise.
-/
import Idealize.ShloMosaic.PureOps.Ideal.Laws
import Idealize.ShloMosaic.Lib.Pipeline.Value
import Idealize.ShloMosaic.Lib.ValueIdx

noncomputable section

open scoped BigOperators

namespace Cert.Enc.Aggregate

open Idealize.ShloMosaic Idealize.ShloMosaic.ValueIdx

/-- An update lands on operand index i exactly when, on every axis, the signed start plus the window coordinate is
    i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro heq
    split at heq
    · rename_i h
      have heq := Option.some.inj heq
      intro a
      have hv := congrArg Fin.val (congrFun heq a)
      simp only at hv
      have := h a
      omega
    · exact absurd heq (by simp)
  · intro hall
    have h : ∀ a, 0 ≤ d.start j idx a + d.window j a ∧ d.start j idx a + d.window j a < s.size a := by
      intro a
      have := hall a
      have := (i a).isLt
      omega
    rw [dif_pos h]
    congr 1
    funext a
    apply Fin.ext
    have := hall a
    simp only
    omega

/-- The scatter's dimension numbers: scatter index e names a row of the operand, update row e is added onto it. -/
abbrev scDims (N E n : Nat) (wf : ScatterDims.WF ⟨2, ![N, n]⟩ ⟨2, ![E, 1]⟩ ⟨2, ![E, n]⟩ [1] [0] [0] 1) :
    ScatterDims ⟨2, ![N, n]⟩ ⟨2, ![E, 1]⟩ ⟨2, ![E, n]⟩ where
  updateWindowDims := [1]
  insertedWindowDims := [0]
  scatterDimsToOperandDims := [0]
  indexVectorDim := 1
  wf := wf

variable {N E n w : Nat} (wf : ScatterDims.WF ⟨2, ![N, n]⟩ ⟨2, ![E, 1]⟩ ⟨2, ![E, n]⟩ [1] [0] [0] 1)

/-- No window coordinate on the row axis (it is an inserted axis) … -/
theorem sc_window0 (j : (⟨2, ![E, n]⟩ : Shape).Idx) : (scDims N E n wf).window j 0 = 0 := rfl

/-- … the update's column on the column axis … -/
theorem sc_window1 (a : Fin E) (c : Fin n) : (scDims N E n wf).window (ix2 a c) 1 = c.val := rfl

/-- … no start on the column axis … -/
theorem sc_start1 (j : (⟨2, ![E, n]⟩ : Shape).Idx) (idx : IVec ⟨2, ![E, 1]⟩ w) :
    (scDims N E n wf).start j idx 1 = 0 := rfl

/-- … and on the row axis the start is the update row's scatter index, read signed. -/
theorem sc_start0 (a : Fin E) (c : Fin n) (idx : IVec ⟨2, ![E, 1]⟩ w) :
    (scDims N E n wf).start (ix2 a c) idx 0 = (idx (ix2 a (0 : Fin 1))).toInt := by
  unfold ScatterDims.start
  rw [dif_pos (show (0 : Fin 2) ∈ (scDims N E n wf).scatterDimsToOperandDims from List.mem_singleton.mpr rfl)]
  congr 2
  funext b; refine Fin.ext ?_
  match b with
  | ⟨0, _⟩ => rfl
  | ⟨1, _⟩ => rfl

/-- Where an update element lands: its row is the (signed) scatter index of its row, its column its own. -/
theorem sc_resultIdx_iff (a : Fin E) (c : Fin n) (r : Fin N) (c' : Fin n) (idx : IVec ⟨2, ![E, 1]⟩ w) :
    (scDims N E n wf).resultIdx? (ix2 a c) idx = some (ix2 r c') ↔
      (idx (ix2 a (0 : Fin 1))).toInt = (r.val : ℤ) ∧ c = c' := by
  rw [resultIdx?_eq_some_iff, Fin.forall_fin_two, sc_start0, sc_window0, sc_start1, sc_window1]
  constructor
  · rintro ⟨h0, h1⟩
    refine ⟨by simpa using h0, Fin.ext ?_⟩
    have : ((c.val : ℕ) : ℤ) = ((c'.val : ℕ) : ℤ) := by simpa using h1
    exact_mod_cast this
  · rintro ⟨h0, rfl⟩
    exact ⟨by simpa using h0, by simp⟩

/-- The accumulating scatter read at (r, c): the operand's element plus the update rows whose signed scatter index
    is r, at column c. -/
theorem scatterAdd_apply {φ : FTy} (x : FVec Ideal ⟨2, ![N, n]⟩ φ) (idx : IVec ⟨2, ![E, 1]⟩ w)
    (upd : FVec Ideal ⟨2, ![E, n]⟩ φ) (r : Fin N) (c : Fin n) :
    Host.scatterAdd (F := Ideal) (scDims N E n wf) x idx upd (ix2 r c)
      = x (ix2 r c) + ∑ a : Fin E, if (idx (ix2 a (0 : Fin 1))).toInt = (r.val : ℤ) then upd (ix2 a c) else 0 := by
  show x (ix2 r c) + ∑ j ∈ Finset.univ.filter (fun j => (scDims N E n wf).resultIdx? j idx = some (ix2 r c)), upd j = _
  congr 1
  rw [Finset.sum_filter, sum_idx2]
  refine Finset.sum_congr rfl fun a _ => ?_
  simp only [sc_resultIdx_iff]
  by_cases hP : (idx (ix2 a (0 : Fin 1))).toInt = (r.val : ℤ)
  · simp [hP]
  · simp [hP]

/-- The gather's dimension numbers: start index e names a row of the operand, result row e is that whole row. -/
abbrev gaDims (N E n : Nat) (gwf : GatherDims.WF ⟨2, ![N, n]⟩ ⟨2, ![E, 1]⟩ ⟨2, ![E, n]⟩ [1] [0] [] [0] [] 1 ![1, n]) :
    GatherDims ⟨2, ![N, n]⟩ ⟨2, ![E, 1]⟩ ⟨2, ![E, n]⟩ where
  offsetDims := [1]
  collapsedSliceDims := [0]
  operandBatchingDims := []
  startIndicesBatchingDims := []
  startIndexMap := [0]
  indexVectorDim := 1
  sliceSizes := ![1, n]
  wf := gwf

/-- The row gather read at (a, c): the operand's row at the signed start index of a, clamped into range, column c. -/
theorem gather_apply {α : Type} (hN : 0 < N)
    (gwf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (a : Fin E) (c : Fin n) :
    Host.gather (gaDims N E n gwf) x idx (ix2 a c)
      = x (ix2 (⟨min (idx (ix2 a (0 : Fin 1))).toInt.toNat (N - 1), by omega⟩ : Fin N) c) := by
  unfold Host.gather
  congr 1
  funext b
  refine Fin.ext ?_
  match b with
  | ⟨0, _⟩ =>
    show (gaDims N E n gwf).start (ix2 a c) idx 0 + (gaDims N E n gwf).batchCoord (ix2 a c) 0
      + (gaDims N E n gwf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gaDims N E n gwf).startIndexMap from List.mem_singleton.mpr rfl)]
    have hsi : (gaDims N E n gwf).siIdx (ix2 a c) ⟨List.idxOf (0 : Fin 2) (gaDims N E n gwf).startIndexMap,
        List.idxOf_lt_length_iff.2 (List.mem_singleton.mpr rfl)⟩ = ix2 a (0 : Fin 1) := by
      funext b; refine Fin.ext ?_
      match b with
      | ⟨0, _⟩ => rfl
      | ⟨1, _⟩ => rfl
    rw [hsi]
    rfl
  | ⟨1, _⟩ =>
    show (gaDims N E n gwf).start (ix2 a c) idx 1 + (gaDims N E n gwf).batchCoord (ix2 a c) 1
      + (gaDims N E n gwf).offCoord (ix2 a c) 1 = _
    rw [GatherDims.batchCoord_eq_zero _ _ _ List.not_mem_nil]
    have hs : (gaDims N E n gwf).start (ix2 a c) idx 1 = 0 := rfl
    have ho : (gaDims N E n gwf).offCoord (ix2 a c) 1 = c.val := rfl
    rw [hs, ho]
    exact Nat.zero_add _

/-! ## The edge list: every ordered pair (source a, destination b + 1), source-major -/

/-- The position of the edge from row a to row b + 1 in the source-major list of 1024 * 1023 edges. -/
def edge (a : Fin 1024) (b : Fin 1023) : Fin 1047552 := ⟨a.val * 1023 + b.val, by omega⟩

/-- A sum over the edge list is the double sum over sources and destinations. -/
theorem sum_edges {M : Type*} [AddCommMonoid M] (f : Fin 1047552 → M) :
    ∑ e, f e = ∑ a : Fin 1024, ∑ b : Fin 1023, f (edge a b) := by
  rw [← Equiv.sum_comp (finProdFinEquiv (m := 1024) (n := 1023)) f, Fintype.sum_prod_type]
  refine Finset.sum_congr rfl fun a _ => Finset.sum_congr rfl fun b _ => congrArg f (Fin.ext ?_)
  show b.val + 1023 * a.val = a.val * 1023 + b.val
  omega

/-- THE COLLAPSE. Gathering the source row of every edge and scatter-adding it onto the edge's destination row, into
    a zero array: row 0 receives nothing (no edge ends there) and every other row receives each row exactly once, so
    the result at (r, c) is the column sum of h, masked off at r = 0. -/
theorem scatter_gather_edges {n : ℕ} {φ : FTy}
    (swf : ScatterDims.WF ⟨2, ![1024, n]⟩ ⟨2, ![1047552, 1]⟩ ⟨2, ![1047552, n]⟩ [1] [0] [0] 1)
    (gwf : GatherDims.WF ⟨2, ![1024, n]⟩ ⟨2, ![1047552, 1]⟩ ⟨2, ![1047552, n]⟩ [1] [0] [] [0] [] 1 ![1, n])
    (src dst : IVec ⟨2, ![1047552, 1]⟩ 32)
    (hsrc : ∀ a b, (src (ix2 (edge a b) (0 : Fin 1))).toInt = (a.val : ℤ))
    (hdst : ∀ a b, (dst (ix2 (edge a b) (0 : Fin 1))).toInt = ((b.val + 1 : ℕ) : ℤ))
    (h z : FVec Ideal ⟨2, ![1024, n]⟩ φ) (hz : ∀ i, z i = 0) (r : Fin 1024) (c : Fin n) :
    Host.scatterAdd (F := Ideal) (scDims 1024 1047552 n swf) z dst
        (Host.gather (gaDims 1024 1047552 n gwf) h src) (ix2 r c)
      = if r.val = 0 then 0 else ∑ a : Fin 1024, h (ix2 a c) := by
  rw [scatterAdd_apply, hz, zero_add, sum_edges]
  have key : ∀ (a : Fin 1024) (b : Fin 1023),
      (if (dst (ix2 (edge a b) (0 : Fin 1))).toInt = (r.val : ℤ)
        then Host.gather (gaDims 1024 1047552 n gwf) h src (ix2 (edge a b) c) else 0)
      = if b.val + 1 = r.val then h (ix2 a c) else 0 := by
    intro a b
    rw [hdst, gather_apply (by norm_num) gwf h src (edge a b) c]
    refine if_congr Nat.cast_inj ?_ rfl
    refine congrArg (fun q : Fin 1024 => h (ix2 q c)) (Fin.ext ?_)
    show min (src (ix2 (edge a b) (0 : Fin 1))).toInt.toNat (1024 - 1) = a.val
    rw [hsrc, Int.toNat_natCast]
    have := a.isLt
    omega
  simp only [key]
  split_ifs with hr
  · exact Finset.sum_eq_zero fun a _ => Finset.sum_eq_zero fun b _ => if_neg (by omega)
  · refine Finset.sum_congr rfl fun a _ => ?_
    have hb : r.val - 1 < 1023 := by have := r.isLt; omega
    rw [Finset.sum_eq_single (⟨r.val - 1, hb⟩ : Fin 1023)]
    · exact if_pos (by show r.val - 1 + 1 = r.val; omega)
    · intro b _ hne
      exact if_neg fun hh => hne (Fin.ext (by show b.val = r.val - 1; omega))
    · intro hh
      exact absurd (Finset.mem_univ _) hh

end Cert.Enc.Aggregate
-- ==== Proof.Aggregate.lean ====
/-
  The reference's aggregation read at an index: at the ideal values, adding to h the scatter-add over the edge list
  of the gathered source rows gives h (r, c) + (0 when r = 0, else the whole column sum of h at c).

  The edge tables: position e = a * 1023 + b of the flattened 1024 x 1023 grid holds source row a and destination
  row b + 1; the wrap of negative sources by 1024 is the identity on these non-negative rows.
-/
import proofs.«114618_j47768626266491_2_alg».proof.Proof.RefTerm
import proofs.«114618_j47768626266491_2_alg».proof.Proof.AggregateIdx
import Idealize.ShloMosaic.Lib.IdealHost

noncomputable section

open scoped BigOperators

namespace Cert.Enc.Aggregate

open Cert.ReferenceIdeal Idealize.ShloMosaic Idealize.ShloMosaic.ValueIdx Cert.Enc
open Cert.ReferenceIdeal.Facts₀ Cert.ReferenceIdeal.Facts

/-! ## Words -/

/-- A number below 2^31 as a 32-bit word reads back, signed, as itself. -/
theorem toInt_ofNat32 (k : ℕ) (hk : k < 2147483648) : (BitVec.ofNat 32 k).toInt = (k : ℤ) := by
  rw [BitVec.toInt_eq_toNat_cond, BitVec.toNat_ofNat]
  have h1 : k % 2 ^ 32 = k := Nat.mod_eq_of_lt (by omega)
  rw [h1, if_pos (by omega)]

/-- The wrap of a negative index by 1024 leaves a non-negative word alone. -/
theorem wrap_nonneg (x : BitVec 32) (hx : 0 ≤ x.toInt) :
    Scalar.select (IntOp.cmpi .slt x 0#32) (IntOp.addi x 1024#32) x = x := by
  have h0 : x.slt 0#32 = false := by
    simp only [BitVec.slt, BitVec.toInt_zero, decide_eq_false_iff_not, not_lt]
    exact hx
  show Scalar.select (BitVec.ofBool (x.slt 0#32)) _ _ = x
  rw [h0]
  exact select_zero _ _

variable [Facts]

/-! ## The edge tables at an edge -/

/-- The flattened table of source rows holds a at edge (a, b). -/
theorem rowFlat_apply (a : Fin 1024) (b : Fin 1023) : RefTerm.rowFlat (ix1 (edge a b)) = BitVec.ofNat 32 a.val := by
  unfold RefTerm.rowFlat
  refine (shapeCast_apply _ _ (ix1 (edge a b)) (ix2 a b) ?_).trans ?_
  · rw [Shape.rowMajor_val_two, Shape.rowMajor_val_one]
    rfl
  · refine (broadcastInDim_apply _ _ _ (ix2 a b) (ix1 a) ?_).trans rfl
    intro a'
    match a' with
    | ⟨0, _⟩ => rfl

/-- The flattened table of destination rows holds b + 1 at edge (a, b). -/
theorem dstFlat_apply (a : Fin 1024) (b : Fin 1023) :
    RefTerm.dstFlat (ix1 (edge a b)) = BitVec.ofNat 32 (b.val + 1) := by
  unfold RefTerm.dstFlat
  refine (shapeCast_apply _ _ (ix1 (edge a b)) (ix2 a b) ?_).trans ?_
  · rw [Shape.rowMajor_val_two, Shape.rowMajor_val_one]
    rfl
  refine (broadcastInDim_apply _ _ _ (ix2 a b) (ix2 (0 : Fin 1) b) ?_).trans ?_
  · intro a'
    match a' with
    | ⟨0, _⟩ => rfl
    | ⟨1, _⟩ => rfl
  refine (shapeCast_apply _ _ (ix2 (0 : Fin 1) b) (ix1 b) ?_).trans ?_
  · rw [Shape.rowMajor_val_two, Shape.rowMajor_val_one]
    show b.val = 0 * 1023 + b.val
    omega
  show IntOp.addi (broadcastInDim S1023 ![] bcast_S_S1023 (constantI S_ 32 1#32) (ix1 b)) (BitVec.ofNat 32 b.val) = _
  rw [broadcastInDim_scalar_apply]
  show (1#32 : BitVec 32) + BitVec.ofNat 32 b.val = _
  rw [Nat.add_comm b.val 1, BitVec.ofNat_add]

/-- The gather's index column at edge (a, b), read signed, is a. -/
theorem srcIdx_toInt (a : Fin 1024) (b : Fin 1023) :
    (RefTerm.srcIdx (ix2 (edge a b) (0 : Fin 1))).toInt = (a.val : ℤ) := by
  unfold RefTerm.srcIdx RefTerm.srcIdxOf
  rw [broadcastInDim_apply _ _ _ (ix2 (edge a b) (0 : Fin 1)) (ix1 (edge a b)) (fun a' => match a' with | ⟨0, _⟩ => rfl)]
  show (Scalar.select (IntOp.cmpi .slt (RefTerm.rowFlat (ix1 (edge a b)))
      (broadcastInDim S1047552 ![] bcast_S_S1047552 (constantI S_ 32 0#32) (ix1 (edge a b))))
    (IntOp.addi (RefTerm.rowFlat (ix1 (edge a b)))
      (broadcastInDim S1047552 ![] bcast_S_S1047552 (constantI S_ 32 1024#32) (ix1 (edge a b))))
    (RefTerm.rowFlat (ix1 (edge a b)))).toInt = _
  rw [broadcastInDim_scalar_apply, broadcastInDim_scalar_apply, rowFlat_apply]
  have ha := a.isLt
  have ht := toInt_ofNat32 a.val (by omega)
  show (Scalar.select (IntOp.cmpi .slt (BitVec.ofNat 32 a.val) 0#32) (IntOp.addi (BitVec.ofNat 32 a.val) 1024#32)
    (BitVec.ofNat 32 a.val)).toInt = _
  rw [wrap_nonneg _ (by rw [ht]; exact Int.natCast_nonneg _), ht]

/-- The scatter's index column at edge (a, b), read signed, is b + 1. -/
theorem dstIdx_toInt (a : Fin 1024) (b : Fin 1023) :
    (RefTerm.dstIdx (ix2 (edge a b) (0 : Fin 1))).toInt = ((b.val + 1 : ℕ) : ℤ) := by
  unfold RefTerm.dstIdx RefTerm.dstIdxOf
  rw [broadcastInDim_apply _ _ _ (ix2 (edge a b) (0 : Fin 1)) (ix1 (edge a b)) (fun a' => match a' with | ⟨0, _⟩ => rfl)]
  rw [dstFlat_apply]
  have hb := b.isLt
  exact toInt_ofNat32 _ (by omega)

/-! ## The aggregation at an index -/

/-- The zero array the scatter accumulates into is zero everywhere. -/
theorem zeros_apply {T : Shape} (hb : S_.BroadcastsInDim T ![]) (i : T.Idx) :
    broadcastInDim T ![] hb (constant (F := Ideal) S_ .f32 0x00000000#32) i = 0 := by
  rw [broadcastInDim_scalar_apply]
  exact (constant_apply _ _).trans Ideal.ofBits_zero_f32

/-- THE FIRST LAYER'S AGGREGATION at (r, c): the row's own entry, plus the whole column sum unless r = 0. -/
theorem agg128_apply (h : FVec Ideal S1024x128 .f32) (r : Fin 1024) (c : Fin 128) :
    RefTerm.agg128 (F := Ideal) h (ix2 r c)
      = h (ix2 r c) + (if r.val = 0 then 0 else ∑ a : Fin 1024, h (ix2 a c)) := by
  unfold RefTerm.agg128 RefTerm.aggWith128
  refine (addf_apply _ _ _).trans ?_
  refine congrArg (fun t => h (ix2 r c) + t) ?_
  exact scatter_gather_edges (n := 128) scatter_S1024x128_S1047552x1_S1047552x128_1_0_0_1_wf
    gather_S1024x128_S1047552x1_S1047552x128_1_0_n_n_0_1_1128_wf RefTerm.srcIdx RefTerm.dstIdx
    srcIdx_toInt dstIdx_toInt h _ (zeros_apply bcast_S_S1024x128) r c

/-- THE SECOND LAYER'S AGGREGATION at (r, c), the same at 256 columns. -/
theorem agg256_apply (h : FVec Ideal S1024x256 .f32) (r : Fin 1024) (c : Fin 256) :
    RefTerm.agg256 (F := Ideal) h (ix2 r c)
      = h (ix2 r c) + (if r.val = 0 then 0 else ∑ a : Fin 1024, h (ix2 a c)) := by
  unfold RefTerm.agg256 RefTerm.aggWith256
  refine (addf_apply _ _ _).trans ?_
  refine congrArg (fun t => h (ix2 r c) + t) ?_
  exact scatter_gather_edges (n := 256) scatter_S1024x256_S1047552x1_S1047552x256_1_0_0_1_wf
    gather_S1024x256_S1047552x1_S1047552x256_1_0_n_n_0_1_1256_wf RefTerm.srcIdx RefTerm.dstIdx
    srcIdx_toInt dstIdx_toInt h _ (zeros_apply bcast_S_S1024x256) r c

end Cert.Enc.Aggregate
-- ==== Proof.KernelPay.lean ====
/- The kernel's stored value as one function of the thirteen loaded blocks: the composition of the
   generated payload terms, generic in the float instance. -/
import proofs.«114618_j47768626266491_2_alg».proof.Proof.Gen.KernelIdeal.Skeleton

noncomputable section

namespace Cert.Enc.KPay

open Idealize.ShloMosaic Idealize.SL.Sem
open Cert.KernelIdeal Cert.KernelIdeal.Gen

variable {F : FTy → Type} [FloatOps F]

/-- The value the kernel stores, from the node features `x0`, the first layer's weights and biases
    `x1 … x4`, its normalization's scale and shift `x5 x6`, the second layer's `x7 … x10` and
    `x11 x12`. -/
def pay (x0 : Vec F S1024x128 .f32) (x1 : Vec F S128x256 .bf16) (x2 : Vec F S256 .f32)
    (x3 : Vec F S256x256 .bf16) (x4 : Vec F S256 .f32) (x5 : Vec F S256 .f32) (x6 : Vec F S256 .f32)
    (x7 : Vec F S256x256 .bf16) (x8 : Vec F S256 .f32) (x9 : Vec F S256x128 .bf16)
    (x10 : Vec F S128 .f32) (x11 : Vec F S128 .f32) (x12 : Vec F S128 .f32) : FVec F S128 .f32 :=
  k0_pay1 (k0_pay6 (k0_pay2 (F := F)) (k0_pay3 x0 x1 x2 x3 x4) (k0_pay4 x0 x1 x2 x3 x4)
    (k0_pay5 x0 x1 x2 x3 x4) x5 x6 x7 x8 x9 x10) x11 x12

end Cert.Enc.KPay

end
-- ==== Proof.Bridge.lean ====
/-
  On finite inputs the reference's result and the kernel's stored value are one array.

  Read at an index j, the reference's result is the second arrangement of the encoder (the aggregate multiplied by the
  weights, the variance as the mean of squared deviations) of the inputs' entries, the edge-wise gather and scatter-add
  being the masked column sum; the kernel's stored value is the first arrangement (the product distributed over the
  aggregate, the variance as the mean of squares less the squared mean).  The two arrangements agree on finite inputs.
-/
import proofs.«114618_j47768626266491_2_alg».proof.Proof.SpecMath
import proofs.«114618_j47768626266491_2_alg».proof.Proof.Consts
import proofs.«114618_j47768626266491_2_alg».proof.Proof.RefRead
import proofs.«114618_j47768626266491_2_alg».proof.Proof.Aggregate
import proofs.«114618_j47768626266491_2_alg».proof.Proof.KernelPay

noncomputable section

namespace Cert.Enc.Bridge

open Idealize.ShloMosaic Idealize.ShloMosaic.ValueIdx Cert.ReferenceIdeal

/-- Division by the literal 1024.0 is division by the number of rows. -/
theorem dv_rows (r : ℝ) : Consts.dv (r : EReal) = ((r / ((1024 : ℕ) : ℝ) : ℝ) : EReal) := by
  rw [Consts.dv_coe]
  norm_num

/-- The reference's result is the kernel's stored value when every input entry is finite, given the kernel's stored
    value read at an index as the first arrangement of the encoder. -/
theorem out_eq_pay [Cert.ReferenceIdeal.Facts]
    (a0 : FVec Ideal S1024x128 .f32) (a1 : FVec Ideal S128x256 .f32) (a2 : FVec Ideal S256 .f32)
    (a3 : FVec Ideal S256x256 .f32) (a4 a5 a6 : FVec Ideal S256 .f32) (a7 : FVec Ideal S256x256 .f32)
    (a8 : FVec Ideal S256 .f32) (a9 : FVec Ideal S256x128 .f32) (a10 a11 a12 : FVec Ideal S128 .f32)
    (f0 : ∀ i, a0 i ≠ ⊤ ∧ a0 i ≠ ⊥) (f1 : ∀ i, a1 i ≠ ⊤ ∧ a1 i ≠ ⊥) (f2 : ∀ i, a2 i ≠ ⊤ ∧ a2 i ≠ ⊥)
    (f3 : ∀ i, a3 i ≠ ⊤ ∧ a3 i ≠ ⊥) (f4 : ∀ i, a4 i ≠ ⊤ ∧ a4 i ≠ ⊥) (f5 : ∀ i, a5 i ≠ ⊤ ∧ a5 i ≠ ⊥)
    (f6 : ∀ i, a6 i ≠ ⊤ ∧ a6 i ≠ ⊥) (f7 : ∀ i, a7 i ≠ ⊤ ∧ a7 i ≠ ⊥) (f8 : ∀ i, a8 i ≠ ⊤ ∧ a8 i ≠ ⊥)
    (f9 : ∀ i, a9 i ≠ ⊤ ∧ a9 i ≠ ⊥) (f10 : ∀ i, a10 i ≠ ⊤ ∧ a10 i ≠ ⊥) (f11 : ∀ i, a11 i ≠ ⊤ ∧ a11 i ≠ ⊥)
    (f12 : ∀ i, a12 i ≠ ⊤ ∧ a12 i ≠ ⊥)
    (hpay : ∀ j : Fin 128, KPay.pay (F := Ideal) a0 a1 a2 a3 a4 a5 a6 a7 a8 a9 a10 a11 a12 (ix1 j)
      = Cert.Enc.kOut Consts.dv Consts.rs Consts.eps (fun i k => a0 (ix2 i k)) (fun k j => a1 (ix2 k j)) (fun j => a2 (ix1 j)) (fun k j => a3 (ix2 k j)) (fun j => a4 (ix1 j)) (fun j => a5 (ix1 j)) (fun j => a6 (ix1 j)) (fun k j => a7 (ix2 k j)) (fun j => a8 (ix1 j)) (fun k j => a9 (ix2 k j)) (fun j => a10 (ix1 j)) (fun j => a11 (ix1 j)) (fun j => a12 (ix1 j)) j) :
    RefTerm.out (F := Ideal) a0 a1 a2 a3 a4 a5 a6 a7 a8 a9 a10 a11 a12
      = KPay.pay (F := Ideal) a0 a1 a2 a3 a4 a5 a6 a7 a8 a9 a10 a11 a12 := by
  funext j
  obtain ⟨q, rfl⟩ : ∃ q : Fin 128, j = ix1 q := ⟨j 0, eq_ix1 j⟩
  rw [RefRead.out_apply a0 a1 a2 a3 a4 a5 a6 a7 a8 a9 a10 a11 a12
    (fun i k => Aggregate.agg128_apply a0 i k) (fun i k => Aggregate.agg256_apply _ i k) q, hpay q]
  exact (congrFun (Cert.Enc.kOut_eq_rOut Consts.dv Consts.rs Consts.eps dv_rows
    (fun r h => Consts.rs_coe_pos h) Consts.eps_coe (by norm_num) _ _ _ _ _ _ _ _ _ _ _ _ _
    (fun i k => f0 (ix2 i k)) (fun i k => f1 (ix2 i k)) (fun k => f2 (ix1 k)) (fun i k => f3 (ix2 i k))
    (fun k => f4 (ix1 k)) (fun k => f5 (ix1 k)) (fun k => f6 (ix1 k)) (fun i k => f7 (ix2 i k))
    (fun k => f8 (ix1 k)) (fun i k => f9 (ix2 i k)) (fun k => f10 (ix1 k)) (fun k => f11 (ix1 k))
    (fun k => f12 (ix1 k))) q).symm

end Cert.Enc.Bridge

end
-- ==== Proof.RefRun.lean ====
/-
  The run of the reference program, written out: @main is a straight line of host operations once each call is
  replaced by its callee's operations over the call's own buffers (the callee for the variance itself calls the
  selection function, whose operations are listed in turn). The line is cut into nine stretches at the layer
  boundaries. For each stretch: its operations, the references it writes, that every other reference passes through
  it unchanged, and its result as the layer's pure term (RefTerm) of the contents it starts from. The results compose
  to `RefTerm.out` of the thirteen arguments, and the run theorem of a straight line gives the statement over every
  weakly fair execution.
-/
import proofs.«114618_j47768626266491_2_alg».proof.Proof.RefTerm
import proofs.«114618_j47768626266491_2_alg».proof.Proof.Gen.ReferenceIdeal
import Idealize.ShloMosaic.Lib.StableHlo.Run

noncomputable section

namespace Cert.Enc.RefRun

open Cert.ReferenceIdeal Cert.ReferenceIdeal.Gen Idealize.ShloMosaic Idealize.ShloMosaic.TcCoe Idealize.SL.Sem Idealize.ShloMosaic.StableHlo
open Cert.Enc

variable {F : FTy → Type} [FloatOps F]

/-- The contents after two stretches run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A one-buffer write set lies in the buffers of any list of references that holds the buffer's reference. -/
theorem writes_mem {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

/-! ## The stretches -/

/-- The operations of stretch A, in printed order. -/
def opsA : List (HloOp τ sig (Elt F)) :=
  [ StableHlo.nullary main_v0 (iotaInDim S1024 32 0),
    StableHlo.unary main_v0 main_v1 (broadcastInDim S1024x1023 ![0] bcast_S1024_S1024x1023_0 : (⟨S1024, .i32⟩ : BufTy).Contents (Elt F) → (⟨S1024x1023, .i32⟩ : BufTy).Contents (Elt F)),
    StableHlo.reshape main_v1 main_v2 rfl shapeCasts_S1024x1023_S1047552,
    StableHlo.nullary main_v3 (iotaInDim S1023 32 0),
    StableHlo.nullary main_c (constantI S_ 32 1#32),
    StableHlo.unary main_c main_v4 (broadcastInDim S1023 ![] bcast_S_S1023 : (⟨S_, .i32⟩ : BufTy).Contents (Elt F) → (⟨S1023, .i32⟩ : BufTy).Contents (Elt F)),
    StableHlo.binary main_v4 main_v3 main_v5 (addi : (⟨S1023, .i32⟩ : BufTy).Contents (Elt F) → (⟨S1023, .i32⟩ : BufTy).Contents (Elt F) → (⟨S1023, .i32⟩ : BufTy).Contents (Elt F)),
    StableHlo.reshape main_v5 main_v6 rfl shapeCasts_S1023_S1x1023,
    StableHlo.unary main_v6 main_v7 (broadcastInDim S1024x1023 ![0, 1] bcast_S1x1023_S1024x1023_0_1 : (⟨S1x1023, .i32⟩ : BufTy).Contents (Elt F) → (⟨S1024x1023, .i32⟩ : BufTy).Contents (Elt F)),
    StableHlo.reshape main_v7 main_v8 rfl shapeCasts_S1024x1023_S1047552,
    StableHlo.nullary main_c_0 (constantI S_ 32 0#32),
    StableHlo.unary main_c_0 main_v9 (broadcastInDim S1047552 ![] bcast_S_S1047552 : (⟨S_, .i32⟩ : BufTy).Contents (Elt F) → (⟨S1047552, .i32⟩ : BufTy).Contents (Elt F)),
    StableHlo.binary main_v2 main_v9 main_v10 (cmpi .slt : (⟨S1047552, .i32⟩ : BufTy).Contents (Elt F) → (⟨S1047552, .i32⟩ : BufTy).Contents (Elt F) → (⟨S1047552, .i1⟩ : BufTy).Contents (Elt F)),
    StableHlo.nullary main_c_1 (constantI S_ 32 1024#32),
    StableHlo.unary main_c_1 main_v11 (broadcastInDim S1047552 ![] bcast_S_S1047552 : (⟨S_, .i32⟩ : BufTy).Contents (Elt F) → (⟨S1047552, .i32⟩ : BufTy).Contents (Elt F)),
    StableHlo.binary main_v2 main_v11 main_v12 (addi : (⟨S1047552, .i32⟩ : BufTy).Contents (Elt F) → (⟨S1047552, .i32⟩ : BufTy).Contents (Elt F) → (⟨S1047552, .i32⟩ : BufTy).Contents (Elt F)),
    StableHlo.ternary main_v10 main_v12 main_v2 main_v13 (select : (⟨S1047552, .i1⟩ : BufTy).Contents (Elt F) → (⟨S1047552, .i32⟩ : BufTy).Contents (Elt F) → (⟨S1047552, .i32⟩ : BufTy).Contents (Elt F) → (⟨S1047552, .i32⟩ : BufTy).Contents (Elt F)),
    StableHlo.unary main_v13 main_v14 (broadcastInDim S1047552x1 ![0] bcast_S1047552_S1047552x1_0 : (⟨S1047552, .i32⟩ : BufTy).Contents (Elt F) → (⟨S1047552x1, .i32⟩ : BufTy).Contents (Elt F)),
    StableHlo.binary main_arg0 main_v14 main_v15 ((fun x i => Host.gather gather_S1024x128_S1047552x1_S1047552x128_1_0_n_n_0_1_1128 x i) : (⟨S1024x128, .f32⟩ : BufTy).Contents (Elt F) → (⟨S1047552x1, .i32⟩ : BufTy).Contents (Elt F) → (⟨S1047552x128, .f32⟩ : BufTy).Contents (Elt F)),
    StableHlo.nullary main_cst (constant S_ .f32 0x00000000#32),
    StableHlo.unary main_cst main_v16 (broadcastInDim S1024x128 ![] bcast_S_S1024x128 : (⟨S_, .f32⟩ : BufTy).Contents (Elt F) → (⟨S1024x128, .f32⟩ : BufTy).Contents (Elt F)),
    StableHlo.unary main_v8 main_v17 (broadcastInDim S1047552x1 ![0] bcast_S1047552_S1047552x1_0 : (⟨S1047552, .i32⟩ : BufTy).Contents (Elt F) → (⟨S1047552x1, .i32⟩ : BufTy).Contents (Elt F)),
    StableHlo.ternary main_v16 main_v17 main_v15 main_v18 ((fun x i u => Host.scatterAdd scatter_S1024x128_S1047552x1_S1047552x128_1_0_0_1 x i u) : (⟨S1024x128, .f32⟩ : BufTy).Contents (Elt F) → (⟨S1047552x1, .i32⟩ : BufTy).Contents (Elt F) → (⟨S1047552x128, .f32⟩ : BufTy).Contents (Elt F) → (⟨S1024x128, .f32⟩ : BufTy).Contents (Elt F)),
    StableHlo.binary main_arg0 main_v18 main_v19 (addf : (⟨S1024x128, .f32⟩ : BufTy).Contents (Elt F) → (⟨S1024x128, .f32⟩ : BufTy).Contents (Elt F) → (⟨S1024x128, .f32⟩ : BufTy).Contents (Elt F)) ]

/-- The references stretch A writes. -/
def WA : List (Ref sig .tc) := [main_v0, main_v1, main_v2, main_v3, main_c, main_v4, main_v5, main_v6, main_v7, main_v8, main_c_0, main_v9, main_v10, main_c_1, main_v11, main_v12, main_v13, main_v14, main_v15, main_cst, main_v16, main_v17, main_v18, main_v19]

theorem opsA_sub : (opsA (F := F)).Forall fun op => op.bufs ⊆ tcRefs τ sig := by
  unfold opsA
  exact ⟨nullary_bufs_sub .., unary_bufs_sub .., reshape_bufs_sub .., nullary_bufs_sub .., nullary_bufs_sub .., unary_bufs_sub .., binary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

theorem opsA_fresh : (opsA (F := F)).Forall fun op => op.fresh = ∅ := by
  unfold opsA
  exact ⟨rfl, rfl, rfl, rfl, rfl, rfl, rfl, rfl, rfl, rfl, rfl, rfl, rfl, rfl, rfl, rfl, rfl, rfl, rfl, rfl, rfl, rfl, rfl, rfl⟩

theorem opsA_writes : (opsA (F := F)).Forall fun op => op.writes ⊆ ((WA).map (Proc.devRef (τ := τ) .tc)).toFinset := by
  unfold opsA
  exact ⟨writes_mem (y := main_v0) (by decide), writes_mem (y := main_v1) (by decide), writes_mem (y := main_v2) (by decide), writes_mem (y := main_v3) (by decide), writes_mem (y := main_c) (by decide), writes_mem (y := main_v4) (by decide), writes_mem (y := main_v5) (by decide), writes_mem (y := main_v6) (by decide), writes_mem (y := main_v7) (by decide), writes_mem (y := main_v8) (by decide), writes_mem (y := main_c_0) (by decide), writes_mem (y := main_v9) (by decide), writes_mem (y := main_v10) (by decide), writes_mem (y := main_c_1) (by decide), writes_mem (y := main_v11) (by decide), writes_mem (y := main_v12) (by decide), writes_mem (y := main_v13) (by decide), writes_mem (y := main_v14) (by decide), writes_mem (y := main_v15) (by decide), writes_mem (y := main_cst) (by decide), writes_mem (y := main_v16) (by decide), writes_mem (y := main_v17) (by decide), writes_mem (y := main_v18) (by decide), writes_mem (y := main_v19) (by decide)⟩

/-- A reference stretch A does not write keeps its contents. -/
theorem frameA {r : Ref sig .tc} (hr : r ∉ WA) (V : Valuation τ sig (Elt F)) :
    after opsA V (Proc.devRef (τ := τ) .tc r) = V (Proc.devRef (τ := τ) .tc r) :=
  after_of_writes_sub opsA V opsA_writes hr

/-- The operations of stretch B, in printed order. -/
def opsB : List (HloOp τ sig (Elt F)) :=
  [ StableHlo.binary main_v19 main_arg1 main_v20 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    StableHlo.unary main_arg2 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S1024x256 ![0, 1] bcast_S1x256_S1024x256_0_1 : (⟨S1x256, .f32⟩ : BufTy).Contents (Elt F) → (⟨S1024x256, .f32⟩ : BufTy).Contents (Elt F)),
    StableHlo.binary main_v20 main_v22 main_v23 (addf : (⟨S1024x256, .f32⟩ : BufTy).Contents (Elt F) → (⟨S1024x256, .f32⟩ : BufTy).Contents (Elt F) → (⟨S1024x256, .f32⟩ : BufTy).Contents (Elt F)),
    StableHlo.TRef.nullary main_call0.cst (constant S_ .f32 0x00000000#32),
    StableHlo.TRef.unary main_call0.cst main_call0.v0 (broadcastInDim S1024x256 ![] bcast_S_S1024x256),
    StableHlo.TRef.binary (.of main_v23) main_call0.v0 main_call0.v1 maximumf,
    StableHlo.binary main_v24 main_arg3 main_v25 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg4 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S1024x256 ![0, 1] bcast_S1x256_S1024x256_0_1 : (⟨S1x256, .f32⟩ : BufTy).Contents (Elt F) → (⟨S1024x256, .f32⟩ : BufTy).Contents (Elt F)),
    StableHlo.binary main_v25 main_v27 main_v28 (addf : (⟨S1024x256, .f32⟩ : BufTy).Contents (Elt F) → (⟨S1024x256, .f32⟩ : BufTy).Contents (Elt F) → (⟨S1024x256, .f32⟩ : BufTy).Contents (Elt F)),
    StableHlo.TRef.nullary main_call1.cst (constant S_ .f32 0x00000000#32),
    StableHlo.TRef.unary main_call1.cst main_call1.v0 (broadcastInDim S1024x256 ![] bcast_S_S1024x256),
    StableHlo.TRef.binary (.of main_v28) main_call1.v0 main_call1.v1 maximumf ]

/-- The references stretch B writes. -/
def WB : List (Ref sig .tc) := [main_v20, main_v21, main_v22, main_v23, main_call0_cst, main_call0_v0, main_v24, main_v25, main_v26, main_v27, main_v28, main_call1_cst, main_call1_v0, main_v29]

theorem opsB_sub : (opsB (F := F)).Forall fun op => op.bufs ⊆ tcRefs τ sig := by
  unfold opsB
  exact ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsB_fresh : (opsB (F := F)).Forall fun op => op.fresh = ∅ := by
  unfold opsB
  exact ⟨rfl, rfl, rfl, rfl, rfl, rfl, rfl, rfl, rfl, rfl, rfl, rfl, rfl, rfl⟩

theorem opsB_writes : (opsB (F := F)).Forall fun op => op.writes ⊆ ((WB).map (Proc.devRef (τ := τ) .tc)).toFinset := by
  unfold opsB
  exact ⟨writes_mem (y := main_v20) (by decide), writes_mem (y := main_v21) (by decide), writes_mem (y := main_v22) (by decide), writes_mem (y := main_v23) (by decide), writes_mem (y := main_call0_cst) (by decide), writes_mem (y := main_call0_v0) (by decide), writes_mem (y := main_v24) (by decide), writes_mem (y := main_v25) (by decide), writes_mem (y := main_v26) (by decide), writes_mem (y := main_v27) (by decide), writes_mem (y := main_v28) (by decide), writes_mem (y := main_call1_cst) (by decide), writes_mem (y := main_call1_v0) (by decide), writes_mem (y := main_v29) (by decide)⟩

/-- A reference stretch B does not write keeps its contents. -/
theorem frameB {r : Ref sig .tc} (hr : r ∉ WB) (V : Valuation τ sig (Elt F)) :
    after opsB V (Proc.devRef (τ := τ) .tc r) = V (Proc.devRef (τ := τ) .tc r) :=
  after_of_writes_sub opsB V opsB_writes hr

/-- The operations of stretch C, in printed order. -/
def opsC : List (HloOp τ sig (Elt F)) :=
  [ StableHlo.nullary main_cst_2 (constant S_ .f32 0x00000000#32),
    StableHlo.binary main_v29 main_cst_2 main_v30 ((fun x v => Host.reduceAdd x v reducesTo_S1024x256_S256_d0 h_S_) : (⟨S1024x256, .f32⟩ : BufTy).Contents (Elt F) → (⟨S_, .f32⟩ : BufTy).Contents (Elt F) → (⟨S256, .f32⟩ : BufTy).Contents (Elt F)),
    StableHlo.nullary main_cst_3 (constant S_ .f32 0x44800000#32),
    StableHlo.unary main_cst_3 main_v31 (broadcastInDim S256 ![] bcast_S_S256 : (⟨S_, .f32⟩ : BufTy).Contents (Elt F) → (⟨S256, .f32⟩ : BufTy).Contents (Elt F)),
    StableHlo.binary main_v30 main_v31 main_v32 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call2.cst (constant S_ .f32 0x00000000#32),
    StableHlo.TRef.binary (.of main_v29) main_call2.cst main_call2.v0 (fun x v => Host.reduceAdd x v reducesTo_S1024x256_S256_d0 h_S_),
    StableHlo.TRef.unary main_call2.v0 main_call2.v1 (broadcastInDim S1x256 ![1] bcast_S256_S1x256_1),
    StableHlo.TRef.nullary main_call2.cst_0 (constant S_ .f32 0x44800000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S1024x256 ![0, 1] bcast_S1x256_S1024x256_0_1),
    StableHlo.TRef.binary (.of main_v29) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x44800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S1024x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- The references stretch C writes. -/
def WC : List (Ref sig .tc) := [main_cst_2, main_v30, main_cst_3, main_v31, main_v32, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v33]

theorem opsC_sub : (opsC (F := F)).Forall fun op => op.bufs ⊆ tcRefs τ sig := by
  unfold opsC
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsC_fresh : (opsC (F := F)).Forall fun op => op.fresh = ∅ := by
  unfold opsC
  exact ⟨rfl, rfl, rfl, rfl, rfl, rfl, rfl, rfl, rfl, rfl, rfl, rfl, rfl, rfl, rfl, rfl, rfl, rfl, rfl, rfl, rfl, rfl, rfl, rfl, rfl, rfl, rfl, rfl⟩

theorem opsC_writes : (opsC (F := F)).Forall fun op => op.writes ⊆ ((WC).map (Proc.devRef (τ := τ) .tc)).toFinset := by
  unfold opsC
  exact ⟨writes_mem (y := main_cst_2) (by decide), writes_mem (y := main_v30) (by decide), writes_mem (y := main_cst_3) (by decide), writes_mem (y := main_v31) (by decide), writes_mem (y := main_v32) (by decide), writes_mem (y := main_c_4) (by decide), writes_mem (y := main_call2_cst) (by decide), writes_mem (y := main_call2_v0) (by decide), writes_mem (y := main_call2_v1) (by decide), writes_mem (y := main_call2_cst_0) (by decide), writes_mem (y := main_call2_v2) (by decide), writes_mem (y := main_call2_v3) (by decide), writes_mem (y := main_call2_v4) (by decide), writes_mem (y := main_call2_v5) (by decide), writes_mem (y := main_call2_v6) (by decide), writes_mem (y := main_call2_v7) (by decide), writes_mem (y := main_call2_cst_1) (by decide), writes_mem (y := main_call2_v8) (by decide), writes_mem (y := main_call2_cst_2) (by decide), writes_mem (y := main_call2_v9) (by decide), writes_mem (y := main_call2_v10) (by decide), writes_mem (y := main_call2_v11) (by decide), writes_mem (y := main_call2_cst_3) (by decide), writes_mem (y := main_call2_v12) (by decide), writes_mem (y := main_call2_cst_4) (by decide), writes_mem (y := main_call2_call0_v0) (by decide), writes_mem (y := main_call2_call0_v1) (by decide), writes_mem (y := main_v33) (by decide)⟩

/-- A reference stretch C does not write keeps its contents. -/
theorem frameC {r : Ref sig .tc} (hr : r ∉ WC) (V : Valuation τ sig (Elt F)) :
    after opsC V (Proc.devRef (τ := τ) .tc r) = V (Proc.devRef (τ := τ) .tc r) :=
  after_of_writes_sub opsC V opsC_writes hr

/-- The operations of stretch D, in printed order. -/
def opsD : List (HloOp τ sig (Elt F)) :=
  [ StableHlo.unary main_v32 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S1024x256 ![0, 1] bcast_S1x256_S1024x256_0_1 : (⟨S1x256, .f32⟩ : BufTy).Contents (Elt F) → (⟨S1024x256, .f32⟩ : BufTy).Contents (Elt F)),
    StableHlo.binary main_v29 main_v35 main_v36 (subf : (⟨S1024x256, .f32⟩ : BufTy).Contents (Elt F) → (⟨S1024x256, .f32⟩ : BufTy).Contents (Elt F) → (⟨S1024x256, .f32⟩ : BufTy).Contents (Elt F)),
    StableHlo.nullary main_cst_5 (constant S_ .f32 0x3727C5AC#32),
    StableHlo.unary main_cst_5 main_v37 (broadcastInDim S256 ![] bcast_S_S256 : (⟨S_, .f32⟩ : BufTy).Contents (Elt F) → (⟨S256, .f32⟩ : BufTy).Contents (Elt F)),
    StableHlo.binary main_v33 main_v37 main_v38 (addf : (⟨S256, .f32⟩ : BufTy).Contents (Elt F) → (⟨S256, .f32⟩ : BufTy).Contents (Elt F) → (⟨S256, .f32⟩ : BufTy).Contents (Elt F)),
    StableHlo.unary main_v38 main_v39 (Host.rsqrt : (⟨S256, .f32⟩ : BufTy).Contents (Elt F) → (⟨S256, .f32⟩ : BufTy).Contents (Elt F)),
    StableHlo.unary main_v39 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S1024x256 ![0, 1] bcast_S1x256_S1024x256_0_1 : (⟨S1x256, .f32⟩ : BufTy).Contents (Elt F) → (⟨S1024x256, .f32⟩ : BufTy).Contents (Elt F)),
    StableHlo.binary main_v36 main_v41 main_v42 (mulf : (⟨S1024x256, .f32⟩ : BufTy).Contents (Elt F) → (⟨S1024x256, .f32⟩ : BufTy).Contents (Elt F) → (⟨S1024x256, .f32⟩ : BufTy).Contents (Elt F)),
    StableHlo.unary main_arg5 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S1024x256 ![0, 1] bcast_S1x256_S1024x256_0_1 : (⟨S1x256, .f32⟩ : BufTy).Contents (Elt F) → (⟨S1024x256, .f32⟩ : BufTy).Contents (Elt F)),
    StableHlo.binary main_v42 main_v44 main_v45 (mulf : (⟨S1024x256, .f32⟩ : BufTy).Contents (Elt F) → (⟨S1024x256, .f32⟩ : BufTy).Contents (Elt F) → (⟨S1024x256, .f32⟩ : BufTy).Contents (Elt F)),
    StableHlo.unary main_arg6 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S1024x256 ![0, 1] bcast_S1x256_S1024x256_0_1 : (⟨S1x256, .f32⟩ : BufTy).Contents (Elt F) → (⟨S1024x256, .f32⟩ : BufTy).Contents (Elt F)),
    StableHlo.binary main_v45 main_v47 main_v48 (addf : (⟨S1024x256, .f32⟩ : BufTy).Contents (Elt F) → (⟨S1024x256, .f32⟩ : BufTy).Contents (Elt F) → (⟨S1024x256, .f32⟩ : BufTy).Contents (Elt F)) ]

/-- The references stretch D writes. -/
def WD : List (Ref sig .tc) := [main_v34, main_v35, main_v36, main_cst_5, main_v37, main_v38, main_v39, main_v40, main_v41, main_v42, main_v43, main_v44, main_v45, main_v46, main_v47, main_v48]

theorem opsD_sub : (opsD (F := F)).Forall fun op => op.bufs ⊆ tcRefs τ sig := by
  unfold opsD
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsD_fresh : (opsD (F := F)).Forall fun op => op.fresh = ∅ := by
  unfold opsD
  exact ⟨rfl, rfl, rfl, rfl, rfl, rfl, rfl, rfl, rfl, rfl, rfl, rfl, rfl, rfl, rfl, rfl⟩

theorem opsD_writes : (opsD (F := F)).Forall fun op => op.writes ⊆ ((WD).map (Proc.devRef (τ := τ) .tc)).toFinset := by
  unfold opsD
  exact ⟨writes_mem (y := main_v34) (by decide), writes_mem (y := main_v35) (by decide), writes_mem (y := main_v36) (by decide), writes_mem (y := main_cst_5) (by decide), writes_mem (y := main_v37) (by decide), writes_mem (y := main_v38) (by decide), writes_mem (y := main_v39) (by decide), writes_mem (y := main_v40) (by decide), writes_mem (y := main_v41) (by decide), writes_mem (y := main_v42) (by decide), writes_mem (y := main_v43) (by decide), writes_mem (y := main_v44) (by decide), writes_mem (y := main_v45) (by decide), writes_mem (y := main_v46) (by decide), writes_mem (y := main_v47) (by decide), writes_mem (y := main_v48) (by decide)⟩

/-- A reference stretch D does not write keeps its contents. -/
theorem frameD {r : Ref sig .tc} (hr : r ∉ WD) (V : Valuation τ sig (Elt F)) :
    after opsD V (Proc.devRef (τ := τ) .tc r) = V (Proc.devRef (τ := τ) .tc r) :=
  after_of_writes_sub opsD V opsD_writes hr

/-- The operations of stretch E0, in printed order. -/
def opsE0 : List (HloOp τ sig (Elt F)) :=
  [ StableHlo.nullary main_c_6 (constantI S_ 32 0#32),
    StableHlo.unary main_c_6 main_v49 (broadcastInDim S1047552 ![] bcast_S_S1047552 : (⟨S_, .i32⟩ : BufTy).Contents (Elt F) → (⟨S1047552, .i32⟩ : BufTy).Contents (Elt F)),
    StableHlo.binary main_v2 main_v49 main_v50 (cmpi .slt : (⟨S1047552, .i32⟩ : BufTy).Contents (Elt F) → (⟨S1047552, .i32⟩ : BufTy).Contents (Elt F) → (⟨S1047552, .i1⟩ : BufTy).Contents (Elt F)) ]

/-- The references stretch E0 writes. -/
def WE0 : List (Ref sig .tc) := [main_c_6, main_v49, main_v50]

theorem opsE0_sub : (opsE0 (F := F)).Forall fun op => op.bufs ⊆ tcRefs τ sig := by
  unfold opsE0
  exact ⟨nullary_bufs_sub .., unary_bufs_sub .., binary_bufs_sub ..⟩

theorem opsE0_fresh : (opsE0 (F := F)).Forall fun op => op.fresh = ∅ := by
  unfold opsE0
  exact ⟨rfl, rfl, rfl⟩

theorem opsE0_writes : (opsE0 (F := F)).Forall fun op => op.writes ⊆ ((WE0).map (Proc.devRef (τ := τ) .tc)).toFinset := by
  unfold opsE0
  exact ⟨writes_mem (y := main_c_6) (by decide), writes_mem (y := main_v49) (by decide), writes_mem (y := main_v50) (by decide)⟩

/-- A reference stretch E0 does not write keeps its contents. -/
theorem frameE0 {r : Ref sig .tc} (hr : r ∉ WE0) (V : Valuation τ sig (Elt F)) :
    after opsE0 V (Proc.devRef (τ := τ) .tc r) = V (Proc.devRef (τ := τ) .tc r) :=
  after_of_writes_sub opsE0 V opsE0_writes hr

/-- The operations of stretch E1, in printed order. -/
def opsE1 : List (HloOp τ sig (Elt F)) :=
  [ StableHlo.nullary main_c_7 (constantI S_ 32 1024#32),
    StableHlo.unary main_c_7 main_v51 (broadcastInDim S1047552 ![] bcast_S_S1047552 : (⟨S_, .i32⟩ : BufTy).Contents (Elt F) → (⟨S1047552, .i32⟩ : BufTy).Contents (Elt F)),
    StableHlo.binary main_v2 main_v51 main_v52 (addi : (⟨S1047552, .i32⟩ : BufTy).Contents (Elt F) → (⟨S1047552, .i32⟩ : BufTy).Contents (Elt F) → (⟨S1047552, .i32⟩ : BufTy).Contents (Elt F)),
    StableHlo.ternary main_v50 main_v52 main_v2 main_v53 (select : (⟨S1047552, .i1⟩ : BufTy).Contents (Elt F) → (⟨S1047552, .i32⟩ : BufTy).Contents (Elt F) → (⟨S1047552, .i32⟩ : BufTy).Contents (Elt F) → (⟨S1047552, .i32⟩ : BufTy).Contents (Elt F)),
    StableHlo.unary main_v53 main_v54 (broadcastInDim S1047552x1 ![0] bcast_S1047552_S1047552x1_0 : (⟨S1047552, .i32⟩ : BufTy).Contents (Elt F) → (⟨S1047552x1, .i32⟩ : BufTy).Contents (Elt F)),
    StableHlo.binary main_v48 main_v54 main_v55 ((fun x i => Host.gather gather_S1024x256_S1047552x1_S1047552x256_1_0_n_n_0_1_1256 x i) : (⟨S1024x256, .f32⟩ : BufTy).Contents (Elt F) → (⟨S1047552x1, .i32⟩ : BufTy).Contents (Elt F) → (⟨S1047552x256, .f32⟩ : BufTy).Contents (Elt F)),
    StableHlo.nullary main_cst_8 (constant S_ .f32 0x00000000#32),
    StableHlo.unary main_cst_8 main_v56 (broadcastInDim S1024x256 ![] bcast_S_S1024x256 : (⟨S_, .f32⟩ : BufTy).Contents (Elt F) → (⟨S1024x256, .f32⟩ : BufTy).Contents (Elt F)),
    StableHlo.unary main_v8 main_v57 (broadcastInDim S1047552x1 ![0] bcast_S1047552_S1047552x1_0 : (⟨S1047552, .i32⟩ : BufTy).Contents (Elt F) → (⟨S1047552x1, .i32⟩ : BufTy).Contents (Elt F)),
    StableHlo.ternary main_v56 main_v57 main_v55 main_v58 ((fun x i u => Host.scatterAdd scatter_S1024x256_S1047552x1_S1047552x256_1_0_0_1 x i u) : (⟨S1024x256, .f32⟩ : BufTy).Contents (Elt F) → (⟨S1047552x1, .i32⟩ : BufTy).Contents (Elt F) → (⟨S1047552x256, .f32⟩ : BufTy).Contents (Elt F) → (⟨S1024x256, .f32⟩ : BufTy).Contents (Elt F)),
    StableHlo.binary main_v48 main_v58 main_v59 (addf : (⟨S1024x256, .f32⟩ : BufTy).Contents (Elt F) → (⟨S1024x256, .f32⟩ : BufTy).Contents (Elt F) → (⟨S1024x256, .f32⟩ : BufTy).Contents (Elt F)) ]

/-- The references stretch E1 writes. -/
def WE1 : List (Ref sig .tc) := [main_c_7, main_v51, main_v52, main_v53, main_v54, main_v55, main_cst_8, main_v56, main_v57, main_v58, main_v59]

theorem opsE1_sub : (opsE1 (F := F)).Forall fun op => op.bufs ⊆ tcRefs τ sig := by
  unfold opsE1
  exact ⟨nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

theorem opsE1_fresh : (opsE1 (F := F)).Forall fun op => op.fresh = ∅ := by
  unfold opsE1
  exact ⟨rfl, rfl, rfl, rfl, rfl, rfl, rfl, rfl, rfl, rfl, rfl⟩

theorem opsE1_writes : (opsE1 (F := F)).Forall fun op => op.writes ⊆ ((WE1).map (Proc.devRef (τ := τ) .tc)).toFinset := by
  unfold opsE1
  exact ⟨writes_mem (y := main_c_7) (by decide), writes_mem (y := main_v51) (by decide), writes_mem (y := main_v52) (by decide), writes_mem (y := main_v53) (by decide), writes_mem (y := main_v54) (by decide), writes_mem (y := main_v55) (by decide), writes_mem (y := main_cst_8) (by decide), writes_mem (y := main_v56) (by decide), writes_mem (y := main_v57) (by decide), writes_mem (y := main_v58) (by decide), writes_mem (y := main_v59) (by decide)⟩

/-- A reference stretch E1 does not write keeps its contents. -/
theorem frameE1 {r : Ref sig .tc} (hr : r ∉ WE1) (V : Valuation τ sig (Elt F)) :
    after opsE1 V (Proc.devRef (τ := τ) .tc r) = V (Proc.devRef (τ := τ) .tc r) :=
  after_of_writes_sub opsE1 V opsE1_writes hr

/-- The operations of stretch Fs, in printed order. -/
def opsFs : List (HloOp τ sig (Elt F)) :=
  [ StableHlo.binary main_v59 main_arg7 main_v60 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    StableHlo.unary main_arg8 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S1024x256 ![0, 1] bcast_S1x256_S1024x256_0_1 : (⟨S1x256, .f32⟩ : BufTy).Contents (Elt F) → (⟨S1024x256, .f32⟩ : BufTy).Contents (Elt F)),
    StableHlo.binary main_v60 main_v62 main_v63 (addf : (⟨S1024x256, .f32⟩ : BufTy).Contents (Elt F) → (⟨S1024x256, .f32⟩ : BufTy).Contents (Elt F) → (⟨S1024x256, .f32⟩ : BufTy).Contents (Elt F)),
    StableHlo.TRef.nullary main_call3.cst (constant S_ .f32 0x00000000#32),
    StableHlo.TRef.unary main_call3.cst main_call3.v0 (broadcastInDim S1024x256 ![] bcast_S_S1024x256),
    StableHlo.TRef.binary (.of main_v63) main_call3.v0 main_call3.v1 maximumf,
    StableHlo.binary main_v64 main_arg9 main_v65 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    StableHlo.unary main_arg10 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S1024x128 ![0, 1] bcast_S1x128_S1024x128_0_1 : (⟨S1x128, .f32⟩ : BufTy).Contents (Elt F) → (⟨S1024x128, .f32⟩ : BufTy).Contents (Elt F)),
    StableHlo.binary main_v65 main_v67 main_v68 (addf : (⟨S1024x128, .f32⟩ : BufTy).Contents (Elt F) → (⟨S1024x128, .f32⟩ : BufTy).Contents (Elt F) → (⟨S1024x128, .f32⟩ : BufTy).Contents (Elt F)),
    StableHlo.TRef.nullary main_call4.cst (constant S_ .f32 0x00000000#32),
    StableHlo.TRef.unary main_call4.cst main_call4.v0 (broadcastInDim S1024x128 ![] bcast_S_S1024x128),
    StableHlo.TRef.binary (.of main_v68) main_call4.v0 main_call4.v1 maximumf ]

/-- The references stretch Fs writes. -/
def WFs : List (Ref sig .tc) := [main_v60, main_v61, main_v62, main_v63, main_call3_cst, main_call3_v0, main_v64, main_v65, main_v66, main_v67, main_v68, main_call4_cst, main_call4_v0, main_v69]

theorem opsFs_sub : (opsFs (F := F)).Forall fun op => op.bufs ⊆ tcRefs τ sig := by
  unfold opsFs
  exact ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsFs_fresh : (opsFs (F := F)).Forall fun op => op.fresh = ∅ := by
  unfold opsFs
  exact ⟨rfl, rfl, rfl, rfl, rfl, rfl, rfl, rfl, rfl, rfl, rfl, rfl, rfl, rfl⟩

theorem opsFs_writes : (opsFs (F := F)).Forall fun op => op.writes ⊆ ((WFs).map (Proc.devRef (τ := τ) .tc)).toFinset := by
  unfold opsFs
  exact ⟨writes_mem (y := main_v60) (by decide), writes_mem (y := main_v61) (by decide), writes_mem (y := main_v62) (by decide), writes_mem (y := main_v63) (by decide), writes_mem (y := main_call3_cst) (by decide), writes_mem (y := main_call3_v0) (by decide), writes_mem (y := main_v64) (by decide), writes_mem (y := main_v65) (by decide), writes_mem (y := main_v66) (by decide), writes_mem (y := main_v67) (by decide), writes_mem (y := main_v68) (by decide), writes_mem (y := main_call4_cst) (by decide), writes_mem (y := main_call4_v0) (by decide), writes_mem (y := main_v69) (by decide)⟩

/-- A reference stretch Fs does not write keeps its contents. -/
theorem frameFs {r : Ref sig .tc} (hr : r ∉ WFs) (V : Valuation τ sig (Elt F)) :
    after opsFs V (Proc.devRef (τ := τ) .tc r) = V (Proc.devRef (τ := τ) .tc r) :=
  after_of_writes_sub opsFs V opsFs_writes hr

/-- The operations of stretch G, in printed order. -/
def opsG : List (HloOp τ sig (Elt F)) :=
  [ StableHlo.nullary main_cst_9 (constant S_ .f32 0x00000000#32),
    StableHlo.binary main_v69 main_cst_9 main_v70 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    StableHlo.nullary main_cst_10 (constant S_ .f32 0x44800000#32),
    StableHlo.unary main_cst_10 main_v71 (broadcastInDim S128 ![] bcast_S_S128 : (⟨S_, .f32⟩ : BufTy).Contents (Elt F) → (⟨S128, .f32⟩ : BufTy).Contents (Elt F)),
    StableHlo.binary main_v70 main_v71 main_v72 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call5.cst (constant S_ .f32 0x00000000#32),
    StableHlo.TRef.binary (.of main_v69) main_call5.cst main_call5.v0 (fun x v => Host.reduceAdd x v reducesTo_S1024x128_S128_d0 h_S_),
    StableHlo.TRef.unary main_call5.v0 main_call5.v1 (broadcastInDim S1x128 ![1] bcast_S128_S1x128_1),
    StableHlo.TRef.nullary main_call5.cst_0 (constant S_ .f32 0x44800000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S1024x128 ![0, 1] bcast_S1x128_S1024x128_0_1),
    StableHlo.TRef.binary (.of main_v69) main_call5.v4 main_call5.v5 subf,
    StableHlo.TRef.binary main_call5.v5 main_call5.v5 main_call5.v6 mulf,
    StableHlo.TRef.unary (.of main_c_11) main_call5.v7 (sitofp .f32),
    StableHlo.TRef.nullary main_call5.cst_1 (constant S_ .f32 0x44800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S1024x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

/-- The references stretch G writes. -/
def WG : List (Ref sig .tc) := [main_cst_9, main_v70, main_cst_10, main_v71, main_v72, main_c_11, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v73]

theorem opsG_sub : (opsG (F := F)).Forall fun op => op.bufs ⊆ tcRefs τ sig := by
  unfold opsG
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsG_fresh : (opsG (F := F)).Forall fun op => op.fresh = ∅ := by
  unfold opsG
  exact ⟨rfl, rfl, rfl, rfl, rfl, rfl, rfl, rfl, rfl, rfl, rfl, rfl, rfl, rfl, rfl, rfl, rfl, rfl, rfl, rfl, rfl, rfl, rfl, rfl, rfl, rfl, rfl, rfl⟩

theorem opsG_writes : (opsG (F := F)).Forall fun op => op.writes ⊆ ((WG).map (Proc.devRef (τ := τ) .tc)).toFinset := by
  unfold opsG
  exact ⟨writes_mem (y := main_cst_9) (by decide), writes_mem (y := main_v70) (by decide), writes_mem (y := main_cst_10) (by decide), writes_mem (y := main_v71) (by decide), writes_mem (y := main_v72) (by decide), writes_mem (y := main_c_11) (by decide), writes_mem (y := main_call5_cst) (by decide), writes_mem (y := main_call5_v0) (by decide), writes_mem (y := main_call5_v1) (by decide), writes_mem (y := main_call5_cst_0) (by decide), writes_mem (y := main_call5_v2) (by decide), writes_mem (y := main_call5_v3) (by decide), writes_mem (y := main_call5_v4) (by decide), writes_mem (y := main_call5_v5) (by decide), writes_mem (y := main_call5_v6) (by decide), writes_mem (y := main_call5_v7) (by decide), writes_mem (y := main_call5_cst_1) (by decide), writes_mem (y := main_call5_v8) (by decide), writes_mem (y := main_call5_cst_2) (by decide), writes_mem (y := main_call5_v9) (by decide), writes_mem (y := main_call5_v10) (by decide), writes_mem (y := main_call5_v11) (by decide), writes_mem (y := main_call5_cst_3) (by decide), writes_mem (y := main_call5_v12) (by decide), writes_mem (y := main_call5_cst_4) (by decide), writes_mem (y := main_call5_call0_v0) (by decide), writes_mem (y := main_call5_call0_v1) (by decide), writes_mem (y := main_v73) (by decide)⟩

/-- A reference stretch G does not write keeps its contents. -/
theorem frameG {r : Ref sig .tc} (hr : r ∉ WG) (V : Valuation τ sig (Elt F)) :
    after opsG V (Proc.devRef (τ := τ) .tc r) = V (Proc.devRef (τ := τ) .tc r) :=
  after_of_writes_sub opsG V opsG_writes hr

/-- The operations of stretch H, in printed order. -/
def opsH : List (HloOp τ sig (Elt F)) :=
  [ StableHlo.unary main_v72 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S1024x128 ![0, 1] bcast_S1x128_S1024x128_0_1 : (⟨S1x128, .f32⟩ : BufTy).Contents (Elt F) → (⟨S1024x128, .f32⟩ : BufTy).Contents (Elt F)),
    StableHlo.binary main_v69 main_v75 main_v76 (subf : (⟨S1024x128, .f32⟩ : BufTy).Contents (Elt F) → (⟨S1024x128, .f32⟩ : BufTy).Contents (Elt F) → (⟨S1024x128, .f32⟩ : BufTy).Contents (Elt F)),
    StableHlo.nullary main_cst_12 (constant S_ .f32 0x3727C5AC#32),
    StableHlo.unary main_cst_12 main_v77 (broadcastInDim S128 ![] bcast_S_S128 : (⟨S_, .f32⟩ : BufTy).Contents (Elt F) → (⟨S128, .f32⟩ : BufTy).Contents (Elt F)),
    StableHlo.binary main_v73 main_v77 main_v78 (addf : (⟨S128, .f32⟩ : BufTy).Contents (Elt F) → (⟨S128, .f32⟩ : BufTy).Contents (Elt F) → (⟨S128, .f32⟩ : BufTy).Contents (Elt F)),
    StableHlo.unary main_v78 main_v79 (Host.rsqrt : (⟨S128, .f32⟩ : BufTy).Contents (Elt F) → (⟨S128, .f32⟩ : BufTy).Contents (Elt F)),
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S1024x128 ![0, 1] bcast_S1x128_S1024x128_0_1 : (⟨S1x128, .f32⟩ : BufTy).Contents (Elt F) → (⟨S1024x128, .f32⟩ : BufTy).Contents (Elt F)),
    StableHlo.binary main_v76 main_v81 main_v82 (mulf : (⟨S1024x128, .f32⟩ : BufTy).Contents (Elt F) → (⟨S1024x128, .f32⟩ : BufTy).Contents (Elt F) → (⟨S1024x128, .f32⟩ : BufTy).Contents (Elt F)),
    StableHlo.unary main_arg11 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S1024x128 ![0, 1] bcast_S1x128_S1024x128_0_1 : (⟨S1x128, .f32⟩ : BufTy).Contents (Elt F) → (⟨S1024x128, .f32⟩ : BufTy).Contents (Elt F)),
    StableHlo.binary main_v82 main_v84 main_v85 (mulf : (⟨S1024x128, .f32⟩ : BufTy).Contents (Elt F) → (⟨S1024x128, .f32⟩ : BufTy).Contents (Elt F) → (⟨S1024x128, .f32⟩ : BufTy).Contents (Elt F)),
    StableHlo.unary main_arg12 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S1024x128 ![0, 1] bcast_S1x128_S1024x128_0_1 : (⟨S1x128, .f32⟩ : BufTy).Contents (Elt F) → (⟨S1024x128, .f32⟩ : BufTy).Contents (Elt F)),
    StableHlo.binary main_v85 main_v87 main_v88 (addf : (⟨S1024x128, .f32⟩ : BufTy).Contents (Elt F) → (⟨S1024x128, .f32⟩ : BufTy).Contents (Elt F) → (⟨S1024x128, .f32⟩ : BufTy).Contents (Elt F)),
    StableHlo.nullary main_cst_13 (constant S_ .f32 0x00000000#32),
    StableHlo.binary main_v88 main_cst_13 main_v89 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)) ]

/-- The references stretch H writes. -/
def WH : List (Ref sig .tc) := [main_v74, main_v75, main_v76, main_cst_12, main_v77, main_v78, main_v79, main_v80, main_v81, main_v82, main_v83, main_v84, main_v85, main_v86, main_v87, main_v88, main_cst_13, main_v89]

theorem opsH_sub : (opsH (F := F)).Forall fun op => op.bufs ⊆ tcRefs τ sig := by
  unfold opsH
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub ..⟩

theorem opsH_fresh : (opsH (F := F)).Forall fun op => op.fresh = ∅ := by
  unfold opsH
  exact ⟨rfl, rfl, rfl, rfl, rfl, rfl, rfl, rfl, rfl, rfl, rfl, rfl, rfl, rfl, rfl, rfl, rfl, rfl⟩

theorem opsH_writes : (opsH (F := F)).Forall fun op => op.writes ⊆ ((WH).map (Proc.devRef (τ := τ) .tc)).toFinset := by
  unfold opsH
  exact ⟨writes_mem (y := main_v74) (by decide), writes_mem (y := main_v75) (by decide), writes_mem (y := main_v76) (by decide), writes_mem (y := main_cst_12) (by decide), writes_mem (y := main_v77) (by decide), writes_mem (y := main_v78) (by decide), writes_mem (y := main_v79) (by decide), writes_mem (y := main_v80) (by decide), writes_mem (y := main_v81) (by decide), writes_mem (y := main_v82) (by decide), writes_mem (y := main_v83) (by decide), writes_mem (y := main_v84) (by decide), writes_mem (y := main_v85) (by decide), writes_mem (y := main_v86) (by decide), writes_mem (y := main_v87) (by decide), writes_mem (y := main_v88) (by decide), writes_mem (y := main_cst_13) (by decide), writes_mem (y := main_v89) (by decide)⟩

/-- A reference stretch H does not write keeps its contents. -/
theorem frameH {r : Ref sig .tc} (hr : r ∉ WH) (V : Valuation τ sig (Elt F)) :
    after opsH V (Proc.devRef (τ := τ) .tc r) = V (Proc.devRef (τ := τ) .tc r) :=
  after_of_writes_sub opsH V opsH_writes hr

/-! ## Each stretch's result -/

theorem valA2 (V : Valuation τ sig (Elt F)) :
    after opsA V (Proc.devRef (τ := τ) .tc main_v2) = RefTerm.rowFlat := by
  unfold opsA
  after_results_simp
  rfl

theorem valA8 (V : Valuation τ sig (Elt F)) :
    after opsA V (Proc.devRef (τ := τ) .tc main_v8) = RefTerm.dstFlat := by
  unfold opsA
  after_results_simp
  rfl

theorem valA19 (V : Valuation τ sig (Elt F)) :
    after opsA V (Proc.devRef (τ := τ) .tc main_v19) = RefTerm.agg128 (V (Proc.devRef (τ := τ) .tc main_arg0)) := by
  unfold opsA
  after_results_simp
  rfl

theorem valB (V : Valuation τ sig (Elt F)) :
    after opsB V (Proc.devRef (τ := τ) .tc main_v29) = RefTerm.relu256 (RefTerm.mlp1 (V (Proc.devRef (τ := τ) .tc main_v19)) (V (Proc.devRef (τ := τ) .tc main_arg1)) (V (Proc.devRef (τ := τ) .tc main_arg2)) (V (Proc.devRef (τ := τ) .tc main_arg3)) (V (Proc.devRef (τ := τ) .tc main_arg4))) := by
  unfold opsB
  after_results_simp
  rfl

theorem valC32 (V : Valuation τ sig (Elt F)) :
    after opsC V (Proc.devRef (τ := τ) .tc main_v32) = RefTerm.mean256 (V (Proc.devRef (τ := τ) .tc main_v29)) := by
  unfold opsC
  after_results_simp
  rfl

theorem valC33 (V : Valuation τ sig (Elt F)) :
    after opsC V (Proc.devRef (τ := τ) .tc main_v33) = RefTerm.var256 (V (Proc.devRef (τ := τ) .tc main_v29)) := by
  unfold opsC
  after_results_simp
  rfl

theorem valD (V : Valuation τ sig (Elt F)) :
    after opsD V (Proc.devRef (τ := τ) .tc main_v48) = RefTerm.bnApply256 (V (Proc.devRef (τ := τ) .tc main_v29)) (V (Proc.devRef (τ := τ) .tc main_v32)) (V (Proc.devRef (τ := τ) .tc main_v33)) (V (Proc.devRef (τ := τ) .tc main_arg5)) (V (Proc.devRef (τ := τ) .tc main_arg6)) := by
  unfold opsD
  after_results_simp
  rfl

theorem valE0 (V : Valuation τ sig (Elt F)) :
    after opsE0 V (Proc.devRef (τ := τ) .tc main_v50) = cmpi .slt (V (Proc.devRef (τ := τ) .tc main_v2)) (broadcastInDim S1047552 ![] bcast_S_S1047552 (constantI S_ 32 0#32)) := by
  unfold opsE0
  after_results_simp

theorem valE1 (V : Valuation τ sig (Elt F)) :
    after opsE1 V (Proc.devRef (τ := τ) .tc main_v59) = RefTerm.aggWith256 (broadcastInDim S1047552x1 ![0] bcast_S1047552_S1047552x1_0 (select (V (Proc.devRef (τ := τ) .tc main_v50)) (addi (V (Proc.devRef (τ := τ) .tc main_v2)) (broadcastInDim S1047552 ![] bcast_S_S1047552 (constantI S_ 32 1024#32))) (V (Proc.devRef (τ := τ) .tc main_v2)))) (RefTerm.dstIdxOf (V (Proc.devRef (τ := τ) .tc main_v8))) (V (Proc.devRef (τ := τ) .tc main_v48)) := by
  unfold opsE1
  after_results_simp
  rfl

theorem valF (V : Valuation τ sig (Elt F)) :
    after opsFs V (Proc.devRef (τ := τ) .tc main_v69) = RefTerm.relu128 (RefTerm.mlp2 (V (Proc.devRef (τ := τ) .tc main_v59)) (V (Proc.devRef (τ := τ) .tc main_arg7)) (V (Proc.devRef (τ := τ) .tc main_arg8)) (V (Proc.devRef (τ := τ) .tc main_arg9)) (V (Proc.devRef (τ := τ) .tc main_arg10))) := by
  unfold opsFs
  after_results_simp
  rfl

theorem valG72 (V : Valuation τ sig (Elt F)) :
    after opsG V (Proc.devRef (τ := τ) .tc main_v72) = RefTerm.mean128 (V (Proc.devRef (τ := τ) .tc main_v69)) := by
  unfold opsG
  after_results_simp
  rfl

theorem valG73 (V : Valuation τ sig (Elt F)) :
    after opsG V (Proc.devRef (τ := τ) .tc main_v73) = RefTerm.var128 (V (Proc.devRef (τ := τ) .tc main_v69)) := by
  unfold opsG
  after_results_simp
  rfl

theorem valH (V : Valuation τ sig (Elt F)) :
    after opsH V (Proc.devRef (τ := τ) .tc main_v89) = Host.reduceAdd (RefTerm.bnApply128 (V (Proc.devRef (τ := τ) .tc main_v69)) (V (Proc.devRef (τ := τ) .tc main_v72)) (V (Proc.devRef (τ := τ) .tc main_v73)) (V (Proc.devRef (τ := τ) .tc main_arg11)) (V (Proc.devRef (τ := τ) .tc main_arg12))) (constant S_ .f32 0x00000000#32) reducesTo_S1024x128_S128_d0 h_S_ := by
  unfold opsH
  after_results_simp
  rfl

/-! ## The program is the straight line -/

/-- The whole straight line: @main's operations in printed order, each call replaced by its callee's operations
    over the call's own buffers. -/
def ops : List (HloOp τ sig (Elt F)) := opsA ++ (opsB ++ (opsC ++ (opsD ++ (opsE0 ++ (opsE1 ++ (opsFs ++ (opsG ++ (opsH))))))))

set_option maxRecDepth 4096 in
set_option maxHeartbeats 1600000 in
/-- The first window of @main is its stretches in order: the callees' definitions unfolded at their calls, both
    sides are one chain of steps once sequencing is reassociated. -/
theorem part0_eq (c : Dev nD) : main_part0 (F := F) c = (seq opsA >>= fun _ => seq opsB >>= fun _ => seq opsC >>= fun _ => seq opsD >>= fun _ => seq opsE0) := by
  simp only [main_part0, fn_relu.body, fn_relu_0.body, fn_var.body, fn_var_1.body, fn_where.body, fn_where_2.body, opsA, opsB, opsC, opsD, opsE0, seq, bind_assoc, pure_bind]
  rfl

set_option maxRecDepth 4096 in
set_option maxHeartbeats 1600000 in
/-- The second window likewise. -/
theorem part1_eq (c : Dev nD) : main_part1 (F := F) c = (seq opsE1 >>= fun _ => seq opsFs >>= fun _ => seq opsG >>= fun _ => seq opsH) := by
  simp only [main_part1, fn_relu.body, fn_relu_0.body, fn_var.body, fn_var_1.body, fn_where.body, fn_where_2.body, opsE1, opsFs, opsG, opsH, seq, bind_assoc, pure_bind]

theorem main_eq (c : Dev nD) : main (F := F) c = seq ops := by
  show main_part0 (F := F) c >>= (fun _ => main_part1 (F := F) c) = seq ops
  rw [part0_eq, part1_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨opsA_sub, opsB_sub, opsC_sub, opsD_sub, opsE0_sub, opsE1_sub, opsFs_sub, opsG_sub, opsH_sub⟩

theorem ops_fresh : ∀ op ∈ (ops : List (HloOp τ sig (Elt F))), op.fresh = ∅ := by
  refine List.forall_iff_forall_mem.mp ?_
  unfold ops
  simp only [List.forall_append]
  exact ⟨opsA_fresh, opsB_fresh, opsC_fresh, opsD_fresh, opsE0_fresh, opsE1_fresh, opsFs_fresh, opsG_fresh, opsH_fresh⟩

/-! ## The result, stretch by stretch -/

-- the same facts with the reference un-indexed, for one rewriting pass over the nest of stretches
theorem frameA' {r : Ref sig .tc} (hr : r ∉ WA) (V : Valuation τ sig (Elt F)) :
    after opsA V (no_index (Proc.devRef (τ := τ) .tc r)) = V (Proc.devRef (τ := τ) .tc r) := frameA hr V

theorem frameB' {r : Ref sig .tc} (hr : r ∉ WB) (V : Valuation τ sig (Elt F)) :
    after opsB V (no_index (Proc.devRef (τ := τ) .tc r)) = V (Proc.devRef (τ := τ) .tc r) := frameB hr V

theorem frameC' {r : Ref sig .tc} (hr : r ∉ WC) (V : Valuation τ sig (Elt F)) :
    after opsC V (no_index (Proc.devRef (τ := τ) .tc r)) = V (Proc.devRef (τ := τ) .tc r) := frameC hr V

theorem frameD' {r : Ref sig .tc} (hr : r ∉ WD) (V : Valuation τ sig (Elt F)) :
    after opsD V (no_index (Proc.devRef (τ := τ) .tc r)) = V (Proc.devRef (τ := τ) .tc r) := frameD hr V

theorem frameE0' {r : Ref sig .tc} (hr : r ∉ WE0) (V : Valuation τ sig (Elt F)) :
    after opsE0 V (no_index (Proc.devRef (τ := τ) .tc r)) = V (Proc.devRef (τ := τ) .tc r) := frameE0 hr V

theorem frameE1' {r : Ref sig .tc} (hr : r ∉ WE1) (V : Valuation τ sig (Elt F)) :
    after opsE1 V (no_index (Proc.devRef (τ := τ) .tc r)) = V (Proc.devRef (τ := τ) .tc r) := frameE1 hr V

theorem frameFs' {r : Ref sig .tc} (hr : r ∉ WFs) (V : Valuation τ sig (Elt F)) :
    after opsFs V (no_index (Proc.devRef (τ := τ) .tc r)) = V (Proc.devRef (τ := τ) .tc r) := frameFs hr V

theorem frameG' {r : Ref sig .tc} (hr : r ∉ WG) (V : Valuation τ sig (Elt F)) :
    after opsG V (no_index (Proc.devRef (τ := τ) .tc r)) = V (Proc.devRef (τ := τ) .tc r) := frameG hr V

theorem frameH' {r : Ref sig .tc} (hr : r ∉ WH) (V : Valuation τ sig (Elt F)) :
    after opsH V (no_index (Proc.devRef (τ := τ) .tc r)) = V (Proc.devRef (τ := τ) .tc r) := frameH hr V

theorem valA2' (V : Valuation τ sig (Elt F)) :
    after opsA V (no_index (Proc.devRef (τ := τ) .tc main_v2)) = RefTerm.rowFlat := valA2 V

theorem valA8' (V : Valuation τ sig (Elt F)) :
    after opsA V (no_index (Proc.devRef (τ := τ) .tc main_v8)) = RefTerm.dstFlat := valA8 V

theorem valA19' (V : Valuation τ sig (Elt F)) :
    after opsA V (no_index (Proc.devRef (τ := τ) .tc main_v19)) = RefTerm.agg128 (V (Proc.devRef (τ := τ) .tc main_arg0)) := valA19 V

theorem valB' (V : Valuation τ sig (Elt F)) :
    after opsB V (no_index (Proc.devRef (τ := τ) .tc main_v29)) = RefTerm.relu256 (RefTerm.mlp1 (V (Proc.devRef (τ := τ) .tc main_v19)) (V (Proc.devRef (τ := τ) .tc main_arg1)) (V (Proc.devRef (τ := τ) .tc main_arg2)) (V (Proc.devRef (τ := τ) .tc main_arg3)) (V (Proc.devRef (τ := τ) .tc main_arg4))) := valB V

theorem valC32' (V : Valuation τ sig (Elt F)) :
    after opsC V (no_index (Proc.devRef (τ := τ) .tc main_v32)) = RefTerm.mean256 (V (Proc.devRef (τ := τ) .tc main_v29)) := valC32 V

theorem valC33' (V : Valuation τ sig (Elt F)) :
    after opsC V (no_index (Proc.devRef (τ := τ) .tc main_v33)) = RefTerm.var256 (V (Proc.devRef (τ := τ) .tc main_v29)) := valC33 V

theorem valD' (V : Valuation τ sig (Elt F)) :
    after opsD V (no_index (Proc.devRef (τ := τ) .tc main_v48)) = RefTerm.bnApply256 (V (Proc.devRef (τ := τ) .tc main_v29)) (V (Proc.devRef (τ := τ) .tc main_v32)) (V (Proc.devRef (τ := τ) .tc main_v33)) (V (Proc.devRef (τ := τ) .tc main_arg5)) (V (Proc.devRef (τ := τ) .tc main_arg6)) := valD V

theorem valE0' (V : Valuation τ sig (Elt F)) :
    after opsE0 V (no_index (Proc.devRef (τ := τ) .tc main_v50)) = cmpi .slt (V (Proc.devRef (τ := τ) .tc main_v2)) (broadcastInDim S1047552 ![] bcast_S_S1047552 (constantI S_ 32 0#32)) := valE0 V

theorem valE1' (V : Valuation τ sig (Elt F)) :
    after opsE1 V (no_index (Proc.devRef (τ := τ) .tc main_v59)) = RefTerm.aggWith256 (broadcastInDim S1047552x1 ![0] bcast_S1047552_S1047552x1_0 (select (V (Proc.devRef (τ := τ) .tc main_v50)) (addi (V (Proc.devRef (τ := τ) .tc main_v2)) (broadcastInDim S1047552 ![] bcast_S_S1047552 (constantI S_ 32 1024#32))) (V (Proc.devRef (τ := τ) .tc main_v2)))) (RefTerm.dstIdxOf (V (Proc.devRef (τ := τ) .tc main_v8))) (V (Proc.devRef (τ := τ) .tc main_v48)) := valE1 V

theorem valF' (V : Valuation τ sig (Elt F)) :
    after opsFs V (no_index (Proc.devRef (τ := τ) .tc main_v69)) = RefTerm.relu128 (RefTerm.mlp2 (V (Proc.devRef (τ := τ) .tc main_v59)) (V (Proc.devRef (τ := τ) .tc main_arg7)) (V (Proc.devRef (τ := τ) .tc main_arg8)) (V (Proc.devRef (τ := τ) .tc main_arg9)) (V (Proc.devRef (τ := τ) .tc main_arg10))) := valF V

theorem valG72' (V : Valuation τ sig (Elt F)) :
    after opsG V (no_index (Proc.devRef (τ := τ) .tc main_v72)) = RefTerm.mean128 (V (Proc.devRef (τ := τ) .tc main_v69)) := valG72 V

theorem valG73' (V : Valuation τ sig (Elt F)) :
    after opsG V (no_index (Proc.devRef (τ := τ) .tc main_v73)) = RefTerm.var128 (V (Proc.devRef (τ := τ) .tc main_v69)) := valG73 V

theorem valH' (V : Valuation τ sig (Elt F)) :
    after opsH V (no_index (Proc.devRef (τ := τ) .tc main_v89)) = Host.reduceAdd (RefTerm.bnApply128 (V (Proc.devRef (τ := τ) .tc main_v69)) (V (Proc.devRef (τ := τ) .tc main_v72)) (V (Proc.devRef (τ := τ) .tc main_v73)) (V (Proc.devRef (τ := τ) .tc main_arg11)) (V (Proc.devRef (τ := τ) .tc main_arg12))) (constant S_ .f32 0x00000000#32) reducesTo_S1024x128_S128_d0 h_S_ := valH V

/-- The straight line leaves the reference's result buffer at `RefTerm.out` of the arguments' launch contents:
    each stretch's result is its layer's term of what the stretches before it left, and the buffers it does not
    write pass through it. -/
theorem out_eq (V : Valuation τ sig (Elt F)) :
    after ops V (Proc.devRef (τ := τ) .tc main_v89) = RefTerm.out (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) := by
  unfold ops
  simp only [after_append]
  simp (disch := decide) only [valA2', valA8', valA19', valB', valC32', valC33', valD', valE0', valE1', valF', valG72', valG73', valH', frameA', frameB', frameC', frameD', frameE0', frameE1', frameFs', frameG', frameH',
    RefTerm.out, RefTerm.H2, RefTerm.bn128, RefTerm.R2, RefTerm.agg256, RefTerm.H1, RefTerm.bn256, RefTerm.R1,
    RefTerm.srcIdx, RefTerm.dstIdx, RefTerm.srcIdxOf]

/-- A reference no stretch writes keeps its launch contents. -/
theorem keep_eq {r : Ref sig .tc} (hA : r ∉ WA) (hB : r ∉ WB) (hC : r ∉ WC) (hD : r ∉ WD) (hE0 : r ∉ WE0) (hE1 : r ∉ WE1) (hFs : r ∉ WFs) (hG : r ∉ WG) (hH : r ∉ WH)
    (V : Valuation τ sig (Elt F)) : after ops V (Proc.devRef (τ := τ) .tc r) = V (Proc.devRef (τ := τ) .tc r) := by
  unfold ops
  simp only [after_append]
  rw [frameH hH, frameG hG, frameFs hFs, frameE1 hE1, frameE0 hE0, frameD hD, frameC hC, frameB hB, frameA hA]

/-! ## The run -/

/-- On every device, for any float values, from any memory with zero counters: every weakly fair execution of
    @main terminates with the result buffer at `RefTerm.out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v89).trans (out_eq _),
      (h c main_arg0).trans (keep_eq (by decide) (by decide) (by decide) (by decide) (by decide) (by decide) (by decide) (by decide) (by decide) _),
      (h c main_arg1).trans (keep_eq (by decide) (by decide) (by decide) (by decide) (by decide) (by decide) (by decide) (by decide) (by decide) _),
      (h c main_arg2).trans (keep_eq (by decide) (by decide) (by decide) (by decide) (by decide) (by decide) (by decide) (by decide) (by decide) _),
      (h c main_arg3).trans (keep_eq (by decide) (by decide) (by decide) (by decide) (by decide) (by decide) (by decide) (by decide) (by decide) _),
      (h c main_arg4).trans (keep_eq (by decide) (by decide) (by decide) (by decide) (by decide) (by decide) (by decide) (by decide) (by decide) _),
      (h c main_arg5).trans (keep_eq (by decide) (by decide) (by decide) (by decide) (by decide) (by decide) (by decide) (by decide) (by decide) _),
      (h c main_arg6).trans (keep_eq (by decide) (by decide) (by decide) (by decide) (by decide) (by decide) (by decide) (by decide) (by decide) _),
      (h c main_arg7).trans (keep_eq (by decide) (by decide) (by decide) (by decide) (by decide) (by decide) (by decide) (by decide) (by decide) _),
      (h c main_arg8).trans (keep_eq (by decide) (by decide) (by decide) (by decide) (by decide) (by decide) (by decide) (by decide) (by decide) _),
      (h c main_arg9).trans (keep_eq (by decide) (by decide) (by decide) (by decide) (by decide) (by decide) (by decide) (by decide) (by decide) _),
      (h c main_arg10).trans (keep_eq (by decide) (by decide) (by decide) (by decide) (by decide) (by decide) (by decide) (by decide) (by decide) _),
      (h c main_arg11).trans (keep_eq (by decide) (by decide) (by decide) (by decide) (by decide) (by decide) (by decide) (by decide) (by decide) _),
      (h c main_arg12).trans (keep_eq (by decide) (by decide) (by decide) (by decide) (by decide) (by decide) (by decide) (by decide) (by decide) _)⟩)
    (run_seq scopedRefs_eq scopedSems_eq defs main (fun _ => ops) main_eq (fun _ => ops_sub) m ρ (fun _ => ops_fresh))

end Cert.Enc.RefRun

end
-- ==== Proof.KernelValue.lean ====
/- The kernel's run with its result array named. The kernel has one launch over a grid of one point;
   every window's single block is its whole array, read and written through the rectangle at zero
   offsets of the array's own sizes. So the value the body leaves in the output's staging buffer is one
   function `KPay.pay` of the thirteen staged arrays, the one write-back covers the result array, and the
   result array ends holding `pay` of the arrays the region finds: nine argument arrays as launched and
   four that host conversions to the narrow float format wrote from arguments before the region. -/
import proofs.«114618_j47768626266491_2_alg».proof.Proof.Gen.KernelIdeal.Value
import proofs.«114618_j47768626266491_2_alg».proof.Proof.KernelPay
import Idealize.ShloMosaic.Lib.Pipeline.Value
import Idealize.ShloMosaic.Lib.Tactic
import Idealize.ShloMosaic.PureOps.Ideal

noncomputable section

open Idealize.ShloMosaic Idealize.ShloMosaic.TcCoe Idealize.SL.Sem
open Idealize.ShloMosaic.Pipeline (Dat)

namespace Cert.Enc.KValue

open Cert.KernelIdeal Cert.KernelIdeal.Gen Cert.KernelIdeal.Value

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The one store through the whole staging buffer leaves its payload, and each load through a whole
    staging buffer reads its contents: the value the body leaves is `pay` of the thirteen blocks. -/
theorem out_eq_pay (x0 : Vec F S1024x128 .f32) (x1 : Vec F S128x256 .bf16) (x2 : Vec F S256 .f32) (x3 : Vec F S256x256 .bf16) (x4 : Vec F S256 .f32) (x5 : Vec F S256 .f32) (x6 : Vec F S256 .f32) (x7 : Vec F S256x256 .bf16) (x8 : Vec F S256 .f32) (x9 : Vec F S256x128 .bf16) (x10 : Vec F S128 .f32) (x11 : Vec F S128 .f32) (x12 : Vec F S128 .f32) :
    out0_13 x0 x1 x2 x3 x4 x5 x6 x7 x8 x9 x10 x11 x12 = KPay.pay x0 x1 x2 x3 x4 x5 x6 x7 x8 x9 x10 x11 x12 := by
  unfold out0_13
  rw [View.canon_unit_zero zero1]
  simp only [View.ld_unit_zero (S := S1024x128) zero2, View.ld_unit_zero (S := S128x256) zero2,
    View.ld_unit_zero (S := S256) zero1, View.ld_unit_zero (S := S256x256) zero2,
    View.ld_unit_zero (S := S256x128) zero2, View.ld_unit_zero (S := S128) zero1]
  rfl

/-- `pay` respects equality of its thirteen arguments. -/
theorem pay_congr {x0 y0 : Vec F S1024x128 .f32} {x1 y1 : Vec F S128x256 .bf16} {x2 y2 : Vec F S256 .f32} {x3 y3 : Vec F S256x256 .bf16} {x4 y4 : Vec F S256 .f32} {x5 y5 : Vec F S256 .f32} {x6 y6 : Vec F S256 .f32} {x7 y7 : Vec F S256x256 .bf16} {x8 y8 : Vec F S256 .f32} {x9 y9 : Vec F S256x128 .bf16} {x10 y10 : Vec F S128 .f32} {x11 y11 : Vec F S128 .f32} {x12 y12 : Vec F S128 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    KPay.pay x0 x1 x2 x3 x4 x5 x6 x7 x8 x9 x10 x11 x12 = KPay.pay y0 y1 y2 y3 y4 y5 y6 y7 y8 y9 y10 y11 y12 := by
  subst h0 h1 h2 h3 h4 h5 h6 h7 h8 h9 h10 h11 h12; rfl

/-! ## Each window's one block is its whole array -/

theorem blk_read0 (t : Fin cfg0.N) (A : (main_arg0 : Ref sig .tc).ty.Contents (Elt F)) :
    ((cfg0.win 0).blk t).view.read (Elt F) A = A :=
  Memref.read_access_unit_zero (Elt F) main_arg0 (off := fun a => win0_0.index t a * S1024x128.size a)
    (funext fun a => by fin_cases a <;> rfl) _ A

theorem blk_read1 (t : Fin cfg0.N) (A : (main_v0 : Ref sig .tc).ty.Contents (Elt F)) :
    ((cfg0.win 1).blk t).view.read (Elt F) A = A :=
  Memref.read_access_unit_zero (Elt F) main_v0 (off := fun a => win0_1.index t a * S128x256.size a)
    (funext fun a => by fin_cases a <;> rfl) _ A

theorem blk_read2 (t : Fin cfg0.N) (A : (main_arg2 : Ref sig .tc).ty.Contents (Elt F)) :
    ((cfg0.win 2).blk t).view.read (Elt F) A = A :=
  Memref.read_access_unit_zero (Elt F) main_arg2 (off := fun a => win0_2.index t a * S256.size a)
    (funext fun a => by fin_cases a <;> rfl) _ A

theorem blk_read3 (t : Fin cfg0.N) (A : (main_v1 : Ref sig .tc).ty.Contents (Elt F)) :
    ((cfg0.win 3).blk t).view.read (Elt F) A = A :=
  Memref.read_access_unit_zero (Elt F) main_v1 (off := fun a => win0_3.index t a * S256x256.size a)
    (funext fun a => by fin_cases a <;> rfl) _ A

theorem blk_read4 (t : Fin cfg0.N) (A : (main_arg4 : Ref sig .tc).ty.Contents (Elt F)) :
    ((cfg0.win 4).blk t).view.read (Elt F) A = A :=
  Memref.read_access_unit_zero (Elt F) main_arg4 (off := fun a => win0_4.index t a * S256.size a)
    (funext fun a => by fin_cases a <;> rfl) _ A

theorem blk_read5 (t : Fin cfg0.N) (A : (main_arg5 : Ref sig .tc).ty.Contents (Elt F)) :
    ((cfg0.win 5).blk t).view.read (Elt F) A = A :=
  Memref.read_access_unit_zero (Elt F) main_arg5 (off := fun a => win0_5.index t a * S256.size a)
    (funext fun a => by fin_cases a <;> rfl) _ A

theorem blk_read6 (t : Fin cfg0.N) (A : (main_arg6 : Ref sig .tc).ty.Contents (Elt F)) :
    ((cfg0.win 6).blk t).view.read (Elt F) A = A :=
  Memref.read_access_unit_zero (Elt F) main_arg6 (off := fun a => win0_6.index t a * S256.size a)
    (funext fun a => by fin_cases a <;> rfl) _ A

theorem blk_read7 (t : Fin cfg0.N) (A : (main_v2 : Ref sig .tc).ty.Contents (Elt F)) :
    ((cfg0.win 7).blk t).view.read (Elt F) A = A :=
  Memref.read_access_unit_zero (Elt F) main_v2 (off := fun a => win0_7.index t a * S256x256.size a)
    (funext fun a => by fin_cases a <;> rfl) _ A

theorem blk_read8 (t : Fin cfg0.N) (A : (main_arg8 : Ref sig .tc).ty.Contents (Elt F)) :
    ((cfg0.win 8).blk t).view.read (Elt F) A = A :=
  Memref.read_access_unit_zero (Elt F) main_arg8 (off := fun a => win0_8.index t a * S256.size a)
    (funext fun a => by fin_cases a <;> rfl) _ A

theorem blk_read9 (t : Fin cfg0.N) (A : (main_v3 : Ref sig .tc).ty.Contents (Elt F)) :
    ((cfg0.win 9).blk t).view.read (Elt F) A = A :=
  Memref.read_access_unit_zero (Elt F) main_v3 (off := fun a => win0_9.index t a * S256x128.size a)
    (funext fun a => by fin_cases a <;> rfl) _ A

theorem blk_read10 (t : Fin cfg0.N) (A : (main_arg10 : Ref sig .tc).ty.Contents (Elt F)) :
    ((cfg0.win 10).blk t).view.read (Elt F) A = A :=
  Memref.read_access_unit_zero (Elt F) main_arg10 (off := fun a => win0_10.index t a * S128.size a)
    (funext fun a => by fin_cases a <;> rfl) _ A

theorem blk_read11 (t : Fin cfg0.N) (A : (main_arg11 : Ref sig .tc).ty.Contents (Elt F)) :
    ((cfg0.win 11).blk t).view.read (Elt F) A = A :=
  Memref.read_access_unit_zero (Elt F) main_arg11 (off := fun a => win0_11.index t a * S128.size a)
    (funext fun a => by fin_cases a <;> rfl) _ A

theorem blk_read12 (t : Fin cfg0.N) (A : (main_arg12 : Ref sig .tc).ty.Contents (Elt F)) :
    ((cfg0.win 12).blk t).view.read (Elt F) A = A :=
  Memref.read_access_unit_zero (Elt F) main_arg12 (off := fun a => win0_12.index t a * S128.size a)
    (funext fun a => by fin_cases a <;> rfl) _ A

theorem blk_read13 (t : Fin cfg0.N) (A : (main_v4 : Ref sig .tc).ty.Contents (Elt F)) :
    ((cfg0.win 13).blk t).view.read (Elt F) A = A :=
  Memref.read_access_unit_zero (Elt F) main_v4 (off := fun a => win0_13.index t a * S128.size a)
    (funext fun a => by fin_cases a <;> rfl) _ A

/-! ## The array after the run -/

/-- The result array as one function of the arrays the region finds. -/
def G (c : Dev nD) : Buf (Elt F) ((c : Thread nD τ).loc main_v4) :=
  KPay.pay (V m c main_arg0) (V m c main_v0) (V m c main_arg2) (V m c main_v1) (V m c main_arg4) (V m c main_arg5)
    (V m c main_arg6) (V m c main_v2) (V m c main_arg8) (V m c main_v3) (V m c main_arg10) (V m c main_arg11) (V m c main_arg12)

/-- What the one grid point writes back is the block (the whole) of `G`. -/
theorem flushed_eq (c : Dev nD) (t : Fin cfg0.N) :
    (dats m 0 c).flushed 13 t = ((cfg0.win 13).blk t).view.read (Elt F) (G m c) := by
  refine (Value.flushed13 m c t).trans ?_
  refine Eq.trans ?_ (blk_read13 t (G m c)).symm
  show out0_13 _ _ _ _ _ _ _ _ _ _ _ _ _ = _
  refine (out_eq_pay _ _ _ _ _ _ _ _ _ _ _ _ _).trans ?_
  exact pay_congr (blk_read0 t _) (blk_read1 t _) (blk_read2 t _) (blk_read3 t _) (blk_read4 t _) (blk_read5 t _)
    (blk_read6 t _) (blk_read7 t _) (blk_read8 t _) (blk_read9 t _) (blk_read10 t _) (blk_read11 t _) (blk_read12 t _)

/-- The one block covers the result array. -/
theorem cover (i : S128.Idx) :
    ∃ t : Fin cfg0.N, (cfg0.win 13).flush t = true ∧ i ∈ ((cfg0.win 13).blk t).view.set :=
  ⟨t0_0, flush0_13 t0_0, by
    show i ∈ ((View.whole main_v4).slice (win0_13.rect t0_0)).set
    rw [View.set_slice_whole, Rect.mem_set_unit]
    intro a
    have h0 : (i 0 : Nat) < 128 := (i 0).isLt
    match a with
    | ⟨0, _⟩ =>
      show win0_13.index t0_0 0 * 128 ≤ (i 0 : Nat) ∧ (i 0 : Nat) < win0_13.index t0_0 0 * 128 + 128
      rw [show win0_13.index t0_0 0 = 0 from rfl]; omega⟩

/-- So the result array ends holding `G`. -/
theorem final (c : Dev nD) : (dats m 0 c).arrAt 13 cfg0.N = G m c :=
  (dats m 0 c).arrAt_eq_of_cover 13 (G m c) (fun t _ => flushed_eq m c t) cover

/-! ## The arrays the region finds, from the launch contents

Four windows stage arrays that host conversions to the narrow format wrote before the region; the
other nine stage argument arrays as launched. -/

theorem V_main_v0 (c : Dev nD) :
    (V m c main_v0 : S128x256.Idx → Elt F .bf16) = truncf .bf16 (m ((c.tc : Thread nD τ).loc main_arg1)) bitsLt_bf16_f32 := by
  dsimp only [Gen.V, Gen.hostOps0]; after_results

theorem V_main_v1 (c : Dev nD) :
    (V m c main_v1 : S256x256.Idx → Elt F .bf16) = truncf .bf16 (m ((c.tc : Thread nD τ).loc main_arg3)) bitsLt_bf16_f32 := by
  dsimp only [Gen.V, Gen.hostOps0]; after_results

theorem V_main_v2 (c : Dev nD) :
    (V m c main_v2 : S256x256.Idx → Elt F .bf16) = truncf .bf16 (m ((c.tc : Thread nD τ).loc main_arg7)) bitsLt_bf16_f32 := by
  dsimp only [Gen.V, Gen.hostOps0]; after_results

theorem V_main_v3 (c : Dev nD) :
    (V m c main_v3 : S256x128.Idx → Elt F .bf16) = truncf .bf16 (m ((c.tc : Thread nD τ).loc main_arg9)) bitsLt_bf16_f32 := by
  dsimp only [Gen.V, Gen.hostOps0]; after_results

theorem G_eq (c : Dev nD) :
    G m c = KPay.pay (m ((c.tc : Thread nD τ).loc main_arg0))
      (truncf .bf16 (m ((c.tc : Thread nD τ).loc main_arg1)) bitsLt_bf16_f32)
      (m ((c.tc : Thread nD τ).loc main_arg2))
      (truncf .bf16 (m ((c.tc : Thread nD τ).loc main_arg3)) bitsLt_bf16_f32)
      (m ((c.tc : Thread nD τ).loc main_arg4))
      (m ((c.tc : Thread nD τ).loc main_arg5))
      (m ((c.tc : Thread nD τ).loc main_arg6))
      (truncf .bf16 (m ((c.tc : Thread nD τ).loc main_arg7)) bitsLt_bf16_f32)
      (m ((c.tc : Thread nD τ).loc main_arg8))
      (truncf .bf16 (m ((c.tc : Thread nD τ).loc main_arg9)) bitsLt_bf16_f32)
      (m ((c.tc : Thread nD τ).loc main_arg10))
      (m ((c.tc : Thread nD τ).loc main_arg11))
      (m ((c.tc : Thread nD τ).loc main_arg12)) :=
  pay_congr (V_main_arg0 m c) (V_main_v0 m c) (V_main_arg2 m c) (V_main_v1 m c) (V_main_arg4 m c) (V_main_arg5 m c)
    (V_main_arg6 m c) (V_main_v2 m c) (V_main_arg8 m c) (V_main_v3 m c) (V_main_arg10 m c) (V_main_arg11 m c) (V_main_arg12 m c)

/-! ## The run -/

/-- The kernel's run with its result array named: `pay` of the launch contents (four of them
    converted to the narrow format), the thirteen arguments unchanged. -/
theorem run : θ_run Cert.KernelIdeal.defs (onTc (τ := τ) (main (F := F))) ⟨m, fun _ => 0, ρ⟩ fun r => ∀ c : Dev nD,
      r.2.mem ((c.tc : Thread nD τ).loc main_v4) = KPay.pay (m ((c.tc : Thread nD τ).loc main_arg0))
        (truncf .bf16 (m ((c.tc : Thread nD τ).loc main_arg1)) bitsLt_bf16_f32)
        (m ((c.tc : Thread nD τ).loc main_arg2))
        (truncf .bf16 (m ((c.tc : Thread nD τ).loc main_arg3)) bitsLt_bf16_f32)
        (m ((c.tc : Thread nD τ).loc main_arg4))
        (m ((c.tc : Thread nD τ).loc main_arg5))
        (m ((c.tc : Thread nD τ).loc main_arg6))
        (truncf .bf16 (m ((c.tc : Thread nD τ).loc main_arg7)) bitsLt_bf16_f32)
        (m ((c.tc : Thread nD τ).loc main_arg8))
        (truncf .bf16 (m ((c.tc : Thread nD τ).loc main_arg9)) bitsLt_bf16_f32)
        (m ((c.tc : Thread nD τ).loc main_arg10))
        (m ((c.tc : Thread nD τ).loc main_arg11))
        (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run Cert.KernelIdeal.defs _ _).mono (fun r h c => ⟨(h c).1.trans ((final m c).trans (G_eq m c)), (h c).2⟩)
    (Value.run_blocks m ρ)

/-- At the extended reals a conversion to the narrow format is the identity. -/
theorem truncf_ideal {s : Shape} (x : FVec Ideal s .f32) :
    (truncf .bf16 x Gen.bitsLt_bf16_f32 : FVec Ideal s .bf16) = x := rfl

/-- The run at the extended reals, the four conversions read away. -/
theorem run_ideal (m : (ℓ : Loc nD τ sig) → Buf (Elt Ideal) ℓ) (ρ : Dev nD → PrngReg) :
    θ_run Cert.KernelIdeal.defs (onTc (τ := τ) (main (F := Ideal))) ⟨m, fun _ => 0, ρ⟩ fun r => ∀ c : Dev nD,
      r.2.mem ((c.tc : Thread nD τ).loc main_v4) = KPay.pay (F := Ideal) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  run m ρ

end Cert.Enc.KValue

end
-- ==== Proof.KernelPayOps.lean ====
/-
  The layout and contraction operations of the stored value, read at an index at the ideal (extended real) values,
  for the shapes that occur: column sums as functions of the column, the five matrix products entry by entry, one
  column broadcast along the rows, and the mask that is zero on row 0 and one on every other row.
-/
import Idealize.ShloMosaic.Lib.ValueLayout
import proofs.«114618_j47768626266491_2_alg».proof.Proof.KernelPay
import proofs.«114618_j47768626266491_2_alg».proof.Proof.LibRowReduceProducts
import proofs.«114618_j47768626266491_2_alg».proof.Proof.Spec

noncomputable section

open scoped BigOperators

namespace Cert.Enc.KPay

open Idealize.ShloMosaic Idealize.ShloMosaic.ValueIdx Idealize.SL.Sem
open Cert.KernelIdeal Cert.KernelIdeal.Gen

/-- The sums down the columns of an [a, b] array, as a function of the column. The two side conditions are typed as
    the printed term carries them. -/
theorem colSum_fn {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) :
    multiReduction .add [0] ⟨1, ![b]⟩ src 0x00000000#32 h hφ hacc
      = fun c : (⟨1, ![b]⟩ : Shape).Idx => ∑ k : Fin a, src (ix2 k (c 0)) := by
  funext c
  obtain ⟨c0, rfl⟩ : ∃ c0 : Fin b, c = ix1 c0 := ⟨c 0, eq_ix1 c⟩
  exact Cert.LibRowReduceProducts.colSum_apply src h hφ hacc c0

/-- An [a, 1] array broadcast to [a, b] reads, at (p, c), the operand's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The five products -/

theorem mm_1x128_128x256 (x : FVec Ideal S1x128 .bf16) (y : FVec Ideal S128x256 .bf16) (e : Fin 1) (o : Fin 256) :
    matmul dot_S1x128_S128x256_S1x256_1_0_0_1_n_n none x y (constant (F := Ideal) S1x256 .f32 0x00000000#32) (ix2 e o)
      = ∑ r : Fin 128, x (ix2 e r) * y (ix2 r o) :=
  Cert.LibRowReduceProducts.matmulNN _ rfl rfl rfl rfl rfl rfl none x y e o

theorem mm_1024x128_128x256 (x : FVec Ideal S1024x128 .bf16) (y : FVec Ideal S128x256 .bf16) (e : Fin 1024) (o : Fin 256) :
    matmul dot_S1024x128_S128x256_S1024x256_1_0_0_1_n_n none x y (constant (F := Ideal) S1024x256 .f32 0x00000000#32) (ix2 e o)
      = ∑ r : Fin 128, x (ix2 e r) * y (ix2 r o) :=
  Cert.LibRowReduceProducts.matmulNN _ rfl rfl rfl rfl rfl rfl none x y e o

theorem mm_1024x256_256x256 (x : FVec Ideal S1024x256 .bf16) (y : FVec Ideal S256x256 .bf16) (e : Fin 1024) (o : Fin 256) :
    matmul dot_S1024x256_S256x256_S1024x256_1_0_0_1_n_n none x y (constant (F := Ideal) S1024x256 .f32 0x00000000#32) (ix2 e o)
      = ∑ r : Fin 256, x (ix2 e r) * y (ix2 r o) :=
  Cert.LibRowReduceProducts.matmulNN _ rfl rfl rfl rfl rfl rfl none x y e o

theorem mm_1x256_256x256 (x : FVec Ideal S1x256 .bf16) (y : FVec Ideal S256x256 .bf16) (e : Fin 1) (o : Fin 256) :
    matmul dot_S1x256_S256x256_S1x256_1_0_0_1_n_n none x y (constant (F := Ideal) S1x256 .f32 0x00000000#32) (ix2 e o)
      = ∑ r : Fin 256, x (ix2 e r) * y (ix2 r o) :=
  Cert.LibRowReduceProducts.matmulNN _ rfl rfl rfl rfl rfl rfl none x y e o

theorem mm_1024x256_256x128 (x : FVec Ideal S1024x256 .bf16) (y : FVec Ideal S256x128 .bf16) (e : Fin 1024) (o : Fin 128) :
    matmul dot_S1024x256_S256x128_S1024x128_1_0_0_1_n_n none x y (constant (F := Ideal) S1024x128 .f32 0x00000000#32) (ix2 e o)
      = ∑ r : Fin 256, x (ix2 e r) * y (ix2 r o) :=
  Cert.LibRowReduceProducts.matmulNN _ rfl rfl rfl rfl rfl rfl none x y e o

end Cert.Enc.KPay

end
-- ==== Proof.KernelPayRead2.lean ====
/-
  The second half of the kernel's computation read at an index, at the ideal (extended real) values.

  The kernel-side operations first, generic in the extents: a vector repeated down the rows (a cast to one row, then a
  broadcast), a column repeated across the columns, the matrix product into a zero accumulator of operands that pass
  through a change of format and a cast to the same shape (both the identity here), and the splat of a scalar constant.

  Then the stages, each against its curried specification: the normalisation with the variance taken as the mean of the
  squares less the square of the mean (bnWith over kVar); the first linear map distributed over the aggregate (kLin: the
  product, plus the row mask times the product of the row of column sums, plus the bias); a linear map with a bias (lin);
  the rectifier (relu).  Last the two composite values: the first normalisation followed by the second perceptron
  without its closing rectifier, and that rectifier followed by the second normalisation and the sum over the rows.
-/
import Idealize.ShloMosaic.PureOps.Ideal.Laws
import Idealize.ShloMosaic.Lib.Pipeline.Value
import Idealize.ShloMosaic.Lib.ValueIdx
import Idealize.ShloMosaic.Lib.ValueLayout
import proofs.«114618_j47768626266491_2_alg».proof.Proof.Gen.KernelIdeal.Skeleton
import proofs.«114618_j47768626266491_2_alg».proof.Proof.LibRowReduceProducts
import proofs.«114618_j47768626266491_2_alg».proof.Proof.Spec
import proofs.«114618_j47768626266491_2_alg».proof.Proof.Consts

noncomputable section

open scoped BigOperators

namespace Cert.Enc.KPay2

open Idealize.ShloMosaic Idealize.ShloMosaic.ValueIdx
open Cert.Enc

/-- An [a, b] array as a family of extended reals indexed by row and column. -/
abbrev m2 {a b : ℕ} {φ : FTy} (x : FVec Ideal ⟨2, ![a, b]⟩ φ) : Fin a → Fin b → EReal := fun i k => x (ix2 i k)

/-- A length-b vector as a family of extended reals. -/
abbrev m1 {b : ℕ} {φ : FTy} (v : FVec Ideal ⟨1, ![b]⟩ φ) : Fin b → EReal := fun j => v (ix1 j)

/-- A one-row array as a family of extended reals. -/
abbrev r1 {b : ℕ} {φ : FTy} (w : FVec Ideal ⟨2, ![1, b]⟩ φ) : Fin b → EReal := fun j => w (ix2 (0 : Fin 1) j)

/-! ## The kernel-side operations at an index -/

section Ops

variable {a b k : ℕ}

/-- A length-b vector cast to one row and repeated down a rows reads the vector at the column. -/
theorem rowsK_apply {α : Type} (v : (⟨1, ![b]⟩ : Shape).Idx → α)
    (hsc : (⟨1, ![b]⟩ : Shape).ShapeCasts ⟨2, ![1, b]⟩) (hbc : (⟨2, ![1, b]⟩ : Shape).Broadcasts ⟨2, ![a, b]⟩)
    (i : Fin a) (j : Fin b) :
    broadcastTo ⟨2, ![a, b]⟩ (shapeCast ⟨2, ![1, b]⟩ v hsc) hbc (ix2 i j) = v (ix1 j) :=
  (broadcastTo_1b_ab_apply _ hbc i j).trans (shapeCast_a_1a_apply v hsc 0 j)

/-- An [a, 1] column repeated across b columns reads the column at the row. -/
theorem colsK_apply {α : Type} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The product into a zero accumulator of a left operand that passed a change of format and a right operand that
    passed a cast to its own shape: entry (i, j) is the sum over r of X (i, r) * W (r, j). -/
theorem matmulK_apply (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![a, k]⟩ .f32) (hbits : FTy.bits .bf16 < FTy.bits .f32)
    (W : FVec Ideal ⟨2, ![k, b]⟩ .bf16) (hsc : (⟨2, ![k, b]⟩ : Shape).ShapeCasts ⟨2, ![k, b]⟩)
    (i : Fin a) (j : Fin b) :
    matmul D none (truncf .bf16 X hbits) (shapeCast ⟨2, ![k, b]⟩ W hsc) (constant ⟨2, ![a, b]⟩ .f32 0x00000000#32)
        (ix2 i j)
      = ∑ r : Fin k, X (ix2 i r) * W (ix2 r j) := by
  refine (Cert.LibRowReduceProducts.matmulNN D hlc hrc hln hrn hlb hrb none _ _ i j).trans ?_
  rw [shapeCast_self W hsc]
  rfl

/-- The sum down the columns, from the kernel's reduction. -/
theorem colSumK_apply (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ i : Fin a, src (ix2 i c) :=
  Cert.LibRowReduceProducts.colSum_apply src h hφ hacc c

end Ops

/-! ## The stages against their specifications -/

section Stages

variable {a b k : ℕ}

/-- The rectifier: the maximum with the splat of zero. -/
theorem reluK_apply (x : FVec Ideal ⟨2, ![a, b]⟩ .f32) (i : Fin a) (j : Fin b) :
    maximumf x (broadcast ⟨2, ![a, b]⟩ (Scalar.ofBits (F := Ideal) .f32 0x00000000#32)) (ix2 i j)
      = relu (m2 x) i j := by
  show max (x (ix2 i j)) (Ideal.ofBits .f32 0x00000000#32) = max (x (ix2 i j)) 0
  rw [Ideal.ofBits_zero_f32]

/-- A linear map with a bias: the product plus the bias repeated down the rows. -/
theorem linK_apply (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![a, k]⟩ .f32) (hbits : FTy.bits .bf16 < FTy.bits .f32)
    (W : FVec Ideal ⟨2, ![k, b]⟩ .bf16) (hsw : (⟨2, ![k, b]⟩ : Shape).ShapeCasts ⟨2, ![k, b]⟩)
    (bias : FVec Ideal ⟨1, ![b]⟩ .f32)
    (hsc : (⟨1, ![b]⟩ : Shape).ShapeCasts ⟨2, ![1, b]⟩) (hbc : (⟨2, ![1, b]⟩ : Shape).Broadcasts ⟨2, ![a, b]⟩)
    (i : Fin a) (j : Fin b) :
    addf
        (matmul D none (truncf .bf16 X hbits) (shapeCast ⟨2, ![k, b]⟩ W hsw)
          (constant ⟨2, ![a, b]⟩ .f32 0x00000000#32))
        (broadcastTo ⟨2, ![a, b]⟩ (shapeCast ⟨2, ![1, b]⟩ bias hsc) hbc) (ix2 i j)
      = lin (m2 X) (m2 W) (m1 bias) i j := by
  show matmul D none (truncf .bf16 X hbits) (shapeCast ⟨2, ![k, b]⟩ W hsw)
        (constant ⟨2, ![a, b]⟩ .f32 0x00000000#32) (ix2 i j)
      + broadcastTo ⟨2, ![a, b]⟩ (shapeCast ⟨2, ![1, b]⟩ bias hsc) hbc (ix2 i j)
    = (∑ r : Fin k, X (ix2 i r) * W (ix2 r j)) + bias (ix1 j)
  rw [matmulK_apply D hlc hrc hln hrn hlb hrb X hbits W hsw i j, rowsK_apply bias hsc hbc i j]

/-- The first linear map distributed over the aggregate: the product of H with W, plus the row mask (a column repeated
    across the columns) times the product with W of the one row of H's column sums (repeated down the rows), plus the
    bias. -/
theorem kLinK_apply (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (D₁ : DotDims ⟨2, ![1, k]⟩ ⟨2, ![k, b]⟩ ⟨2, ![1, b]⟩)
    (hlc₁ : D₁.lhsContracting = [1]) (hrc₁ : D₁.rhsContracting = [0]) (hln₁ : D₁.lhsNonContracting = [0])
    (hrn₁ : D₁.rhsNonContracting = [1]) (hlb₁ : D₁.lhsBatch = []) (hrb₁ : D₁.rhsBatch = [])
    (mask : FVec Ideal ⟨2, ![a, 1]⟩ .f32) (hmask : ∀ i : Fin a, mask (ix2 i (0 : Fin 1)) = rowMask i)
    (H : FVec Ideal ⟨2, ![a, k]⟩ .f32) (hbits : FTy.bits .bf16 < FTy.bits .f32)
    (W : FVec Ideal ⟨2, ![k, b]⟩ .bf16) (hsw : (⟨2, ![k, b]⟩ : Shape).ShapeCasts ⟨2, ![k, b]⟩)
    (bias : FVec Ideal ⟨1, ![b]⟩ .f32)
    (hred : Shape.Reduces ⟨2, ![a, k]⟩ [0] ⟨1, ![k]⟩) (hφ : FKind.Formats .f32)
    (hacc : (0x00000000#32 : BitVec 32) = FKind.add.neutral .f32 hφ)
    (hsk : (⟨1, ![k]⟩ : Shape).ShapeCasts ⟨2, ![1, k]⟩)
    (hsc : (⟨1, ![b]⟩ : Shape).ShapeCasts ⟨2, ![1, b]⟩) (hbc : (⟨2, ![1, b]⟩ : Shape).Broadcasts ⟨2, ![a, b]⟩)
    (hcol : (⟨2, ![a, 1]⟩ : Shape).Broadcasts ⟨2, ![a, b]⟩)
    (i : Fin a) (j : Fin b) :
    addf
        (addf
          (matmul D none (truncf .bf16 H hbits) (shapeCast ⟨2, ![k, b]⟩ W hsw)
            (constant ⟨2, ![a, b]⟩ .f32 0x00000000#32))
          (mulf (broadcastTo ⟨2, ![a, b]⟩ mask hcol)
            (broadcastTo ⟨2, ![a, b]⟩
              (matmul D₁ none
                (truncf .bf16
                  (shapeCast ⟨2, ![1, k]⟩ (multiReduction .add [0] ⟨1, ![k]⟩ H 0x00000000#32 hred hφ hacc) hsk) hbits)
                (shapeCast ⟨2, ![k, b]⟩ W hsw) (constant ⟨2, ![1, b]⟩ .f32 0x00000000#32))
              hbc)))
        (broadcastTo ⟨2, ![a, b]⟩ (shapeCast ⟨2, ![1, b]⟩ bias hsc) hbc) (ix2 i j)
      = kLin (m2 H) (m2 W) (m1 bias) i j := by
  show (matmul D none (truncf .bf16 H hbits) (shapeCast ⟨2, ![k, b]⟩ W hsw)
          (constant ⟨2, ![a, b]⟩ .f32 0x00000000#32) (ix2 i j)
        + broadcastTo ⟨2, ![a, b]⟩ mask hcol (ix2 i j)
          * broadcastTo ⟨2, ![a, b]⟩
              (matmul D₁ none
                (truncf .bf16
                  (shapeCast ⟨2, ![1, k]⟩ (multiReduction .add [0] ⟨1, ![k]⟩ H 0x00000000#32 hred hφ hacc) hsk) hbits)
                (shapeCast ⟨2, ![k, b]⟩ W hsw) (constant ⟨2, ![1, b]⟩ .f32 0x00000000#32))
              hbc (ix2 i j))
      + broadcastTo ⟨2, ![a, b]⟩ (shapeCast ⟨2, ![1, b]⟩ bias hsc) hbc (ix2 i j)
    = ((∑ r : Fin k, H (ix2 i r) * W (ix2 r j))
        + rowMask i * (∑ r : Fin k, (∑ n : Fin a, H (ix2 n r)) * W (ix2 r j))) + bias (ix1 j)
  rw [matmulK_apply D hlc hrc hln hrn hlb hrb H hbits W hsw i j, rowsK_apply bias hsc hbc i j,
    colsK_apply mask hcol i j, hmask i, broadcastTo_1b_ab_apply _ hbc i j,
    matmulK_apply D₁ hlc₁ hrc₁ hln₁ hrn₁ hlb₁ hrb₁ _ hbits W hsw (0 : Fin 1) j]
  refine congrArg (fun s => ((∑ r : Fin k, H (ix2 i r) * W (ix2 r j)) + rowMask i * s) + bias (ix1 j))
    (Finset.sum_congr rfl fun r _ => ?_)
  rw [shapeCast_a_1a_apply _ hsk 0 r, colSumK_apply H hred hφ hacc r]

/-- The normalisation with the variance as the mean of the squares less the square of the mean: mu is the one row of
    column means, sq the one row of column sums of squares; gamma and beta are vectors repeated down the rows. -/
theorem bnK_apply (R : FVec Ideal ⟨2, ![a, b]⟩ .f32) (mu sq : FVec Ideal ⟨2, ![1, b]⟩ .f32)
    (g be : FVec Ideal ⟨1, ![b]⟩ .f32)
    (hmean : ∀ j : Fin b, mu (ix2 (0 : Fin 1) j) = mean Consts.dv (m2 R) j)
    (hsq : ∀ j : Fin b, sq (ix2 (0 : Fin 1) j) = ∑ i : Fin a, R (ix2 i j) * R (ix2 i j))
    (hsc : (⟨1, ![b]⟩ : Shape).ShapeCasts ⟨2, ![1, b]⟩) (hbc : (⟨2, ![1, b]⟩ : Shape).Broadcasts ⟨2, ![a, b]⟩)
    (i : Fin a) (j : Fin b) :
    addf
        (mulf
          (mulf (subf R (broadcastTo ⟨2, ![a, b]⟩ mu hbc))
            (broadcastTo ⟨2, ![a, b]⟩
              (rsqrt
                (addf
                  (subf (divf sq (broadcast ⟨2, ![1, b]⟩ (Scalar.ofBits (F := Ideal) .f32 0x44800000#32)))
                    (mulf mu mu))
                  (broadcast ⟨2, ![1, b]⟩ (Scalar.ofBits (F := Ideal) .f32 0x3727C5AC#32))))
              hbc))
          (broadcastTo ⟨2, ![a, b]⟩ (shapeCast ⟨2, ![1, b]⟩ g hsc) hbc))
        (broadcastTo ⟨2, ![a, b]⟩ (shapeCast ⟨2, ![1, b]⟩ be hsc) hbc) (ix2 i j)
      = bnWith (kVar Consts.dv (m2 R)) Consts.dv Consts.rs Consts.eps (m2 R) (m1 g) (m1 be) i j := by
  show ((R (ix2 i j) - broadcastTo ⟨2, ![a, b]⟩ mu hbc (ix2 i j))
          * broadcastTo ⟨2, ![a, b]⟩
              (rsqrt
                (addf
                  (subf (divf sq (broadcast ⟨2, ![1, b]⟩ (Scalar.ofBits (F := Ideal) .f32 0x44800000#32)))
                    (mulf mu mu))
                  (broadcast ⟨2, ![1, b]⟩ (Scalar.ofBits (F := Ideal) .f32 0x3727C5AC#32))))
              hbc (ix2 i j))
        * broadcastTo ⟨2, ![a, b]⟩ (shapeCast ⟨2, ![1, b]⟩ g hsc) hbc (ix2 i j)
      + broadcastTo ⟨2, ![a, b]⟩ (shapeCast ⟨2, ![1, b]⟩ be hsc) hbc (ix2 i j)
    = ((R (ix2 i j) - mean Consts.dv (m2 R) j)
          * Ideal.rsqrt
              ((Ideal.div (∑ n : Fin a, R (ix2 n j) * R (ix2 n j)) (Ideal.ofBits .f32 0x44800000#32)
                  - mean Consts.dv (m2 R) j * mean Consts.dv (m2 R) j)
                + Ideal.ofBits .f32 0x3727C5AC#32))
        * g (ix1 j) + be (ix1 j)
  rw [broadcastTo_1b_ab_apply mu hbc i j, broadcastTo_1b_ab_apply _ hbc i j, rowsK_apply g hsc hbc i j,
    rowsK_apply be hsc hbc i j, hmean j]
  show ((_ - _)
          * Ideal.rsqrt
              ((Ideal.div (sq (ix2 (0 : Fin 1) j)) (Ideal.ofBits .f32 0x44800000#32)
                  - mu (ix2 (0 : Fin 1) j) * mu (ix2 (0 : Fin 1) j))
                + Ideal.ofBits .f32 0x3727C5AC#32))
        * _ + _ = _
  rw [hsq j, hmean j]

end Stages

/-! ## The two composite values -/

section Payloads

open Cert.KernelIdeal Cert.KernelIdeal.Gen

/-- The first normalisation applied to the first layer's rectified activations R (with the one-row arrays of R's column
    means and of the column sums of its squares, and the column mask), then the second perceptron up to, and without,
    its closing rectifier. -/
theorem pay6_apply (v5 : FVec Ideal S1024x1 .f32) (v33 : FVec Ideal S1024x256 .f32) (v37 v40 : FVec Ideal S1x256 .f32)
    (v52 v56 : FVec Ideal S256 .f32) (v62 : FVec Ideal S256x256 .bf16) (v72 : FVec Ideal S256 .f32)
    (v79 : FVec Ideal S256x128 .bf16) (v82 : FVec Ideal S128 .f32)
    (hmask : ∀ i : Fin 1024, v5 (ix2 i (0 : Fin 1)) = rowMask i)
    (hmean : ∀ j : Fin 256, v37 (ix2 (0 : Fin 1) j) = mean Consts.dv (m2 v33) j)
    (hsq : ∀ j : Fin 256, v40 (ix2 (0 : Fin 1) j) = ∑ i : Fin 1024, v33 (ix2 i j) * v33 (ix2 i j))
    (i : Fin 1024) (j : Fin 128) :
    k0_pay6 (F := Ideal) v5 v33 v37 v40 v52 v56 v62 v72 v79 v82 (ix2 i j)
      = lin (relu (kLin
          (bnWith (kVar Consts.dv (m2 v33)) Consts.dv Consts.rs Consts.eps (m2 v33) (m1 v52) (m1 v56))
          (m2 v62) (m1 v72))) (m2 v79) (m1 v82) i j := by
  unfold k0_pay6
  refine (linK_apply dot_S1024x256_S256x128_S1024x128_1_0_0_1_n_n rfl rfl rfl rfl rfl rfl _ bitsLt_bf16_f32
    v79 shapeCasts_S256x128_S256x128 v82 shapeCasts_S128_S1x128 broadcasts_S1x128_S1024x128 i j).trans ?_
  refine congrArg (fun h => lin h (m2 v79) (m1 v82) i j) (funext fun i => funext fun r => ?_)
  refine (reluK_apply _ i r).trans ?_
  refine congrArg (fun h => relu h i r) (funext fun i => funext fun s => ?_)
  refine (kLinK_apply dot_S1024x256_S256x256_S1024x256_1_0_0_1_n_n rfl rfl rfl rfl rfl rfl
    dot_S1x256_S256x256_S1x256_1_0_0_1_n_n rfl rfl rfl rfl rfl rfl v5 hmask _ bitsLt_bf16_f32
    v62 shapeCasts_S256x256_S256x256 v72 reduces_S1024x256_S256 (.inl rfl) rfl shapeCasts_S256_S1x256
    shapeCasts_S256_S1x256 broadcasts_S1x256_S1024x256 broadcasts_S1024x1_S1024x256 i s).trans ?_
  refine congrArg (fun h => kLin h (m2 v62) (m1 v72) i s) (funext fun i => funext fun t => ?_)
  exact bnK_apply v33 v37 v40 v52 v56 hmean hsq shapeCasts_S256_S1x256 broadcasts_S1x256_S1024x256 i t

/-- The closing rectifier of the second perceptron, the second normalisation, and the sum over the rows. -/
theorem pay1_apply (v85 : FVec Ideal S1024x128 .f32) (v106 v110 : FVec Ideal S128 .f32) (j : Fin 128) :
    k0_pay1 (F := Ideal) v85 v106 v110 (ix1 j)
      = readout (bnWith (kVar Consts.dv (relu (m2 v85))) Consts.dv Consts.rs Consts.eps (relu (m2 v85))
          (m1 v106) (m1 v110)) j := by
  unfold k0_pay1
  refine (colSumK_apply _ reduces_S1024x128_S128 (.inl rfl) rfl j).trans ?_
  refine Finset.sum_congr rfl fun i _ => ?_
  have hR : ∀ (i : Fin 1024) (r : Fin 128),
      maximumf v85 (broadcast S1024x128 (Scalar.ofBits (F := Ideal) .f32 0x00000000#32)) (ix2 i r)
        = relu (m2 v85) i r := fun i r => reluK_apply v85 i r
  have hRf : m2 (maximumf v85 (broadcast S1024x128 (Scalar.ofBits (F := Ideal) .f32 0x00000000#32)))
      = relu (m2 v85) := funext fun i => funext fun r => hR i r
  refine (bnK_apply (maximumf v85 (broadcast S1024x128 (Scalar.ofBits (F := Ideal) .f32 0x00000000#32)))
    _ _ v106 v110 (fun c => ?_) (fun c => ?_) shapeCasts_S128_S1x128 broadcasts_S1x128_S1024x128 i j).trans ?_
  · -- the one row of column means
    show Ideal.div (shapeCast S1x128 _ shapeCasts_S128_S1x128 (ix2 (0 : Fin 1) c)) (Ideal.ofBits .f32 0x44800000#32)
      = Ideal.div (∑ n : Fin 1024, _) (Ideal.ofBits .f32 0x44800000#32)
    rw [shapeCast_a_1a_apply _ shapeCasts_S128_S1x128 0 c, colSumK_apply _ reduces_S1024x128_S128 (.inl rfl) rfl c]
  · -- the one row of column sums of squares
    rw [shapeCast_a_1a_apply _ shapeCasts_S128_S1x128 0 c, colSumK_apply _ reduces_S1024x128_S128 (.inl rfl) rfl c]
    rfl
  · exact congrArg (fun R => bnWith (kVar Consts.dv R) Consts.dv Consts.rs Consts.eps R (m1 v106) (m1 v110) i j) hRf

end Payloads

end Cert.Enc.KPay2

end
-- ==== Proof.KernelPayRead3.lean ====
/- Three of the kernel's stored intermediate values read at an index, at the extended reals:

   * the row mask: the 32-bit row number compared with zero, widened and converted, is 0 on row 0 and 1 on every other row;
   * the column mean of the first layer's rectified output R: the sum down each column divided by the literal 1024.0;
   * the column sum of squares of R.

   R itself (the first layer before its normalisation) is kept as one unopened term. -/
import Idealize.ShloMosaic.Lib.ValueLayout
import proofs.«114618_j47768626266491_2_alg».proof.Proof.Gen.KernelIdeal.Skeleton
import proofs.«114618_j47768626266491_2_alg».proof.Proof.Spec
import proofs.«114618_j47768626266491_2_alg».proof.Proof.Consts
import proofs.«114618_j47768626266491_2_alg».proof.Proof.LibRowReduceProducts

noncomputable section

open scoped BigOperators

namespace Cert.Enc.KPay3

open Idealize.ShloMosaic Idealize.ShloMosaic.ValueIdx Idealize.SL.Sem
open Cert.KernelIdeal Cert.KernelIdeal.Gen

/-- A row number below 1024, as a 32-bit word, is the zero word only for row 0. -/
theorem ofNat_row_ne_zero (i : Fin 1024) (h : i.val ≠ 0) : BitVec.ofNat 32 i.val ≠ 0#32 := by
  intro e
  have e' := congrArg BitVec.toNat e
  rw [BitVec.toNat_ofNat] at e'
  have hi : i.val < 1024 := i.isLt
  have : i.val % 2 ^ 32 = i.val := Nat.mod_eq_of_lt (by omega)
  rw [this] at e'
  exact h e'

/-- The row mask: zero on row 0, one elsewhere. -/
theorem pay2_apply (i : Fin 1024) : k0_pay2 (F := Ideal) (ix2 i (0 : Fin 1)) = Cert.Enc.rowMask i := by
  unfold k0_pay2
  show ((((IntOp.cmpi .ne (iota .tc S1024x1 32 [0] iota_S1024x1_d0_w32 (ix2 i (0 : Fin 1))) 0#32).setWidth 32).toInt : ℝ) : EReal) = _
  rw [iota_single_apply]
  show ((((IntOp.cmpi .ne (BitVec.ofNat 32 i.val) 0#32).setWidth 32).toInt : ℝ) : EReal) = _
  unfold Cert.Enc.rowMask
  by_cases h : i.val = 0
  · rw [if_pos h, h]
    have e : IntOp.cmpi .ne (BitVec.ofNat 32 0) 0#32 = 0#1 := by decide
    rw [e]
    have e2 : ((0#1 : BitVec 1).setWidth 32).toInt = 0 := by decide
    rw [e2]; simp
  · rw [if_neg h]
    have e : IntOp.cmpi .ne (BitVec.ofNat 32 i.val) 0#32 = 1#1 := IntOp.cmpi_ne.mpr (ofNat_row_ne_zero i h)
    rw [e]
    have e2 : ((1#1 : BitVec 1).setWidth 32).toInt = 1 := by decide
    rw [e2]; simp

/-- The column mean of the first layer's rectified output. -/
theorem pay4_apply (x0 : Vec Ideal S1024x128 .f32) (x1 : Vec Ideal S128x256 .bf16) (x2 : Vec Ideal S256 .f32)
    (x3 : Vec Ideal S256x256 .bf16) (x4 : Vec Ideal S256 .f32) (j : Fin 256) :
    k0_pay4 (F := Ideal) x0 x1 x2 x3 x4 (ix2 (0 : Fin 1) j)
      = Cert.Enc.mean Consts.dv (fun i k => k0_pay3 (F := Ideal) x0 x1 x2 x3 x4 (ix2 i k)) j := by
  unfold k0_pay4
  generalize k0_pay3 (F := Ideal) x0 x1 x2 x3 x4 = v33
  show Ideal.div (shapeCast S1x256 (multiReduction (F := Ideal) .add [0] S256 v33 0x00000000#32 reduces_S1024x256_S256 (.inl rfl) rfl)
      shapeCasts_S256_S1x256 (ix2 (0 : Fin 1) j)) (Ideal.ofBits .f32 0x44800000#32) = _
  refine (congrArg (fun z => Ideal.div z (Ideal.ofBits .f32 0x44800000#32))
    ((shapeCast_a_1a_apply _ _ (0 : Fin 1) j).trans (Cert.LibRowReduceProducts.colSum_apply v33 _ _ _ j))).trans ?_
  rfl

/-- The column sum of squares of the first layer's rectified output. -/
theorem pay5_apply (x0 : Vec Ideal S1024x128 .f32) (x1 : Vec Ideal S128x256 .bf16) (x2 : Vec Ideal S256 .f32)
    (x3 : Vec Ideal S256x256 .bf16) (x4 : Vec Ideal S256 .f32) (j : Fin 256) :
    k0_pay5 (F := Ideal) x0 x1 x2 x3 x4 (ix2 (0 : Fin 1) j)
      = ∑ i : Fin 1024, k0_pay3 (F := Ideal) x0 x1 x2 x3 x4 (ix2 i j) * k0_pay3 (F := Ideal) x0 x1 x2 x3 x4 (ix2 i j) := by
  unfold k0_pay5
  generalize k0_pay3 (F := Ideal) x0 x1 x2 x3 x4 = v33
  show shapeCast S1x256 (multiReduction (F := Ideal) .add [0] S256 (mulf v33 v33) 0x00000000#32 reduces_S1024x256_S256 (.inl rfl) rfl)
      shapeCasts_S256_S1x256 (ix2 (0 : Fin 1) j) = _
  refine ((shapeCast_a_1a_apply _ _ (0 : Fin 1) j).trans (Cert.LibRowReduceProducts.colSum_apply (mulf v33 v33) _ _ _ j)).trans ?_
  rfl

end Cert.Enc.KPay3

end
-- ==== Proof.KernelPayRead.lean ====
/-
  The stored value read at an index. First the first perceptron of the stored value, read at an entry: the product of the features with the first weights,
  plus off row 0 the product of the row of column sums with the same weights, plus the bias, rectified; then the
  product with the second weights plus the second bias, rectified. That is the function `kPre` of the features,
  weights and biases read entry by entry. Then the whole stored value at a column: with the row mask, the column means
  and the column sums of squares of the first perceptron's output, the second perceptron and the closing normalisation
  and read-out compose to the encoder's first arrangement `kOut`.
-/
import proofs.«114618_j47768626266491_2_alg».proof.Proof.KernelPayOps
import proofs.«114618_j47768626266491_2_alg».proof.Proof.Consts
import proofs.«114618_j47768626266491_2_alg».proof.Proof.KernelPayRead2
import proofs.«114618_j47768626266491_2_alg».proof.Proof.KernelPayRead3

noncomputable section

open scoped BigOperators

namespace Cert.Enc.KPay

open Idealize.ShloMosaic Idealize.ShloMosaic.ValueIdx Idealize.SL.Sem
open Cert.KernelIdeal Cert.KernelIdeal.Gen

/-- Entry (i, j) of the first perceptron's output. The row mask enters through `hmask`: it is zero on row 0 and one
    elsewhere. The one column sum is named first, so that it can be read under the sums of the two products; every
    other operation is read at its index, and the zero word is the real zero. -/
theorem pay3_apply (x0 : Vec Ideal S1024x128 .f32) (x1 : Vec Ideal S128x256 .bf16) (x2 : Vec Ideal S256 .f32)
    (x3 : Vec Ideal S256x256 .bf16) (x4 : Vec Ideal S256 .f32)
    (hmask : ∀ i : Fin 1024, k0_pay2 (F := Ideal) (ix2 i (0 : Fin 1)) = Cert.Enc.rowMask i)
    (i : Fin 1024) (j : Fin 256) :
    k0_pay3 (F := Ideal) x0 x1 x2 x3 x4 (ix2 i j)
      = Cert.Enc.kPre (fun i k => x0 (ix2 i k)) (fun k j => x1 (ix2 k j)) (fun j => x2 (ix1 j))
          (fun k j => x3 (ix2 k j)) (fun j => x4 (ix1 j)) i j := by
  unfold Gen.k0_pay3
  dsimp only
  generalize hv6 : multiReduction (F := Ideal) .add [0] S128 x0 0x00000000#32 reduces_S1024x128_S128 (.inl rfl) rfl = v6
  have hv6' : ∀ c : Fin 128, v6 (ix1 c) = ∑ k : Fin 1024, x0 (ix2 k c) := fun c => by
    subst hv6; exact Cert.LibRowReduceProducts.colSum_apply x0 _ _ _ c
  simp only [hv6', maximumf_apply, addf_apply, mulf_apply, broadcast_apply, truncf_apply, shapeCast_self,
    mm_1x128_128x256, mm_1024x128_128x256, mm_1024x256_256x256, broadcastTo_1b_ab_apply, broadcastTo_a1_ab_apply,
    shapeCast_a_1a_apply, hmask]
  simp only [Ideal.ofBits_def, Consts.ofBits_zero, Cert.Enc.kPre, Cert.Enc.relu, Cert.Enc.lin, Cert.Enc.kLin,
    Cert.Enc.colSum]

/-- The stored value at column j is the encoder's first arrangement of the thirteen blocks read entry by entry: the
    first perceptron is `kPre` of the features; its column means and column sums of squares feed the first
    normalisation inside the second perceptron; the closing rectifier, the second normalisation and the sum over
    the rows give the read-out. -/
theorem pay_apply (x0 : Vec Ideal S1024x128 .f32) (x1 : Vec Ideal S128x256 .bf16) (x2 : Vec Ideal S256 .f32)
    (x3 : Vec Ideal S256x256 .bf16) (x4 : Vec Ideal S256 .f32) (x5 : Vec Ideal S256 .f32) (x6 : Vec Ideal S256 .f32)
    (x7 : Vec Ideal S256x256 .bf16) (x8 : Vec Ideal S256 .f32) (x9 : Vec Ideal S256x128 .bf16)
    (x10 : Vec Ideal S128 .f32) (x11 : Vec Ideal S128 .f32) (x12 : Vec Ideal S128 .f32) (j : Fin 128) :
    pay (F := Ideal) x0 x1 x2 x3 x4 x5 x6 x7 x8 x9 x10 x11 x12 (ix1 j)
      = Cert.Enc.kOut Consts.dv Consts.rs Consts.eps (fun i k => x0 (ix2 i k)) (fun k j => x1 (ix2 k j))
          (fun j => x2 (ix1 j)) (fun k j => x3 (ix2 k j)) (fun j => x4 (ix1 j)) (fun j => x5 (ix1 j))
          (fun j => x6 (ix1 j)) (fun k j => x7 (ix2 k j)) (fun j => x8 (ix1 j)) (fun k j => x9 (ix2 k j))
          (fun j => x10 (ix1 j)) (fun j => x11 (ix1 j)) (fun j => x12 (ix1 j)) j := by
  -- the first perceptron, as a family of entries
  have h3 : (fun i k => k0_pay3 (F := Ideal) x0 x1 x2 x3 x4 (ix2 i k))
      = Cert.Enc.kPre (fun i k => x0 (ix2 i k)) (fun k j => x1 (ix2 k j)) (fun j => x2 (ix1 j))
          (fun k j => x3 (ix2 k j)) (fun j => x4 (ix1 j)) :=
    funext fun i => funext fun k => pay3_apply x0 x1 x2 x3 x4 KPay3.pay2_apply i k
  -- the second perceptron before its closing rectifier, as a family of entries
  have h6 : (fun i o => k0_pay6 (F := Ideal) (k0_pay2 (F := Ideal)) (k0_pay3 x0 x1 x2 x3 x4) (k0_pay4 x0 x1 x2 x3 x4)
        (k0_pay5 x0 x1 x2 x3 x4) x5 x6 x7 x8 x9 x10 (ix2 i o))
      = Cert.Enc.lin (Cert.Enc.relu (Cert.Enc.kLin
          (Cert.Enc.kLayer Consts.dv Consts.rs Consts.eps (fun i k => x0 (ix2 i k)) (fun k j => x1 (ix2 k j))
            (fun j => x2 (ix1 j)) (fun k j => x3 (ix2 k j)) (fun j => x4 (ix1 j)) (fun j => x5 (ix1 j))
            (fun j => x6 (ix1 j)))
          (fun k j => x7 (ix2 k j)) (fun j => x8 (ix1 j)))) (fun k j => x9 (ix2 k j)) (fun j => x10 (ix1 j)) :=
    funext fun i => funext fun o => by
      refine (KPay2.pay6_apply (k0_pay2 (F := Ideal)) (k0_pay3 x0 x1 x2 x3 x4) (k0_pay4 x0 x1 x2 x3 x4)
        (k0_pay5 x0 x1 x2 x3 x4) x5 x6 x7 x8 x9 x10 KPay3.pay2_apply (KPay3.pay4_apply x0 x1 x2 x3 x4)
        (KPay3.pay5_apply x0 x1 x2 x3 x4) i o).trans ?_
      show Cert.Enc.lin (Cert.Enc.relu (Cert.Enc.kLin
          (Cert.Enc.bnWith (Cert.Enc.kVar Consts.dv (fun i k => k0_pay3 (F := Ideal) x0 x1 x2 x3 x4 (ix2 i k)))
            Consts.dv Consts.rs Consts.eps (fun i k => k0_pay3 (F := Ideal) x0 x1 x2 x3 x4 (ix2 i k))
            (fun j => x5 (ix1 j)) (fun j => x6 (ix1 j)))
          (fun k j => x7 (ix2 k j)) (fun j => x8 (ix1 j)))) (fun k j => x9 (ix2 k j)) (fun j => x10 (ix1 j)) i o = _
      rw [h3]
      rfl
  unfold pay
  refine (KPay2.pay1_apply _ x11 x12 j).trans ?_
  show Cert.Enc.readout (Cert.Enc.bnWith
      (Cert.Enc.kVar Consts.dv (Cert.Enc.relu (fun i o => k0_pay6 (F := Ideal) (k0_pay2 (F := Ideal))
        (k0_pay3 x0 x1 x2 x3 x4) (k0_pay4 x0 x1 x2 x3 x4) (k0_pay5 x0 x1 x2 x3 x4) x5 x6 x7 x8 x9 x10 (ix2 i o))))
      Consts.dv Consts.rs Consts.eps
      (Cert.Enc.relu (fun i o => k0_pay6 (F := Ideal) (k0_pay2 (F := Ideal))
        (k0_pay3 x0 x1 x2 x3 x4) (k0_pay4 x0 x1 x2 x3 x4) (k0_pay5 x0 x1 x2 x3 x4) x5 x6 x7 x8 x9 x10 (ix2 i o)))
      (fun j => x11 (ix1 j)) (fun j => x12 (ix1 j))) j = _
  rw [h6]
  rfl

end Cert.Enc.KPay

end
-- ==== Proof.lean ====
/-
  A two-layer graph encoder on 1024 nodes: per layer an aggregation over the graph, a two-layer perceptron with
  rectifiers, and a normalisation of every feature column over the nodes; the result is the column sum of the second
  layer.  Every node but node 0 receives an edge from every node and node 0 receives none.

  The reference aggregates by gathering the source row of each of the 1024 * 1023 edges and adding it into the
  destination row, and multiplies the aggregate by the first weight matrix; it takes the variance of a column as the
  mean of the squared deviations.  The kernel multiplies the features and the row of their column sums by the first
  weight matrix separately and adds the second product off row 0; it takes the variance as the mean of the squares less
  the square of the mean.  On extended reals these agree when every input entry is finite: then every intermediate
  value is a real number, the product distributes over the aggregate, the two variances are one real number, and that
  number plus the positive constant added to it has a real reciprocal square root, so finiteness carries through
  the first layer into the second.

  The modules: Spec states both arrangements over finitely indexed families; SpecMath proves them equal on finite
  inputs; PreFinite reads the finiteness of every input entry off the precondition; Aggregate collapses the edge-wise
  gather and scatter-add to the masked column sum; RefTerm, RefRun, RefOps, RefRead run the reference and read it at an
  index; KernelPay, KernelPayRead, KernelValue do the same for the kernel.
-/
import proofs.«114618_j47768626266491_2_alg».proof.Defs
import proofs.«114618_j47768626266491_2_alg».proof.Proof.Gen.Kernel
import proofs.«114618_j47768626266491_2_alg».proof.Proof.Gen.Kernel.Skeleton
import proofs.«114618_j47768626266491_2_alg».proof.Proof.Gen.Kernel.Launch
import proofs.«114618_j47768626266491_2_alg».proof.Proof.Gen.Kernel.Points
import proofs.«114618_j47768626266491_2_alg».proof.Proof.Gen.Kernel.Frame
import proofs.«114618_j47768626266491_2_alg».proof.Proof.Gen.KernelIdeal
import proofs.«114618_j47768626266491_2_alg».proof.Proof.Gen.KernelIdeal.Skeleton
import proofs.«114618_j47768626266491_2_alg».proof.Proof.Gen.KernelIdeal.Launch
import proofs.«114618_j47768626266491_2_alg».proof.Proof.Gen.KernelIdeal.Points
import proofs.«114618_j47768626266491_2_alg».proof.Proof.Gen.KernelIdeal.Frame
import proofs.«114618_j47768626266491_2_alg».proof.Proof.Gen.KernelIdeal.Value
import proofs.«114618_j47768626266491_2_alg».proof.Proof.Gen.ReferenceIdeal
import proofs.«114618_j47768626266491_2_alg».proof.Proof.Gen.Pre_finite_inputs
import proofs.«114618_j47768626266491_2_alg».proof.Proof.SpecMath
import proofs.«114618_j47768626266491_2_alg».proof.Proof.Consts
import proofs.«114618_j47768626266491_2_alg».proof.Proof.PreFinite
import proofs.«114618_j47768626266491_2_alg».proof.Proof.Bridge
import proofs.«114618_j47768626266491_2_alg».proof.Proof.RefRun
import proofs.«114618_j47768626266491_2_alg».proof.Proof.KernelValue
import proofs.«114618_j47768626266491_2_alg».proof.Proof.KernelPayRead
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.Enc.RefRun.run (F := Ideal) m ρ)

/-- From memories agreeing on the thirteen arguments, both idealized programs run; the kernel's result array is its
    stored value of the arguments and the reference's result is its composed term of them, and on the finite inputs
    the precondition grants these are one array. -/
theorem algebraic : Cert.algebraic_KernelIdeal_ReferenceIdeal := by
  intro m ρ m' ρ' hpre hagree
  refine ⟨_, Cert.Enc.KValue.run_ideal m ρ, ?_⟩
  refine (θ_run Cert.ReferenceIdeal.defs _ _).mono (fun r h c => ⟨(h c).1.trans ?_, (h c).2⟩)
    (Cert.Enc.RefRun.run (F := Ideal) m' ρ')
  obtain ⟨e0, e1, e2, e3, e4, e5, e6, e7, e8, e9, e10, e11, e12⟩ := hagree c
  rw [e0, e1, e2, e3, e4, e5, e6, e7, e8, e9, e10, e11, e12]
  obtain ⟨f0, f1, f2, f3, f4, f5, f6, f7, f8, f9, f10, f11, f12⟩ :=
    Cert.Enc.PreFinite.all_finite _ _ _ _ _ _ _ _ _ _ _ _ _ (hpre c)
  exact Cert.Enc.Bridge.out_eq_pay _ _ _ _ _ _ _ _ _ _ _ _ _ f0 f1 f2 f3 f4 f5 f6 f7 f8 f9 f10 f11 f12
    (fun j => Cert.Enc.KPay.pay_apply _ _ _ _ _ _ _ _ _ _ _ _ _ j)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
